-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S256x3x224x224 : Shape := ⟨4, ![256, 3, 224, 224]⟩
abbrev S256x1000 : Shape := ⟨2, ![256, 1000]⟩
abbrev S256x1 : Shape := ⟨2, ![256, 1]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S256x1000 : S_.BroadcastsInDim S256x1000 (![] : Fin 0 → Fin S256x1000.rank)
  reducesTo_S256x1000_S_d0_1 : S256x1000.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg3 : IVec S256x1 32) (main_v13 : IVec S_ 1) (main_v15 : IVec S256x1 1) (main_c_5 : IVec S_ 32) : IVec S_ 1 :=
  let main_v16 : IVec S256x1 32 := broadcastInDim S256x1 ![] bcast_S_S256x1 main_c_5
  let main_v17 : IVec S256x1 1 := cmpi .sle main_arg3 main_v16
  let main_v18 : IVec S256x1 1 := andi main_v15 main_v17
  let main_c_6 : IVec S_ 1 := constantI S_ 1 1#1
  let main_v19 : IVec S_ 1 := (fun x v => Host.reduce IntOp.andi x v reducesTo_S256x1_S_d0_1 h_S_) main_v18 main_c_6
  let main_v20 : IVec S_ 1 := andi main_v13 main_v19
  main_v20

def fn {F : FTy → Type} [FloatOps F] (main_arg0 : FVec F S256x3x224x224 .f32) (main_arg1 : FVec F S256x3x224x224 .f32) (main_arg2 : FVec F S256x1000 .f32) (main_arg3 : IVec S256x1 32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S256x3x224x224 .f32 := Host.absf main_arg1
  let main_cst_0 : FVec F S_ .f32 := constant S_ .f32 0x7F800000#32
  let main_v5 : FVec F S256x3x224x224 .f32 := broadcastInDim S256x3x224x224 ![] bcast_S_S256x3x224x224 main_cst_0
  let main_v6 : IVec S256x3x224x224 1 := cmpf .olt main_v4 main_v5
  let main_c_1 : IVec S_ 1 := constantI S_ 1 1#1
  let main_v7 : IVec S_ 1 := (fun x v => Host.reduce IntOp.andi x v reducesTo_S256x3x224x224_S_d0_1_2_3 h_S_) main_v6 main_c_1
  let main_v8 : IVec S_ 1 := andi main_v3 main_v7
  let main_v9 : FVec F S256x1000 .f32 := Host.absf main_arg2
  let main_cst_2 : FVec F S_ .f32 := constant S_ .f32 0x7F800000#32
  let main_v10 : FVec F S256x1000 .f32 := broadcastInDim S256x1000 ![] bcast_S_S256x1000 main_cst_2
  let main_v11 : IVec S256x1000 1 := cmpf .olt main_v9 main_v10
  let main_c_3 : IVec S_ 1 := constantI S_ 1 1#1
  let main_v12 : IVec S_ 1 := (fun x v => Host.reduce IntOp.andi x v reducesTo_S256x1000_S_d0_1 h_S_) main_v11 main_c_3
  let main_v13 : IVec S_ 1 := andi main_v8 main_v12
  let main_c_4 : IVec S_ 32 := constantI S_ 32 0#32
  let main_v14 : IVec S256x1 32 := broadcastInDim S256x1 ![] bcast_S_S256x1 main_c_4
  let main_v15 : IVec S256x1 1 := cmpi .sge main_arg3 main_v14
  let main_c_5 : IVec S_ 32 := constantI S_ 32 999#32
  fn_part1 (F := F) main_arg3 main_v13 main_v15 main_c_5
-- ==== Kernel.lean ====
abbrev S256x3x224x224 : Shape := ⟨4, ![256, 3, 224, 224]⟩
abbrev S256x1000 : Shape := ⟨2, ![256, 1000]⟩
abbrev S256x1 : Shape := ⟨2, ![256, 1]⟩
abbrev S1x1 : Shape := ⟨2, ![1, 1]⟩
abbrev S16x3x224x224 : Shape := ⟨4, ![16, 3, 224, 224]⟩
abbrev S224x224 : Shape := ⟨2, ![224, 224]⟩
abbrev S1x224x224 : Shape := ⟨3, ![1, 224, 224]⟩
abbrev S1 : Shape := ⟨1, ![1]⟩
abbrev S1x1x1 : Shape := ⟨3, ![1, 1, 1]⟩
abbrev S_ : Shape := ⟨0, ![]⟩
abbrev S16x16x1000 : Shape := ⟨3, ![16, 16, 1000]⟩
abbrev S16x1000x16 : Shape := ⟨3, ![16, 1000, 16]⟩
abbrev S16x16000 : Shape := ⟨2, ![16, 16000]⟩
abbrev S256 : Shape := ⟨1, ![256]⟩
abbrev S16x16 : Shape := ⟨2, ![16, 16]⟩
abbrev S16000 : Shape := ⟨1, ![16000]⟩
abbrev S16 : Shape := ⟨1, ![16]⟩
abbrev S1x16000 : Shape := ⟨2, ![1, 16000]⟩
abbrev S1x16 : Shape := ⟨2, ![1, 16]⟩

abbrev nBuf : Table → Nat
  | .hbm => 22
  | .local .tc .vmem => 5
  | .local .tc .smem => 1
  | .local .scVector .vmem => 3
  | _ => 0

abbrev bufTy : (tb : Table) → Fin (nBuf tb) → BufTy
  | .hbm, ⟨0, _⟩ => ⟨S256x3x224x224, .f32⟩
  | .hbm, ⟨1, _⟩ => ⟨S256x3x224x224, .f32⟩
  | .hbm, ⟨2, _⟩ => ⟨S256x1000, .f32⟩
  | .hbm, ⟨3, _⟩ => ⟨S256x1, .i32⟩
  | .hbm, ⟨4, _⟩ => ⟨S1x1, .f32⟩
  | .hbm, ⟨5, _⟩ => ⟨S_, .f32⟩
  | .hbm, ⟨6, _⟩ => ⟨S16x16x1000, .f32⟩
  | .hbm, ⟨7, _⟩ => ⟨S16x1000x16, .f32⟩
  | .hbm, ⟨8, _⟩ => ⟨S16x16000, .f32⟩
  | .hbm, ⟨9, _⟩ => ⟨S256, .i32⟩
  | .hbm, ⟨10, _⟩ => ⟨S16x16, .i32⟩
  | .hbm, ⟨11, _⟩ => ⟨S16x16, .f32⟩
  | .hbm, ⟨12, _⟩ => ⟨S_, .f32⟩
  | .hbm, ⟨13, _⟩ => ⟨S_, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local .tc .vmem, ⟨0, _⟩ => ⟨S16x3x224x224, .f32⟩
  | .local .tc .vmem, ⟨1, _⟩ => ⟨S16x3x224x224, .f32⟩
  | .local .tc .vmem, ⟨2, _⟩ => ⟨S16x3x224x224, .f32⟩
  | .local .tc .vmem, ⟨3, _⟩ => ⟨S16x3x224x224, .f32⟩
  | .local .tc .vmem, ⟨4, _⟩ => ⟨S224x224, .f32⟩
  | .local .tc .smem, ⟨0, _⟩ => ⟨S1x1, .f32⟩
  | .local .scVector .vmem, ⟨0, _⟩ => ⟨S16000, .f32⟩
  | .local .scVector .vmem, ⟨1, _⟩ => ⟨S16, .i32⟩
  | .local .scVector .vmem, ⟨2, _⟩ => ⟨S16, .f32⟩
  | _, _ => ⟨S256x3x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v4_scv : Ref sig .scVector := ⟨.hbm, 8, rfl⟩
abbrev main_v6_scv : Ref sig .scVector := ⟨.hbm, 10, rfl⟩
abbrev main_v7_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v18 : BitVec 1 := Scalar.cmpi .eq arg0 c15_i32
  let v19 : BitVec 32 := Scalar.extui v18
  let c0_i32_14 : BitVec 32 := 0#32
  let v20 : BitVec 1 := Scalar.cmpi .ne v19 c0_i32_14
  v20

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r0 : BitVec 32 := 0#32
  ![v1.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r1 : BitVec 32 := 0#32
  ![v1.toNat, 0]
@[reducible] def k1_t1_loop : Scf.Loop 32 :=
  let c0_i32_1 : BitVec 32 := 0#32
  let c1000_i32 : BitVec 32 := 1000#32
  let v9 : BitVec 32 := Scalar.addi c0_i32_1 c1000_i32
  let c1_i32 : BitVec 32 := 1#32
  ⟨c0_i32_1, v9, c1_i32⟩
def k1_off3 (k1_t1 : Fin k1_t1_loop.trips) : Fin 1 → Nat :=
  let c0_i32_1 : BitVec 32 := 0#32
  let c1_i32 : BitVec 32 := 1#32
  let arg9 : BitVec 32 := Scf.iv c0_i32_1 c1_i32 k1_t1
  let c16_i32_5 : BitVec 32 := 16#32
  let v17 : BitVec 32 := Scalar.muli arg9 c16_i32_5
  let v18 : Index := Scalar.indexCast v17
  ![v18.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S224x224_S224x224_0_0 : ∀ a, (![0, 0] : Fin 2 → Nat) a + S224x224.size a ≤ S224x224.size a
  h_S224x224 : 0 < S224x224.numel
  shapeCasts_S224x224_S224x224 : S224x224.ShapeCasts S224x224
  inb_S16x3x224x224_S16x3x224x224_0_0_0_0 : ∀ a, (![0, 0, 0, 0] : Fin 4 → Nat) a + S16x3x224x224.size a ≤ S16x3x224x224.size a
  h_S16x3x224x224 : 0 < S16x3x224x224.numel
  reduces_S16x3x224x224_S224x224 : S16x3x224x224.Reduces [0, 1] S224x224
  shapeCasts_S224x224_S1x224x224 : S224x224.ShapeCasts S1x224x224
  reduces_S1x224x224_S1 : S1x224x224.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  shapeCasts_S256x1000_S16x16x1000 : S256x1000.ShapeCasts S16x16x1000
  transposes_S16x16x1000_S16x1000x16_0_2_1 : S16x16x1000.Transposes [0, 2, 1] S16x1000x16
  shapeCasts_S16x1000x16_S16x16000 : S16x1000x16.ShapeCasts S16x16000
  shapeCasts_S256x1_S256 : S256x1.ShapeCasts S256
  shapeCasts_S256_S16x16 : S256.ShapeCasts S16x16
  squeezes_S1x16000_S16000 : S1x16000.Squeezes S16000
  squeezes_S1x16_S16 : S1x16.Squeezes S16
  inb_S16_S16_0 : ∀ a, (![0] : Fin 1 → Nat) a + S16.size a ≤ S16.size a
  h_S16 : 0 < S16.numel
  shapeCasts_S16_S16 : S16.ShapeCasts S16
  shapeCasts_S16x16_S256 : S16x16.ShapeCasts S256
  reducesTo_S256_S_d0 : S256.ReducesTo [0] S_
  h_S_ : 0 < S_.numel
  hcc1_scratch3 : 5 + S_.numel ≤ 9
  hcc1_scoped0 : 6 + S_.numel ≤ 9
  hcc1_scoped1 : 7 + S_.numel ≤ 9
  hcc1_scoped2 : 8 + S_.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x224x224.size a ≤ S256x3x224x224.size a
  hwx0_0 : ∀ i : grid0.Coords, EltTy.bits .f32 = 32 ∨ (Rect.block (s := S256x3x224x224) S16x3x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x224x224.size a ≤ S256x3x224x224.size a
  hwx0_1 : ∀ i : grid0.Coords, EltTy.bits .f32 = 32 ∨ (Rect.block (s := S256x3x224x224) S16x3x224x224.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, (k1_off1 i) a + S1x16000.size a ≤ S16x16000.size a
  k1_off2_inb : ∀ i : grid1.Coords, ∀ (k1_h1 : k1_cond1 i = 1#1), ∀ a, (k1_off2 i) a + S1x16.size a ≤ S16x16.size a
  k1_t1_ok : ∀ i : grid1.Coords, ∀ (k1_h1 : k1_cond1 i = 1#1), k1_t1_loop.OK
  k1_off3_inb : ∀ (i : grid1.Coords) (k1_t1 : Fin k1_t1_loop.trips), ∀ (k1_h1 : k1_cond1 i = 1#1), ∀ a, (k1_off3 k1_t1) a + S16.size a ≤ S16000.size a

variable [Facts₀]

abbrev cc1_scratch3 : DmaSems sig S_ := SemArray.consecutive 5 S_ hcc1_scratch3
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2

abbrev win0_0 : Pipeline.Window sig grid0 :=
  Pipeline.Window.ofSpec (Memref.whole main_arg0) S16x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x3x224x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x3x224x224 : Shape := ⟨4, ![256, 3, 224, 224]⟩
abbrev S256x1000 : Shape := ⟨2, ![256, 1000]⟩
abbrev S256x1 : Shape := ⟨2, ![256, 1]⟩
abbrev S256 : Shape := ⟨1, ![256]⟩
abbrev S_ : Shape := ⟨0, ![]⟩
abbrev S256x1x1 : Shape := ⟨3, ![256, 1, 1]⟩
abbrev S1 : Shape := ⟨1, ![1]⟩
abbrev S1x1x1 : Shape := ⟨3, ![1, 1, 1]⟩
abbrev S256x2 : Shape := ⟨2, ![256, 2]⟩

abbrev nBuf : Space → Nat
  | .hbm => 76
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S256x3x224x224, .f32⟩
  | .hbm, ⟨2, _⟩ => ⟨S256x1000, .f32⟩
  | .hbm, ⟨3, _⟩ => ⟨S256x1, .i32⟩
  | .hbm, ⟨4, _⟩ => ⟨S256, .i32⟩
  | .hbm, ⟨5, _⟩ => ⟨S256x3x224x224, .f32⟩
  | .hbm, ⟨6, _⟩ => ⟨S_, .f32⟩
  | .hbm, ⟨7, _⟩ => ⟨S256x3x224x224, .f32⟩
  | .hbm, ⟨8, _⟩ => ⟨S256x3x224x224, .f32⟩
  | .hbm, ⟨9, _⟩ => ⟨S_, .f32⟩
  | .hbm, ⟨10, _⟩ => ⟨S256x3x224x224, .f32⟩
  | .hbm, ⟨11, _⟩ => ⟨S256x3x224x224, .f32⟩
  | .hbm, ⟨12, _⟩ => ⟨S256x3x224x224, .f32⟩
  | .hbm, ⟨13, _⟩ => ⟨S256x3x224x224, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S256x1x1, .i32⟩
  | .hbm, ⟨27, _⟩ => ⟨S1, .i32⟩
  | .hbm, ⟨28, _⟩ => ⟨S_, .i32⟩
  | .hbm, ⟨29, _⟩ => ⟨S256x1x1, .i32⟩
  | .hbm, ⟨30, _⟩ => ⟨S256x1x1, .i1⟩
  | .hbm, ⟨31, _⟩ => ⟨S1x1x1, .i32⟩
  | .hbm, ⟨32, _⟩ => ⟨S256x1x1, .i32⟩
  | .hbm, ⟨33, _⟩ => ⟨S256x1x1, .i1⟩
  | .hbm, ⟨34, _⟩ => ⟨S256x1x1, .i1⟩
  | .hbm, ⟨35, _⟩ => ⟨S_, .i1⟩
  | .hbm, ⟨36, _⟩ => ⟨S256x1, .i1⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256, .f32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S256x1, .i32⟩
  | .hbm, ⟨58, _⟩ => ⟨S256x1, .i32⟩
  | .hbm, ⟨59, _⟩ => ⟨S256x2, .i32⟩
  | .hbm, ⟨60, _⟩ => ⟨S_, .f32⟩
  | .hbm, ⟨61, _⟩ => ⟨S256, .f32⟩
  | .hbm, ⟨62, _⟩ => ⟨S256x1000, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_c_5 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_cst_10 : Ref sig .tc := ⟨.hbm, 71, rfl⟩
abbrev main_v34 : Ref sig .tc := ⟨.hbm, 72, rfl⟩
abbrev main_cst_11 : Ref sig .tc := ⟨.hbm, 73, rfl⟩
abbrev main_v35 : Ref sig .tc := ⟨.hbm, 74, rfl⟩
abbrev main_v36 : Ref sig .tc := ⟨.hbm, 75, rfl⟩

abbrev nD : Nat := 1
abbrev τ : Topo := Topo.v7x

variable {F : FTy → Type} [FloatOps F]

class Facts₀ : Prop where
  shapeCasts_S256x1_S256 : S256x1.ShapeCasts S256
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  bcast_S_S256 : S_.BroadcastsInDim S256 (![] : Fin 0 → Fin S256.rank)
  concatenates_S256x1_S256x1_S256x2_d1 : Shape.Concatenates [S256x1, S256x1] S256x2 1
  reducesTo_S256x1000_S256_d1 : S256x1000.ReducesTo [1] S256
  reducesTo_S256_S_d0 : S256.ReducesTo [0] S_
  gather_S256x1000_S256x1x1_S256x1_n_1_0_0_1_2_11_wf : GatherDims.WF S256x1000 S256x1x1 S256x1 [] [1] [0] [1] [0] 2 ![1, 1]
  scatter_S256x1000_S256x2_S256_n_01_01_1_wf : ScatterDims.WF S256x1000 S256x2 S256 [] [0, 1] [0, 1] 1

variable [Facts₀]

def gather_S256x1000_S256x1x1_S256x1_n_1_0_0_1_2_11 : GatherDims S256x1000 S256x1x1 S256x1 where
  offsetDims := []
  collapsedSliceDims := [1]
  operandBatchingDims := [0]
  startIndicesBatchingDims := [0]
  startIndexMap := [1]
  indexVectorDim := 2
  sliceSizes := ![1, 1]
  wf := gather_S256x1000_S256x1x1_S256x1_n_1_0_0_1_2_11_wf
def scatter_S256x1000_S256x2_S256_n_01_01_1 : ScatterDims S256x1000 S256x2 S256 where
  updateWindowDims := []
  insertedWindowDims := [0, 1]
  scatterDimsToOperandDims := [0, 1]
  indexVectorDim := 1
  wf := scatter_S256x1000_S256x2_S256_n_01_01_1_wf

class Facts : Prop extends Facts₀ where

variable [Facts]
-- ==== Proof.KVal.lean ====
/-
  The kernel's result as pure terms of its four argument arrays, for any float instance.

  The program computes two numbers and adds them.

  The first is the mean of the squared differences between 127.5 · (tanh w + 1) and x. It is accumulated over
  sixteen blocks of sixteen leading rows each: a [224, 224] accumulator starts at zero, each block adds to it the
  block's squared differences summed over the block's two leading axes, and after the last block the accumulator is
  summed to one number (`accAt`, `mseOut`).

  The second is half the mean of 256 margins. Row r of the logits and its target word t_r give
  max(logits[r, t_r] − max_{j ≠ t_r} logits[r, j], −10). Sixteen rows are handled at a time, one per lane: the
  logits of rows 16 g … 16 g + 15 are laid out class-major (entry 16 j + l of row g is logits[16 g + l, j]), and a
  walk over the classes j = 0 … 999 carries two 16-lane vectors — the running maximum over the classes that are not
  the lane's target, from −∞, and the logit at the lane's target, from 0 (`loopAt`); the margin is taken at the
  end (`marginRow`, `marginOut`).

  `kernelVal` composes the two with the program's own host operations.
-/
import proofs.«205080_g78649441125020_cont_9to1_m_374_30_alg».proof.Proof.Gen.KernelIdeal.Skeleton

noncomputable section

namespace Cert.KernelIdeal.KVal

open Idealize.ShloMosaic Cert.KernelIdeal Cert.KernelIdeal.Gen

variable {F : FTy → Type} [FloatOps F]

/-! ## The squared-difference sum, block by block -/

/-- Entry `j` of block `t` (sixteen leading rows) of a [256, 3, 224, 224] array sits at leading row `16 t + j₀`. -/
def blkIdx (t : Nat) (j : S16x3x224x224.Idx) : S256x3x224x224.Idx :=
  fun a => match a with
    | ⟨0, _⟩ => ⟨(16 * t + (j 0).val) % 256, Nat.mod_lt _ (by decide)⟩
    | ⟨1, _⟩ => j 1
    | ⟨2, _⟩ => j 2
    | ⟨3, _⟩ => j 3

/-- Block `t` of an array. -/
def blk (w : Vec F S256x3x224x224 .f32) (t : Nat) : Vec F S16x3x224x224 .f32 := fun j => w (blkIdx t j)

/-- The accumulator after the first `n` blocks: zero, then each block's contribution added. -/
def accAt (w x : Vec F S256x3x224x224 .f32) : Nat → FVec F S224x224 .f32
  | 0 => k0_pay1 (F := F)
  | n + 1 => k0_pay2 (blk w n) (blk x n) (accAt w x n)

/-- The one number the sixteen blocks leave: the accumulator summed. -/
def mseOut (w x : Vec F S256x3x224x224 .f32) : Vec F S1x1 .f32 := fun _ => k0_pay3 (accAt w x 16)

/-! ## The margins, sixteen rows at a time -/

/-- Row `g` of a [16, n] array. -/
def lgRow (lg : Vec F S16x16000 .f32) (g : Nat) : Vec F S16000 .f32 :=
  fun j => lg (fun a => match a with | ⟨0, _⟩ => ⟨g % 16, Nat.mod_lt _ (by decide)⟩ | ⟨1, _⟩ => j 0)
def tgRow (tg : Vec F S16x16 .i32) (g : Nat) : Vec F S16 .i32 :=
  fun j => tg (fun a => match a with | ⟨0, _⟩ => ⟨g % 16, Nat.mod_lt _ (by decide)⟩ | ⟨1, _⟩ => j 0)

/-- The sixteen lanes of class `k` in a class-major row: entries `16 k … 16 k + 15`. -/
def chunk (row : Vec F S16000 .f32) (k : Nat) : Vec F S16 .f32 :=
  fun j => row (fun a => match a with | ⟨0, _⟩ => ⟨(16 * k + (j 0).val) % 16000, Nat.mod_lt _ (by decide)⟩)

/-- The two carried vectors after the first `n` classes. -/
def loopAt (v5 : Vec F S16 .i32) (row : Vec F S16000 .f32) : Nat → FVec F S16 .f32 × FVec F S16 .f32
  | 0 => (k1_pay1 (F := F), k1_pay2 (F := F))
  | n + 1 =>
    if h : n < k1_t1_loop.trips then
      (k1_pay5 v5 ⟨n, h⟩ (loopAt v5 row n).1 (chunk row n), k1_pay6 v5 ⟨n, h⟩ (loopAt v5 row n).2 (chunk row n))
    else loopAt v5 row n

/-- Sixteen margins: the walk over all classes, then the difference clamped below at −10. -/
def marginRow (v5 : Vec F S16 .i32) (row : Vec F S16000 .f32) : FVec F S16 .f32 :=
  k1_pay7 (loopAt v5 row k1_t1_loop.trips).1 (loopAt v5 row k1_t1_loop.trips).2

/-- All 256 margins as a [16, 16] array: entry (g, l) is the margin of row 16 g + l. -/
def marginOut (lg : Vec F S16x16000 .f32) (tg : Vec F S16x16 .i32) : Vec F S16x16 .f32 :=
  fun i => marginRow (tgRow (F := F) tg (i 0).val) (lgRow lg (i 0).val) (fun a => match a with | ⟨0, _⟩ => i 1)

/-! ## The host operations around them -/

/-- The logits class-major within groups of sixteen rows: [256, 1000] → [16, 16, 1000] → [16, 1000, 16] → [16, 16000]. -/
def lgT (lg : Vec F S256x1000 .f32) : Vec F S16x16000 .f32 :=
  shapeCast S16x16000 (transpose S16x1000x16 [0, 2, 1] (shapeCast S16x16x1000 lg shapeCasts_S256x1000_S16x16x1000)
    transposes_S16x16x1000_S16x1000x16_0_2_1) shapeCasts_S16x1000x16_S16x16000

/-- The target words as a [16, 16] array. -/
def tgT (t : Vec F S256x1 .i32) : Vec F S16x16 .i32 :=
  shapeCast S16x16 (shapeCast S256 t shapeCasts_S256x1_S256) shapeCasts_S256_S16x16

/-- The program's result: the squared-difference sum over the element count, plus half the mean margin. -/
def kernelVal (w x : Vec F S256x3x224x224 .f32) (lg : Vec F S256x1000 .f32) (t : Vec F S256x1 .i32) : Vec F S_ .f32 :=
  addf (Host.divf (shapeCast S_ (mseOut w x) shapeCasts_S1x1_S_) (constant S_ .f32 0x4C130000#32) : FVec F S_ .f32)
    (mulf (constant S_ .f32 0x3F000000#32)
      (Host.divf (Host.reduceAdd (shapeCast S256 (marginOut (lgT lg) (tgT (F := F) t)) shapeCasts_S16x16_S256)
        (constant S_ .f32 0x00000000#32) reducesTo_S256_S_d0 h_S_) (constant S_ .f32 0x43800000#32)))

end Cert.KernelIdeal.KVal

end
-- ==== Proof.Setup.lean ====
/-
  What the parts of this certificate share: the program as the launch theorem sees it, the ghost algebra, and what
  each handshake of the one SparseCore call carries.

  The program runs a TensorCore kernel (the squared-difference sum), six host re-layouts, one SparseCore call on
  2 × 16 vector subcores, and eleven host operations. In the SparseCore call the subcore `i` of core `c` works iff
  `2 i + c < 16`, and then on row `2 i + c` alone of three arrays: it reads that row of the class-major logits and of
  the target words and writes that row of the margins. So the call hands each working subcore exactly its three rows
  and gets them back, the margins' row holding `KVal.marginOut` of the two inputs; a core's share is the conjunction
  of its subcores' shares, which makes the split of a core's operands into its tasks' the identity.

  The ghost algebra has three factors: the launch handshakes' rounds, the TensorCore pipeline's staging cells' rounds,
  and the plain counters of the subcores' own local copies (which need no schedule).
-/
import proofs.«205080_g78649441125020_cont_9to1_m_374_30_alg».proof.Defs
import proofs.«205080_g78649441125020_cont_9to1_m_374_30_alg».proof.Proof.KVal
import proofs.«205080_g78649441125020_cont_9to1_m_374_30_alg».proof.Proof.Gen.KernelIdeal.Launch
import proofs.«205080_g78649441125020_cont_9to1_m_374_30_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one pipeline's admissible prefetch tables: it has none, so the empty contents; pinned at them the pipeline's
    configuration is the printed one (by unfolding). -/
abbrev aAdm : (p : Fin 1) → (pcfgs (F := F) p).Adm := fun p => (cfgs p).toPCfg_adm

/-! ## The ghost algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. -/
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP embR; infer_instance

/-! ## The launch memory and the arrays the SparseCore call works on -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
/-- The squared-difference sum's [1,1] result; the class-major logits; the target words as [16,16]; the margins. -/
abbrev v0Loc (d : Dev nD) : Loc nD τ sig := (SparseCore.T d).loc main_v0
abbrev v4Loc (d : Dev nD) : Loc nD τ sig := (SparseCore.T d).loc main_v4
abbrev v6Loc (d : Dev nD) : Loc nD τ sig := (SparseCore.T d).loc main_v6
abbrev v7Loc (d : Dev nD) : Loc nD τ sig := (SparseCore.T d).loc main_v7

variable [FloatOps F]

/-- What the TensorCore kernel leaves in its result, and what the host re-layouts leave in the call's two inputs,
    as functions of the launch contents of the arguments; what the call leaves in its output. -/
abbrev X0 (d : Dev nD) : Buf (Elt F) (v0Loc d) := KVal.mseOut (F := F) (m (a0Loc d)) (m (a1Loc d))
abbrev X4 (d : Dev nD) : Buf (Elt F) (v4Loc d) := KVal.lgT (F := F) (m (a2Loc d))
abbrev X6 (d : Dev nD) : Buf (Elt F) (v6Loc d) := KVal.tgT (F := F) (m (a3Loc d))
abbrev X7 (d : Dev nD) : Buf (Elt F) (v7Loc d) := KVal.marginOut (F := F) (X4 m d) (X6 m d)

/-! ## Rows -/

theorem hdivA : 16 ∣ S16x16000.size 0 := ⟨1, rfl⟩
theorem hdivB : 16 ∣ S16x16.size 0 := ⟨1, rfl⟩
/-- Row `g` of a [16, 16000] array and of a [16, 16] array: the `g`-th of sixteen parts along axis 0. -/
abbrev rowA (g : Fin 16) : Rect S16x16000 := Rect.part (s := S16x16000) (a₀ := 0) hdivA g
abbrev rowB (g : Fin 16) : Rect S16x16 := Rect.part (s := S16x16) (a₀ := 0) hdivB g
abbrev rowSetA (g : Fin 16) : Finset S16x16000.Idx := ((Memref.whole main_v4_scv : Memref sig .scVector .hbm S16x16000 .f32).view.slice (rowA g)).set
abbrev rowSetB (g : Fin 16) : Finset S16x16.Idx := ((Memref.whole main_v7_scv : Memref sig .scVector .hbm S16x16 .f32).view.slice (rowB g)).set

/-- The three rows a working subcore holds, the margins' row at contents `f`. -/
abbrev rows3 (d : Dev nD) (g : Fin 16) (f : Buf (Elt F) (v7Loc d)) : sProp 𝕄 :=
  iprop((v4Loc d ↦[rowSetA g]{fullShare} X4 m d) ∗ (v6Loc d ↦[rowSetB g]{fullShare} X6 m d) ∗ (v7Loc d ↦[rowSetB g]{fullShare} f))

/-- Subcore `i` of core `c`: its rows if `2 i + c < 16`, nothing otherwise. -/
def tileRes (d : Dev nD) (c i : ℕ) (f : Buf (Elt F) (v7Loc d)) : sProp 𝕄 :=
  if h : 2 * i + c < 16 then rows3 m d ⟨2 * i + c, h⟩ f else iprop(emp)

theorem tileRes_pos (d : Dev nD) {c i : ℕ} (h : 2 * i + c < 16) (f : Buf (Elt F) (v7Loc d)) :
    tileRes m d c i f = rows3 m d ⟨2 * i + c, h⟩ f := dif_pos h
theorem tileRes_neg (d : Dev nD) {c i : ℕ} (h : ¬ 2 * i + c < 16) (f : Buf (Elt F) (v7Loc d)) :
    tileRes m d c i f = iprop(emp) := dif_neg h

instance tileRes_storable (d : Dev nD) (c i : ℕ) (f : Buf (Elt F) (v7Loc d)) : BI.Storable (upEmb : UEmb _ 𝕄) (tileRes m d c i f) := by
  unfold tileRes; split <;> infer_instance

/-! ## What the handshakes carry -/

/-- The one call: each subcore its rows, the margins' row at its launch contents on the way in and at `X7` on the way
    out; a core the conjunction of its subcores'; no kernel proof consumes anything of the launch's. -/
def P : (K (F := F)).Pay (nD := nD) (Val := Elt F) (Name := ℕ) (U := UU) where
  st := fun _ d c => bigSep Finset.univ fun i : Fin ((K (F := F)).nSub 0) => tileRes m d c.val i.val (m (v7Loc d))
  dn := fun _ d c => bigSep Finset.univ fun i : Fin ((K (F := F)).nSub 0) => tileRes m d c.val i.val (X7 m d)
  go := fun _ d c i => tileRes m d c.val i.val (m (v7Loc d))
  td := fun _ d c i => tileRes m d c.val i.val (X7 m d)
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.KernelIdeal.Setup

end
-- ==== Proof.Launch1.lean ====
/-
  The launch of the one SparseCore call: how a core's operands split into its subcores' (the identity, by the way
  the shares are stated), and the launch element of the ghost state — the handshakes' rounds, the TensorCore
  pipeline's staging cells funded for its region, and the counters, which nothing of the launch consumes.
-/
import proofs.«205080_g78649441125020_cont_9to1_m_374_30_alg».proof.Proof.Setup

noncomputable section

namespace Cert.KernelIdeal.Launch

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

variable (m : (ℓ : Loc nD τ sig) → Buf (Elt F) ℓ) (ρ : Dev nD → PrngReg)

/-- A core's operands are its subcores' conjoined, and so are its results: the split is the identity. -/
theorem vecSplit : (K (F := F)).VecSplit' (P m) 0 := by
  intro d c
  show (bigSep Finset.univ fun i : Fin ((K (F := F)).nSub 0) => tileRes m d c.val i.val (m (v7Loc d)))
    ⊢ |={Set.univ}=> iprop((bigSep Finset.univ fun i : Fin ((K (F := F)).nSub 0) => tileRes m d c.val i.val (m (v7Loc d)))
      ∗ ((bigSep Finset.univ fun i : Fin ((K (F := F)).nSub 0) => tileRes m d c.val i.val (X7 m d))
          -∗ (bigSep Finset.univ fun i : Fin ((K (F := F)).nSub 0) => tileRes m d c.val i.val (X7 m d))))
  iintro H; imodintro
  isplitl [H]; · iexact H
  iintro H; iexact H

/-! ## The launch element -/

/-- The handshakes' cells and tokens; the pipeline's staging cells and its transfers' tokens; the counters' unit. -/
def u₀ : UU :=
  (initOf (K (F := F)).hsCells (K (F := F)).hsToks,
    (initOf (Pipeline.cells cfgs cellOf_inj) (Pipeline.launchToks cfgs cellOf_inj), 1))

/-- What @main's proof on device `d` starts from beyond what the launch deals it: the pipeline's cells' ghost state
    and its transfers' tokens, for the region. -/
abbrev G (d : Dev nD) : sProp 𝕄 :=
  iprop(Pipeline.cellsGhost (Pipeline.pin (pcfgs (F := F)) aAdm) EP 0 d ∗ Pipeline.toksInit (Pipeline.pin (pcfgs (F := F)) aAdm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR (A := UH) (B := UP × Counters)) _ _) $$ HR
  icases HR' with ⟨HP, -⟩
  ihave HP' := (Entails.of_eq (show (BI.own (((Emb.inl : Emb UP (UP × Counters)).trans (embR (A := UH) (B := UP × Counters)))
        (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost cfgs (EP (F := F)) cellOf_inj) $$ HP' with ⟨Hg, Ht⟩
  imodintro
  isplitl [HH]; · iexact HH
  isplitl [Hg Ht]
  · -- one pipeline: each device's family over `Fin 1` is its one member
    have h1 : ∀ (Φ : Dev nD → Fin 1 → sProp 𝕄), (bigSep Finset.univ fun c : Dev nD => bigSep Finset.univ fun p : Fin 1 => Φ c p)
        = bigSep Finset.univ fun c : Dev nD => Φ c 0 := fun Φ =>
      bigSep_congr fun c _ => by rw [show (Finset.univ : Finset (Fin 1)) = {0} from by decide, bigSep_singleton]
    rw [bigSep_sep']
    ihave Hg' := (Entails.of_eq (h1 fun c p => Pipeline.cellsGhost cfgs (EP (F := F)) p c)) $$ Hg
    ihave Ht' := (Entails.of_eq (h1 fun c p => Pipeline.toksInit cfgs (EP (F := F)) p c)) $$ Ht
    isplitl [Hg']
    · iexact Hg'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Launch

end
-- ==== Proof.Launch2.lean ====
/-
  @main on the TensorCore, as a sequence: the squared-difference kernel's region, six host re-layouts, the SparseCore
  call, ten host operations; and the contents of the device's arrays along the way, as functions of the launch
  contents of the four arguments — after the region the [1,1] result holds the squared-difference sum; after the
  re-layouts the call's two inputs hold the class-major logits and the [16,16] target words; after the call its output
  holds the margins; after the last operation the result holds `KVal.kernelVal` of the arguments, which are unchanged.
-/
import proofs.«205080_g78649441125020_cont_9to1_m_374_30_alg».proof.Proof.Launch1

noncomputable section

namespace Cert.KernelIdeal.Launch

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ
open Idealize.ShloMosaic.StableHlo (held held_sub_split held_congr wp_seq)

variable (m : (ℓ : Loc nD τ sig) → Buf (Elt F) ℓ) (ρ : Dev nD → PrngReg)

/-! ## The two stretches of host operations -/

/-- The six re-layouts between the region and the call. -/
abbrev ops1 : List (HloOp τ sig (Elt F)) :=
  [ StableHlo.reshape main_v0 main_v1 rfl shapeCasts_S1x1_S_,
    StableHlo.reshape main_arg2 main_v2 rfl shapeCasts_S256x1000_S16x16x1000,
    StableHlo.unary main_v2 main_v3 ((transpose S16x1000x16 [0, 2, 1] · transposes_S16x16x1000_S16x1000x16_0_2_1) : (⟨S16x16x1000, .f32⟩ : BufTy).Contents (Elt F) → (⟨S16x1000x16, .f32⟩ : BufTy).Contents (Elt F)),
    StableHlo.reshape main_v3 main_v4 rfl shapeCasts_S16x1000x16_S16x16000,
    StableHlo.reshape main_arg3 main_v5 rfl shapeCasts_S256x1_S256,
    StableHlo.reshape main_v5 main_v6 rfl shapeCasts_S256_S16x16 ]

/-- The ten operations after the call. -/
abbrev ops2 : List (HloOp τ sig (Elt F)) :=
  [ StableHlo.nullary main_cst (constant S_ .f32 0x4C130000#32),
    StableHlo.binary main_v1 main_cst main_v8 (Host.divf : (⟨S_, .f32⟩ : BufTy).Contents (Elt F) → (⟨S_, .f32⟩ : BufTy).Contents (Elt F) → (⟨S_, .f32⟩ : BufTy).Contents (Elt F)),
    StableHlo.reshape main_v7 main_v9 rfl shapeCasts_S16x16_S256,
    StableHlo.nullary main_cst_0 (constant S_ .f32 0x00000000#32),
    StableHlo.binary main_v9 main_cst_0 main_v10 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_1 (constant S_ .f32 0x43800000#32),
    StableHlo.binary main_v10 main_cst_1 main_v11 (Host.divf : (⟨S_, .f32⟩ : BufTy).Contents (Elt F) → (⟨S_, .f32⟩ : BufTy).Contents (Elt F) → (⟨S_, .f32⟩ : BufTy).Contents (Elt F)),
    StableHlo.nullary main_cst_2 (constant S_ .f32 0x3F000000#32),
    StableHlo.binary main_cst_2 main_v11 main_v12 (mulf : (⟨S_, .f32⟩ : BufTy).Contents (Elt F) → (⟨S_, .f32⟩ : BufTy).Contents (Elt F) → (⟨S_, .f32⟩ : BufTy).Contents (Elt F)),
    StableHlo.binary main_v8 main_v12 main_v13 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the region, the first stretch, the call, the second stretch. -/
theorem main_eq (d : Dev nD) : main (F := F) d
    = (Prog.lift (.customCall (SparseCore.inner (Pipeline.entry 0)) ()) >>= fun _ =>
        (StableHlo.seq ops1 >>= fun _ => ((sc (F := F)).run d 0 >>= fun _ => StableHlo.seq ops2))) := rfl

/-! ## The arrays' contents along the way -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v4' : DevRef τ sig := Proc.devRef .tc (main_v4 : Ref sig .tc)
abbrev v6' : DevRef τ sig := Proc.devRef .tc (main_v6 : Ref sig .tc)
abbrev v7' : DevRef τ sig := Proc.devRef .tc (main_v7 : Ref sig .tc)
abbrev v13' : DevRef τ sig := Proc.devRef .tc (main_v13 : Ref sig .tc)

/-- At the launch; after the region (the [1,1] result at the squared-difference sum); after the re-layouts; after the
    call (its output at the margins); at the end. -/
def V0 (d : Dev nD) : Valuation τ sig (Elt F) := fun b => m (d, b)
def V1 (d : Dev nD) : Valuation τ sig (Elt F) := Function.update (V0 m d) v0' (X0 m d)
def V2 (d : Dev nD) : Valuation τ sig (Elt F) := StableHlo.after ops1 (V1 m d)
def V3 (d : Dev nD) : Valuation τ sig (Elt F) := Function.update (V2 m d) v7' (X7 m d)
def V4 (d : Dev nD) : Valuation τ sig (Elt F) := StableHlo.after ops2 (V3 m d)

theorem V1_v0 (d : Dev nD) : V1 m d v0' = X0 m d := Function.update_self _ _ _
theorem V1_ne (d : Dev nD) {b : DevRef τ sig} (h : b ≠ v0') : V1 m d b = m (d, b) := Function.update_of_ne h _ _
theorem V3_v7 (d : Dev nD) : V3 m d v7' = X7 m d := Function.update_self _ _ _
theorem V3_ne (d : Dev nD) {b : DevRef τ sig} (h : b ≠ v7') : V3 m d b = V2 m d b := Function.update_of_ne h _ _

/-- The re-layouts leave the class-major logits and the [16,16] words in the call's inputs. -/
theorem V2_v4 (d : Dev nD) : V2 m d v4' = X4 m d := by
  show StableHlo.after ops1 (V1 m d) (Proc.devRef .tc main_v4) = _
  after_results
  rw [V1_ne m d (by decide)]
  rfl
theorem V2_v6 (d : Dev nD) : V2 m d v6' = X6 m d := by
  show StableHlo.after ops1 (V1 m d) (Proc.devRef .tc main_v6) = _
  after_results
  rw [V1_ne m d (by decide)]
  rfl
/-- The [1,1] result re-cast as a scalar; the call's output before the call. -/
theorem V2_v1 (d : Dev nD) : V2 m d (Proc.devRef .tc main_v1) = (shapeCast S_ (X0 m d) shapeCasts_S1x1_S_ : Vec F S_ .f32) := by
  show StableHlo.after ops1 (V1 m d) (Proc.devRef .tc main_v1) = _
  after_results
  rw [V1_v0]
  rfl
theorem V2_v7 (d : Dev nD) : V2 m d v7' = m (v7Loc d) := by
  show StableHlo.after ops1 (V1 m d) (Proc.devRef .tc main_v7) = _
  after_results
  rw [V1_ne m d (by decide)]

/-- At the end the result holds the program's value of the four arguments, -/
theorem V4_v13 (d : Dev nD) : V4 m d v13' = KVal.kernelVal (F := F) (m (a0Loc d)) (m (a1Loc d)) (m (a2Loc d)) (m (a3Loc d)) := by
  show StableHlo.after ops2 (V3 m d) (Proc.devRef .tc main_v13) = _
  after_results
  rw [V3_v7, V3_ne m d (by decide), V2_v1]
  rfl

/-- and the arguments hold what they held at the launch: no operation writes them. -/
theorem V4_arg0 (d : Dev nD) : V4 m d a0' = m (a0Loc d) := by
  show StableHlo.after ops2 (V3 m d) (Proc.devRef .tc main_arg0) = _
  after_results
  rw [V3_ne m d (by decide)]
  show StableHlo.after ops1 (V1 m d) (Proc.devRef .tc main_arg0) = _
  after_results
  rw [V1_ne m d (by decide)]
theorem V4_arg1 (d : Dev nD) : V4 m d a1' = m (a1Loc d) := by
  show StableHlo.after ops2 (V3 m d) (Proc.devRef .tc main_arg1) = _
  after_results
  rw [V3_ne m d (by decide)]
  show StableHlo.after ops1 (V1 m d) (Proc.devRef .tc main_arg1) = _
  after_results
  rw [V1_ne m d (by decide)]
theorem V4_arg2 (d : Dev nD) : V4 m d a2' = m (a2Loc d) := by
  show StableHlo.after ops2 (V3 m d) (Proc.devRef .tc main_arg2) = _
  after_results
  rw [V3_ne m d (by decide)]
  show StableHlo.after ops1 (V1 m d) (Proc.devRef .tc main_arg2) = _
  after_results
  rw [V1_ne m d (by decide)]
theorem V4_arg3 (d : Dev nD) : V4 m d a3' = m (a3Loc d) := by
  show StableHlo.after ops2 (V3 m d) (Proc.devRef .tc main_arg3) = _
  after_results
  rw [V3_ne m d (by decide)]
  show StableHlo.after ops1 (V1 m d) (Proc.devRef .tc main_arg3) = _
  after_results
  rw [V1_ne m d (by decide)]

end Cert.KernelIdeal.Launch

end
-- ==== Proof.LibCoreSubcoreSplit.lean ====
/-
  A regrouping of an iterated separating conjunction, for a kernel whose work is dealt to 2 cores × 16 subcores by
  the number `2 i + c`: if `Ψ n` is empty for every `n ≥ 16`, then conjoining `Ψ (2 i + c)` over the cores `c < 2`
  and the subcores `i < 16` is conjoining `Ψ n` over `n < 16`. The map `(c, i) ↦ 2 i + c` is a bijection of
  `Fin 2 × Fin 16` onto `{0, …, 31}`, and the upper half of that range contributes nothing.
-/
import Idealize.ShloMosaic.Lib.SparseCore.Launch

noncomputable section

namespace Cert.LibCoreSubcoreSplit

open Idealize.SL Idealize.SL.RA Idealize.SL.BI Idealize.ShloMosaic
open scoped Idealize.SL.BI
open Idealize.SL.BI.BIBase Idealize.SL.BI.Laws

variable {M : Type} [URA M]

/-- Over `n < 16`, as a conjunction over `Fin 16` or over `Finset.range 16`. -/
theorem bigSep_fin16 (Ψ : ℕ → sProp M) : (bigSep Finset.univ fun g : Fin 16 => Ψ g.val) = bigSep (Finset.range 16) Ψ := by
  rw [← SparseCore.bigSep_image_of_injOn (f := fun g : Fin 16 => g.val) (s := Finset.univ) (fun a _ b _ h => Fin.ext h) Ψ]
  congr 1

/-- The conjunction over cores and subcores is the conjunction over the numbers `2 i + c`, which fill `{0, …, 31}`. -/
theorem bigSep_pairs (Ψ : ℕ → sProp M) :
    (bigSep Finset.univ fun c : Fin 2 => bigSep Finset.univ fun i : Fin 16 => Ψ (2 * i.val + c.val)) = bigSep (Finset.range 32) Ψ := by
  rw [← SparseCore.bigSep_product Finset.univ Finset.univ (fun p : Fin 2 × Fin 16 => Ψ (2 * p.2.val + p.1.val)),
    ← SparseCore.bigSep_image_of_injOn (f := fun p : Fin 2 × Fin 16 => 2 * p.2.val + p.1.val) (s := Finset.univ ×ˢ Finset.univ)
      (fun a _ b _ h => by
        obtain ⟨⟨c, hc⟩, ⟨i, hi⟩⟩ := a; obtain ⟨⟨c', hc'⟩, ⟨i', hi'⟩⟩ := b
        simp only at h
        have h1 : c = c' := by omega
        have h2 : i = i' := by omega
        subst h1; subst h2; rfl) Ψ]
  congr 1
  decide

/-- If `Ψ` is empty from 16 on, the cores' and subcores' conjunction is the conjunction over `n < 16`. -/
theorem bigSep_cores_subcores (Ψ : ℕ → sProp M) (hΨ : ∀ n, 16 ≤ n → Ψ n = iprop(emp)) :
    (bigSep Finset.univ fun c : Fin 2 => bigSep Finset.univ fun i : Fin 16 => Ψ (2 * i.val + c.val))
      = bigSep Finset.univ fun g : Fin 16 => Ψ g.val := by
  rw [bigSep_pairs, bigSep_fin16,
    show Finset.range 32 = Finset.range 16 ∪ (Finset.range 32 \ Finset.range 16) from by decide,
    bigSep_union Finset.disjoint_sdiff,
    bigSep_congr (s := Finset.range 32 \ Finset.range 16) (fun n hn => hΨ n (by
      have := Finset.mem_sdiff.mp hn; simp only [Finset.mem_range] at this; omega)),
    show (bigSep (Finset.range 32 \ Finset.range 16) fun _ : ℕ => (iprop(emp) : sProp M)) = iprop(emp) from bigSep_emp_const _]
  exact Entails.antisymm sep_emp_elim sep_emp_intro

end Cert.LibCoreSubcoreSplit

end
-- ==== Proof.Launch3.lean ====
/-
  The SparseCore call's operands, from whole arrays and back. A [16, n] array whole is its sixteen rows; the sixteen
  rows of the three arrays the call works on are, regrouped by `g = 2 i + c`, what its two cores' thirty-two subcores
  are handed (the sixteen that work get a row each, the others nothing). The same regrouping, read backwards with
  the margins' rows at their final contents, gives the three arrays whole again after the call.
-/
import proofs.«205080_g78649441125020_cont_9to1_m_374_30_alg».proof.Proof.Launch2
import proofs.«205080_g78649441125020_cont_9to1_m_374_30_alg».proof.Proof.LibCoreSubcoreSplit

noncomputable section

namespace Cert.KernelIdeal.Launch

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

variable (m : (ℓ : Loc nD τ sig) → Buf (Elt F) ℓ) (ρ : Dev nD → PrngReg)

/-! ## A whole array is its sixteen rows -/

omit [FloatOps F] in
theorem rowSetA_eq (g : Fin 16) : rowSetA g = (rowA g).set := by
  show ((View.whole (main_v4_scv : Ref sig .scVector)).slice (rowA g)).set = _
  rw [View.set_slice]; exact Finset.map_refl
omit [FloatOps F] in
theorem rowSetB_eq (g : Fin 16) : rowSetB g = (rowB g).set := by
  show ((View.whole (main_v7_scv : Ref sig .scVector)).slice (rowB g)).set = _
  rw [View.set_slice]; exact Finset.map_refl
omit [FloatOps F] in
theorem rowsA_disjoint : ∀ i ∈ (Finset.univ : Finset (Fin 16)), ∀ j ∈ (Finset.univ : Finset (Fin 16)), i ≠ j → Disjoint (rowSetA i) (rowSetA j) :=
  fun i _ j _ h => by rw [rowSetA_eq, rowSetA_eq]; exact Rect.part_disjoint hdivA h
omit [FloatOps F] in
theorem rowsB_disjoint : ∀ i ∈ (Finset.univ : Finset (Fin 16)), ∀ j ∈ (Finset.univ : Finset (Fin 16)), i ≠ j → Disjoint (rowSetB i) (rowSetB j) :=
  fun i _ j _ h => by rw [rowSetB_eq, rowSetB_eq]; exact Rect.part_disjoint hdivB h
omit [FloatOps F] in
theorem rowsA_cover : (Finset.univ : Finset (Fin 16)).biUnion rowSetA = Finset.univ :=
  (Finset.biUnion_congr rfl fun i _ => rowSetA_eq i).trans (Rect.biUnion_part hdivA)
omit [FloatOps F] in
theorem rowsB_cover : (Finset.univ : Finset (Fin 16)).biUnion rowSetB = Finset.univ :=
  (Finset.biUnion_congr rfl fun i _ => rowSetB_eq i).trans (Rect.biUnion_part hdivB)

omit [FloatOps F] in
theorem v4_rows (d : Dev nD) (f : Buf (Elt F) (v4Loc d)) :
    (v4Loc d ↦{fullShare} f : sProp 𝕄) = bigSep Finset.univ fun g : Fin 16 => v4Loc d ↦[rowSetA g]{fullShare} f := by
  rw [← pointsTo_biUnion Finset.univ (ℓ := v4Loc d) rowSetA rowsA_disjoint, rowsA_cover]; try rfl
omit [FloatOps F] in
theorem v6_rows (d : Dev nD) (f : Buf (Elt F) (v6Loc d)) :
    (v6Loc d ↦{fullShare} f : sProp 𝕄) = bigSep Finset.univ fun g : Fin 16 => v6Loc d ↦[rowSetB g]{fullShare} f := by
  rw [← pointsTo_biUnion Finset.univ (ℓ := v6Loc d) rowSetB rowsB_disjoint, rowsB_cover]; try rfl
omit [FloatOps F] in
theorem v7_rows (d : Dev nD) (f : Buf (Elt F) (v7Loc d)) :
    (v7Loc d ↦{fullShare} f : sProp 𝕄) = bigSep Finset.univ fun g : Fin 16 => v7Loc d ↦[rowSetB g]{fullShare} f := by
  rw [← pointsTo_biUnion Finset.univ (ℓ := v7Loc d) rowSetB rowsB_disjoint, rowsB_cover]; try rfl

/-! ## The rows, regrouped by core and subcore -/

/-- Row `n`'s three pieces for `n < 16`, nothing beyond: what `tileRes` is at `n = 2 i + c`. -/
def rowsAt (d : Dev nD) (f : Buf (Elt F) (v7Loc d)) (n : ℕ) : sProp 𝕄 :=
  if h : n < 16 then rows3 m d ⟨n, h⟩ f else iprop(emp)

theorem tileRes_eq (d : Dev nD) (c i : ℕ) (f : Buf (Elt F) (v7Loc d)) : tileRes m d c i f = rowsAt m d f (2 * i + c) := rfl

/-- The three arrays whole, the margins at `f`, are the two cores' subcores' shares. -/
theorem whole_eq_shares (d : Dev nD) (f : Buf (Elt F) (v7Loc d)) :
    (iprop((v4Loc d ↦{fullShare} X4 m d) ∗ (v6Loc d ↦{fullShare} X6 m d) ∗ (v7Loc d ↦{fullShare} f)) : sProp 𝕄)
      = bigSep Finset.univ fun c : Fin ((K (F := F)).nCore 0) => bigSep Finset.univ fun i : Fin ((K (F := F)).nSub 0) => tileRes m d c.val i.val f := by
  show _ = bigSep Finset.univ fun c : Fin 2 => bigSep Finset.univ fun i : Fin 16 => rowsAt m d f (2 * i.val + c.val)
  rw [Cert.LibCoreSubcoreSplit.bigSep_cores_subcores (rowsAt m d f) (fun n hn => dif_neg (by omega)),
    v4_rows, v6_rows, v7_rows, ← bigSep_sep', ← bigSep_sep']
  exact bigSep_congr fun g _ => by unfold rowsAt; rw [dif_pos g.isLt]

end Cert.KernelIdeal.Launch

end
-- ==== Proof.Launch4.lean ====
/-
  @main on the TensorCore, proved: from what the launch deals the TensorCore (its unscoped arrays at the launch
  contents, the pipeline's ghost state, its handshake state before the one call) through the region, the six
  re-layouts, the call and the ten last operations, to its handshake state after the call, the four arguments at
  their launch contents and the result at `KVal.kernelVal` of them. The region's step is taken as a hypothesis in
  the shape its own module proves it; the host stretches run within the set of all unscoped arrays; the call's
  operands are cut out of that set as rows and put back.
-/
import proofs.«205080_g78649441125020_cont_9to1_m_374_30_alg».proof.Proof.Launch3
import Idealize.ShloMosaic.Lib.Pipeline.Frame

noncomputable section

namespace Cert.KernelIdeal.Launch

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ
open Idealize.ShloMosaic.StableHlo (held held_sub_split held_congr wp_seq)

variable (m : (ℓ : Loc nD τ sig) → Buf (Elt F) ℓ) (ρ : Dev nD → PrngReg)

/-! ## The unscoped arrays at each stage, with the three a step touches set apart -/

abbrev UC : Finset (DevRef τ sig) := Pipeline.ucRefs τ sig
abbrev T3 : Finset (DevRef τ sig) := {a0', a1', v0'}
abbrev Tc : Finset (DevRef τ sig) := {v4', v6', v7'}
abbrev Tf : Finset (DevRef τ sig) := {a0', a1', a2', a3', v13'}
/-- A TensorCore reference that is not scoped is one of the unscoped device buffers. -/
theorem mem_UC (r : Ref sig .tc) (h : (Proc.devRef (τ := τ) .tc r).isScoped = false) : Proc.devRef (τ := τ) .tc r ∈ UC :=
  Finset.mem_filter.mpr ⟨StableHlo.devRef_mem_tcRefs r, by rw [h]; exact Bool.false_ne_true⟩
theorem hT3 : (T3 : Finset (DevRef τ sig)) ⊆ UC := by
  intro b hb; simp only [Finset.mem_insert, Finset.mem_singleton] at hb
  rcases hb with rfl | rfl | rfl <;> exact mem_UC _ (by decide)
theorem hTc : (Tc : Finset (DevRef τ sig)) ⊆ UC := by
  intro b hb; simp only [Finset.mem_insert, Finset.mem_singleton] at hb
  rcases hb with rfl | rfl | rfl <;> exact mem_UC _ (by decide)
theorem hTf : (Tf : Finset (DevRef τ sig)) ⊆ UC := by
  intro b hb; simp only [Finset.mem_insert, Finset.mem_singleton] at hb
  rcases hb with rfl | rfl | rfl | rfl | rfl <;> exact mem_UC _ (by decide)

omit [FloatOps F] in
theorem unscoped_held (d : Dev nD) :
    (unscopedBufs d (fun b => m ((SparseCore.T d).loc b)) : sProp 𝕄) = held (T d) UC (V0 m d) :=
  Pipeline.unscopedBufs_held (Ix := HIx 1) (Name := ℕ) (U := UU) (Lvl := ℕ) d (V0 m d)

omit [FloatOps F] in
theorem held_T3 (d : Dev nD) (W : Valuation τ sig (Elt F)) :
    (held (T d) T3 W : sProp 𝕄) = iprop((a0Loc d ↦{fullShare} W a0') ∗ (a1Loc d ↦{fullShare} W a1') ∗ (v0Loc d ↦{fullShare} W v0')) := by
  unfold held T3
  rw [SparseCore.bigSep_insert' (by decide), SparseCore.bigSep_insert' (by decide), bigSep_singleton]
omit [FloatOps F] in
theorem held_Tc (d : Dev nD) (W : Valuation τ sig (Elt F)) :
    (held (T d) Tc W : sProp 𝕄) = iprop((v4Loc d ↦{fullShare} W v4') ∗ (v6Loc d ↦{fullShare} W v6') ∗ (v7Loc d ↦{fullShare} W v7')) := by
  unfold held Tc
  rw [SparseCore.bigSep_insert' (by decide), SparseCore.bigSep_insert' (by decide), bigSep_singleton]
omit [FloatOps F] in
theorem held_Tf (d : Dev nD) (W : Valuation τ sig (Elt F)) :
    (held (T d) Tf W : sProp 𝕄) = iprop((a0Loc d ↦{fullShare} W a0') ∗ (a1Loc d ↦{fullShare} W a1') ∗ (a2Loc d ↦{fullShare} W a2')
      ∗ (a3Loc d ↦{fullShare} W a3') ∗ ((SparseCore.T d).loc main_v13 ↦{fullShare} W v13')) := by
  unfold held Tf
  rw [SparseCore.bigSep_insert' (by decide), SparseCore.bigSep_insert' (by decide), SparseCore.bigSep_insert' (by decide),
    SparseCore.bigSep_insert' (by decide), bigSep_singleton]

/-- Before the region: the two inputs and the result buffer, and the rest. -/
theorem held_V0 (d : Dev nD) : (held (T d) UC (V0 m d) : sProp 𝕄)
    = iprop(((a0Loc d ↦{fullShare} m (a0Loc d)) ∗ (a1Loc d ↦{fullShare} m (a1Loc d)) ∗ (v0Loc d ↦{fullShare} m (v0Loc d)))
        ∗ held (T d) (UC \ T3) (V0 m d)) := by
  rw [held_sub_split (T d) hT3 (V0 m d), held_T3]; rfl
/-- After it: the result buffer at the squared-difference sum. -/
theorem held_V1 (d : Dev nD) : (held (T d) UC (V1 m d) : sProp 𝕄)
    = iprop(((a0Loc d ↦{fullShare} m (a0Loc d)) ∗ (a1Loc d ↦{fullShare} m (a1Loc d)) ∗ (v0Loc d ↦{fullShare} X0 m d))
        ∗ held (T d) (UC \ T3) (V0 m d)) := by
  rw [held_sub_split (T d) hT3 (V1 m d), held_T3, V1_v0, V1_ne m d (by decide), V1_ne m d (by decide),
    held_congr (T d) (S := UC \ T3) (V := V1 m d) (V' := V0 m d) fun b hb => V1_ne m d fun e =>
      (Finset.mem_sdiff.mp hb).2 (by rw [e]; exact Finset.mem_insert_of_mem (Finset.mem_insert_of_mem (Finset.mem_singleton_self _)))]
/-- Before the call: its two inputs at the re-laid-out arguments, its output as launched, and the rest. -/
theorem held_V2 (d : Dev nD) : (held (T d) UC (V2 m d) : sProp 𝕄)
    = iprop(((v4Loc d ↦{fullShare} X4 m d) ∗ (v6Loc d ↦{fullShare} X6 m d) ∗ (v7Loc d ↦{fullShare} m (v7Loc d)))
        ∗ held (T d) (UC \ Tc) (V2 m d)) := by
  rw [held_sub_split (T d) hTc (V2 m d), held_Tc, V2_v4, V2_v6, V2_v7]
/-- After it: the output at the margins. -/
theorem held_V3 (d : Dev nD) : (held (T d) UC (V3 m d) : sProp 𝕄)
    = iprop(((v4Loc d ↦{fullShare} X4 m d) ∗ (v6Loc d ↦{fullShare} X6 m d) ∗ (v7Loc d ↦{fullShare} X7 m d))
        ∗ held (T d) (UC \ Tc) (V2 m d)) := by
  rw [held_sub_split (T d) hTc (V3 m d), held_Tc, V3_v7, V3_ne m d (by decide), V3_ne m d (by decide), V2_v4, V2_v6,
    held_congr (T d) (S := UC \ Tc) (V := V3 m d) (V' := V2 m d) fun b hb => V3_ne m d fun e =>
      (Finset.mem_sdiff.mp hb).2 (by rw [e]; exact Finset.mem_insert_of_mem (Finset.mem_insert_of_mem (Finset.mem_singleton_self _)))]

/-- What @main leaves the claim: the arguments as launched, the result at the program's value of them. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d))
    ∗ ((SparseCore.T d).loc main_v13 ↦{fullShare} KVal.kernelVal (F := F) (m (a0Loc d)) (m (a1Loc d)) (m (a2Loc d)) (m (a3Loc d))))

theorem held_V4 (d : Dev nD) : (held (T d) UC (V4 m d) : sProp 𝕄) = iprop(FIN m d ∗ held (T d) (UC \ Tf) (V4 m d)) := by
  rw [held_sub_split (T d) hTf (V4 m d), held_Tf, V4_arg0, V4_arg1, V4_arg2, V4_arg3, V4_v13]

/-! ## The host stretches' side conditions -/

theorem ops1_sub : (ops1 : List (HloOp τ sig (Elt F))).Forall fun op => op.bufs ⊆ StableHlo.tcRefs τ sig :=
  ⟨StableHlo.reshape_bufs_sub .., StableHlo.reshape_bufs_sub .., StableHlo.unary_bufs_sub .., StableHlo.reshape_bufs_sub ..,
    StableHlo.reshape_bufs_sub .., StableHlo.reshape_bufs_sub ..⟩
theorem ops2_sub : (ops2 : List (HloOp τ sig (Elt F))).Forall fun op => op.bufs ⊆ StableHlo.tcRefs τ sig :=
  ⟨StableHlo.nullary_bufs_sub .., StableHlo.binary_bufs_sub .., StableHlo.reshape_bufs_sub .., StableHlo.nullary_bufs_sub ..,
    StableHlo.binary_bufs_sub .., StableHlo.nullary_bufs_sub .., StableHlo.binary_bufs_sub .., StableHlo.nullary_bufs_sub ..,
    StableHlo.binary_bufs_sub .., StableHlo.binary_bufs_sub ..⟩
theorem hops1 : ∀ op ∈ (ops1 : List (HloOp τ sig (Elt F))), op.bufs ⊆ UC :=
  fun op h => Pipeline.sub_ucRefs op ((List.forall_iff_forall_mem.mp ops1_sub) op h)
theorem hops2 : ∀ op ∈ (ops2 : List (HloOp τ sig (Elt F))), op.bufs ⊆ UC :=
  fun op h => Pipeline.sub_ucRefs op ((List.forall_iff_forall_mem.mp ops2_sub) op h)
theorem hfresh1 : ∀ op ∈ (ops1 : List (HloOp τ sig (Elt F))), op.fresh = ∅ := by
  intro op h; simp only [List.mem_cons, List.not_mem_nil, or_false] at h
  rcases h with rfl | rfl | rfl | rfl | rfl | rfl <;> rfl
theorem hfresh2 : ∀ op ∈ (ops2 : List (HloOp τ sig (Elt F))), op.fresh = ∅ := by
  intro op h; simp only [List.mem_cons, List.not_mem_nil, or_false] at h
  rcases h with rfl | rfl | rfl | rfl | rfl | rfl | rfl | rfl | rfl | rfl <;> rfl

/-! ## The TensorCore's handshake state, opened at what it owes -/

omit [FloatOps F] in
/-- The state before call `n` is what the TensorCore owes, under its recorded waits' bound, beside the rest. -/
theorem tcSt_split (d : Dev nD) (n : ℕ) : ∃ R : sProp 𝕄, ((K (F := F)).tcSt EH d n : sProp 𝕄)
    = iprop((∃ W, ⌜(K (F := F)).WBelow (T d) W (8 * n)⌝ ∗ owes (T d) ((K (F := F)).Otc d n) W) ∗ R) := ⟨_, rfl⟩

/-! ## The region's step, as its module proves it -/

/-- From the level facts, the region boundary, the pipeline's ghost state, what the TensorCore owes, the two inputs
    at their launch contents and the result buffer at anything, the region's call runs to the same with the result
    buffer at the squared-difference sum. -/
def RegionStep : Prop :=
  ∀ (d : Dev nD) (W : Waits sig (HIx 1)), (K (F := F)).WBelow (T d) W 0 →
    ∀ {α : Type} (k : PUnit → Prog (TpuEff nD τ sig (Elt F) (SparseCore.Sig (ΛP (F := F)) 1) .tc) α) (Φ : α → sProp 𝕄),
    iprop(levAts (K (F := F)).L (K (F := F)).lev ∗ boundary (T d)
        ∗ Pipeline.cellsGhost (Pipeline.pin (pcfgs (F := F)) aAdm) EP 0 d ∗ Pipeline.toksInit (Pipeline.pin (pcfgs (F := F)) aAdm) EP 0 d
        ∗ owes (T d) ((K (F := F)).Otc d 0) W
        ∗ (a0Loc d ↦{fullShare} m (a0Loc d)) ∗ (a1Loc d ↦{fullShare} m (a1Loc d)) ∗ (∃ f, v0Loc d ↦{fullShare} f)
        ∗ (iprop(boundary (T d) ∗ (∃ W', ⌜(K (F := F)).WBelow (T d) W' 0⌝ ∗ owes (T d) ((K (F := F)).Otc d 0) W')
              ∗ (a0Loc d ↦{fullShare} m (a0Loc d)) ∗ (a1Loc d ↦{fullShare} m (a1Loc d)) ∗ (v0Loc d ↦{fullShare} X0 m d))
            -∗ wp frame (wpE ((K (F := F)).defs (D (F := F))) 𝒱 (T d) none) Set.univ (k ⟨⟩) Φ))
      ⊢ wp frame (wpE ((K (F := F)).defs (D (F := F))) 𝒱 (T d) none) Set.univ
          (.op (.customCall (SparseCore.inner (Pipeline.entry 0)) ()) k) Φ

/-- The same two equations with the valuations spelt as the host stretches leave them. -/
theorem held_after1 (d : Dev nD) : (held (T d) UC (StableHlo.after ops1 (V1 m d)) : sProp 𝕄)
    = iprop(((v4Loc d ↦{fullShare} X4 m d) ∗ (v6Loc d ↦{fullShare} X6 m d) ∗ (v7Loc d ↦{fullShare} m (v7Loc d)))
        ∗ held (T d) (UC \ Tc) (V2 m d)) := held_V2 m d
theorem held_after2 (d : Dev nD) : (held (T d) UC (StableHlo.after ops2 (V3 m d)) : sProp 𝕄)
    = iprop(FIN m d ∗ held (T d) (UC \ Tf) (V4 m d)) := held_V4 m d

/-! ## The call's operands and results, as the three arrays whole -/

theorem st0_eq (d : Dev nD) : (bigSep Finset.univ fun c : Fin ((K (F := F)).nCore 0) => (P m).st 0 d c)
    = (iprop((v4Loc d ↦{fullShare} X4 m d) ∗ (v6Loc d ↦{fullShare} X6 m d) ∗ (v7Loc d ↦{fullShare} m (v7Loc d))) : sProp 𝕄) :=
  (whole_eq_shares m d (m (v7Loc d))).symm
theorem dn0_eq (d : Dev nD) : (bigSep Finset.univ fun c : Fin ((K (F := F)).nCore 0) => (P m).dn 0 d c)
    = (iprop((v4Loc d ↦{fullShare} X4 m d) ∗ (v6Loc d ↦{fullShare} X6 m d) ∗ (v7Loc d ↦{fullShare} X7 m d)) : sProp 𝕄) :=
  (whole_eq_shares m d (X7 m d)).symm

/-! ## @main -/

set_option backward.isDefEq.respectTransparency.types false in
theorem hmain (hreg : RegionStep m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 0
  unfold SparseCore.Cfg.tcRes
  rw [unscoped_held, held_V0, main_eq, hR]
  simp only [Prog.lift, Prog.bind_op, Prog.bind_ret]
  iintro ⟨#Hctx, ⟨⟨%W, %hW, HO⟩, HR⟩, ⟨Hb, ⟨⟨Ha0, Ha1, Hv0⟩, Hrest⟩, -, -⟩, ⟨Hcg, Hti⟩⟩
  ihave Hlev := (SparseCore.Cfg.ctx_levAts (K := K (F := F)) (EH := EH) (P := P m) κ) $$ Hctx
  -- the region
  iapply (hreg d W hW _ _) $$ [Hlev Hb Hcg Hti HO Ha0 Ha1 Hv0 HR Hrest]
  isplitl [Hlev]; · iexact Hlev
  isplitl [Hb]; · iexact Hb
  isplitl [Hcg]; · iexact Hcg
  isplitl [Hti]; · iexact Hti
  isplitl [HO]; · iexact HO
  isplitl [Ha0]; · iexact Ha0
  isplitl [Ha1]; · iexact Ha1
  isplitl [Hv0]; · iexists _; iexact Hv0
  iintro ⟨Hb, ⟨%W', %hW', HO⟩, Ha0, Ha1, Hv0⟩
  -- the six re-layouts, within the unscoped arrays
  ihave Hheld := (Entails.of_eq (held_V1 m d).symm) $$ [Ha0 Ha1 Hv0 Hrest]
  · isplitl [Ha0 Ha1 Hv0]
    · isplitl [Ha0]; · iexact Ha0
      isplitl [Ha1]; · iexact Ha1
      iexact Hv0
    · iexact Hrest
  iapply (wp_seq 𝒱 none Set.univ d UC _ ops1 hops1 hfresh1 (V1 m d)) $$ [Hb Hheld]
  · isplitl [Hb]; · iexact Hb
    iexact Hheld
  iintro ⟨Hb, Hheld⟩
  -- the call: its three arrays cut out, the TensorCore's handshake state folded back
  ihave Hh := (Entails.of_eq (held_after1 m d)) $$ Hheld
  icases Hh with ⟨⟨Hv4, Hv6, Hv7⟩, Hrest⟩
  rw [wp_bind]
  iapply ((K (F := F)).wp_run (D (F := F)) 𝒱 (EH := EH) (P := P m) κ d 0) $$ [HO HR Hv4 Hv6 Hv7 Hb Hrest]
  isplitr; · iexact Hctx
  isplitl [HO HR]
  · iapply (Entails.of_eq (show (iprop((∃ W, ⌜(K (F := F)).WBelow (T d) W (8 * 0)⌝ ∗ owes (T d) ((K (F := F)).Otc d 0) W) ∗ R) : sProp 𝕄)
        = (K (F := F)).tcSt EH d (0 : Fin 1).val from hR.symm))
    isplitl [HO]
    · iexists W'; isplitr
      · ipureintro; exact hW'
      · iexact HO
    · iexact HR
  isplitl [Hv4 Hv6 Hv7]
  · rw [st0_eq]
    isplitl [Hv4]; · iexact Hv4
    isplitl [Hv6]; · iexact Hv6
    iexact Hv7
  iintro ⟨Hst, Hdn⟩
  ihave Hdn' := (Entails.of_eq (dn0_eq m d)) $$ Hdn
  icases Hdn' with ⟨Hv4, Hv6, Hv7⟩
  ihave Hheld := (Entails.of_eq (held_V3 m d).symm) $$ [Hv4 Hv6 Hv7 Hrest]
  · isplitl [Hv4 Hv6 Hv7]
    · isplitl [Hv4]; · iexact Hv4
      isplitl [Hv6]; · iexact Hv6
      iexact Hv7
    · iexact Hrest
  -- the last ten operations
  rw [show (StableHlo.seq (Λ := SparseCore.Sig (ΛP (F := F)) 1) (nD := nD) (ops2 (F := F))) = (StableHlo.seq ops2 >>= fun x => pure x) from (bind_pure _).symm]
  iapply (wp_seq 𝒱 none Set.univ d UC _ ops2 hops2 hfresh2 (V3 m d)) $$ [Hb Hheld]
  · isplitl [Hb]; · iexact Hb
    iexact Hheld
  iintro ⟨Hb, Hheld⟩
  ihave Hh := (Entails.of_eq (held_after2 m d)) $$ Hheld
  icases Hh with ⟨Hfin, -⟩
  rw [wp_pure]
  imodintro
  isplitl [Hst]; · iexact Hst
  iexact Hfin

end Cert.KernelIdeal.Launch

end
-- ==== Proof.Launch5.lean ====
/-
  The program's run: every weakly fair execution of all its threads terminates, nothing faulting, with the result at
  `KVal.kernelVal` of the four arguments' launch contents and the arguments unchanged — the library's launch theorem
  for a SparseCore program, from the one vector-subcore call's task obligation, the identity split, the launch
  element, @main's proof and the reading of the final memory.
-/
import proofs.«205080_g78649441125020_cont_9to1_m_374_30_alg».proof.Proof.Launch4

noncomputable section

namespace Cert.KernelIdeal.Launch

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

variable (m : (ℓ : Loc nD τ sig) → Buf (Elt F) ℓ) (ρ : Dev nD → PrngReg)

/-- What the final memory of device `d` reads: the result at the program's value, the four arguments as launched. -/
def fq (d : Dev nD) (s' : Phys nD τ sig (Elt F)) : Prop :=
  s'.mem.mem ((SparseCore.T d).loc main_v13) = KVal.kernelVal (F := F) (m (a0Loc d)) (m (a1Loc d)) (m (a2Loc d)) (m (a3Loc d))
  ∧ s'.mem.mem (a0Loc d) = m (a0Loc d) ∧ s'.mem.mem (a1Loc d) = m (a1Loc d)
  ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨H0, H1, H2, H3, H13⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := (SparseCore.T d).loc main_v13) (I := Finset.univ) (q := fullShare)
    (f := KVal.kernelVal (F := F) (m (a0Loc d)) (m (a1Loc d)) (m (a2Loc d)) (m (a3Loc d)))) $$ [HSI H13]
  · isplitl [HSI] <;> iassumption
  icases H with %h13
  ipureintro
  exact ⟨funext fun i => h13 i (Finset.mem_univ i), funext fun i => h0 i (Finset.mem_univ i), funext fun i => h1 i (Finset.mem_univ i),
    funext fun i => h2 i (Finset.mem_univ i), funext fun i => h3 i (Finset.mem_univ i)⟩

/-- The run's post: on every device the result at the program's value of the launch contents, the arguments unchanged. -/
def QC : PUnit × MemSt nD τ sig (Elt F) → Prop := fun r => ∀ c : Dev nD,
  r.2.mem ((SparseCore.T c).loc main_v13) = KVal.kernelVal (F := F) (m (a0Loc c)) (m (a1Loc c)) (m (a2Loc c)) (m (a3Loc c))
  ∧ r.2.mem (a0Loc c) = m (a0Loc c) ∧ r.2.mem (a1Loc c) = m (a1Loc c)
  ∧ r.2.mem (a2Loc c) = m (a2Loc c) ∧ r.2.mem (a3Loc c) = m (a3Loc c)

/-- The run, from the region's step and the subcores' task obligation. -/
theorem run_main [∀ e, Nonempty (Elt F e)] (hreg : RegionStep m) (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m) (u₀ (F := F)) (sep_elim_left.trans (hu₀ m)) (hmain m ρ hreg) (fq m) (hfin m) (QC m) (fun _ h => h)

end Cert.KernelIdeal.Launch

end
-- ==== Proof.RegionBlocks.lean ====
/-
  The squared-difference sum runs over sixteen grid points. This module holds what is decided over the grid and what
  is read off the arrays, before any memory reasoning:

  * the body's two conditionals as functions of the point: the accumulator is zeroed exactly at the first point, and
    summed to one number exactly at the last;
  * block t of each input array, as the pipeline's fetch reads it (the array's elements under the window's rectangle
    at t), is the sixteen leading rows 16 t … 16 t + 15 of the array: an element at position j of the block sits at
    leading row 16 t + j₀ and at the same place on the other three axes.
-/
import proofs.«205080_g78649441125020_cont_9to1_m_374_30_alg».proof.Proof.Setup
import proofs.«205080_g78649441125020_cont_9to1_m_374_30_alg».proof.Proof.Gen.KernelIdeal.Skeleton
import Idealize.ShloMosaic.Lib.Pipeline.FrameBody

noncomputable section

namespace Cert.KernelIdeal.Region

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

variable (m : (ℓ : Loc nD τ sig) → Buf (Elt F) ℓ)

/-! ## The two conditionals, over the grid -/

/-- The condition of the body's first conditional, from the grid coordinates. -/
abbrev condFirst (i : grid0.Coords) : Prop :=
  (Scalar.cmpi .ne (Scalar.extui (Scalar.cmpi .eq (BitVec.ofNat 32 (i 0).val) 0#32)) 0#32) = 1#1

/-- It holds at the first point only. -/
theorem hcondFirst : ∀ t : Fin cfg0.N, condFirst (grid0.coords t) ↔ t.val = 0 :=
  (by decide +kernel : ∀ t : Fin grid0.N, condFirst (grid0.coords t) ↔ t.val = 0)

/-- The second conditional holds at the last point only. -/
theorem hcondLast : ∀ t : Fin cfg0.N, k0_cond2 (grid0.coords t) = 1#1 ↔ t.val = 15 :=
  (by decide +kernel : ∀ t : Fin grid0.N, k0_cond2 (grid0.coords t) = 1#1 ↔ t.val = 15)

/-! ## The input blocks -/

/-- Block `t` of each input array, read off the array through the window's rectangle at `t`. -/
def iblk0 (d : Dev nD) (t : Fin cfg0.N) : S16x3x224x224.Idx → Elt F .f32 :=
  ((cfg0.win 0).blk t).view.read (Elt F) (m (a0Loc d))
def iblk1 (d : Dev nD) (t : Fin cfg0.N) : S16x3x224x224.Idx → Elt F .f32 :=
  ((cfg0.win 1).blk t).view.read (Elt F) (m (a1Loc d))

/-- The block index of either input window at point `t` is `(t, 0, 0, 0)`. -/
theorem index0 : ∀ (t : Fin cfg0.N) (a : Fin 4), (cfg0.win 0).index t a = (![t.val, 0, 0, 0] : Fin 4 → ℕ) a :=
  (by decide +kernel : ∀ (t : Fin grid0.N) (a : Fin 4), win0_0.index t a = (![t.val, 0, 0, 0] : Fin 4 → ℕ) a)
theorem index1 : ∀ (t : Fin cfg0.N) (a : Fin 4), (cfg0.win 1).index t a = (![t.val, 0, 0, 0] : Fin 4 → ℕ) a :=
  (by decide +kernel : ∀ (t : Fin grid0.N) (a : Fin 4), win0_1.index t a = (![t.val, 0, 0, 0] : Fin 4 → ℕ) a)

/-- Where an element of block `t` sits in the array: block index times block size plus its own coordinate, axis by
    axis; on the leading axis `16 t + j₀ < 256`. -/
theorem emb0 (t : Fin cfg0.N) (j : S16x3x224x224.Idx) : ((cfg0.win 0).blk t).view.emb j = KVal.blkIdx t.val j := by
  have hN : t.val < 16 := lt_of_lt_of_eq t.isLt (show cfg0.N = 16 from N_0)
  funext a
  apply Fin.ext
  show (((cfg0.win 0).rect t).emb j a : ℕ) = _
  rw [Rect.emb_apply]
  show (cfg0.win 0).index t a * (cfg0.win 0).size a + 1 * (j a : ℕ) = _
  rw [index0]
  match a with
  | ⟨0, _⟩ =>
    have hj : (j 0).val < 16 := (j 0).isLt
    show t.val * 16 + 1 * (j 0).val = (16 * t.val + (j 0).val) % 256
    rw [Nat.mod_eq_of_lt (by omega)]; omega
  | ⟨1, _⟩ => show 0 * 3 + 1 * (j 1).val = (j 1).val; omega
  | ⟨2, _⟩ => show 0 * 224 + 1 * (j 2).val = (j 2).val; omega
  | ⟨3, _⟩ => show 0 * 224 + 1 * (j 3).val = (j 3).val; omega

theorem emb1 (t : Fin cfg0.N) (j : S16x3x224x224.Idx) : ((cfg0.win 1).blk t).view.emb j = KVal.blkIdx t.val j := by
  have hN : t.val < 16 := lt_of_lt_of_eq t.isLt (show cfg0.N = 16 from N_0)
  funext a
  apply Fin.ext
  show (((cfg0.win 1).rect t).emb j a : ℕ) = _
  rw [Rect.emb_apply]
  show (cfg0.win 1).index t a * (cfg0.win 1).size a + 1 * (j a : ℕ) = _
  rw [index1]
  match a with
  | ⟨0, _⟩ =>
    have hj : (j 0).val < 16 := (j 0).isLt
    show t.val * 16 + 1 * (j 0).val = (16 * t.val + (j 0).val) % 256
    rw [Nat.mod_eq_of_lt (by omega)]; omega
  | ⟨1, _⟩ => show 0 * 3 + 1 * (j 1).val = (j 1).val; omega
  | ⟨2, _⟩ => show 0 * 224 + 1 * (j 2).val = (j 2).val; omega
  | ⟨3, _⟩ => show 0 * 224 + 1 * (j 3).val = (j 3).val; omega

/-- Block `t` of an input array is its sixteen leading rows from `16 t`. -/
theorem iblk0_eq (d : Dev nD) (t : Fin cfg0.N) : iblk0 m d t = KVal.blk (F := F) (m (a0Loc d)) t.val := by
  funext j
  unfold iblk0 KVal.blk
  rw [View.read_apply, emb0]
  rfl
theorem iblk1_eq (d : Dev nD) (t : Fin cfg0.N) : iblk1 m d t = KVal.blk (F := F) (m (a1Loc d)) t.val := by
  funext j
  unfold iblk1 KVal.blk
  rw [View.read_apply, emb1]
  rfl

end Cert.KernelIdeal.Region

end
-- ==== Proof.RegionData.lean ====
/-
  The proof data of the squared-difference sum's pipeline: what each array holds when the region is entered, what the
  body leaves in each window's staging buffer at each point, and what it carries from point to point.

  The two inputs are only read: their staging buffers hold block t at point t and the body leaves them so. The [1,1]
  result is stored once, at the last point, when the accumulator is summed. Between the points the body carries the
  [224,224] accumulator in its scratch buffer: anything before the first point (which zeroes it), and after n ≥ 1
  points the sum of the first n blocks' contributions.
-/
import proofs.«205080_g78649441125020_cont_9to1_m_374_30_alg».proof.Proof.RegionBlocks

noncomputable section

namespace Cert.KernelIdeal.Region

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

variable (m : (ℓ : Loc nD τ sig) → Buf (Elt F) ℓ) (fv : (c : Dev nD) → Buf (Elt F) (v0Loc c))

/-- The scratch buffer that carries the accumulator, on device `d`'s TensorCore. -/
abbrev scrLoc (d : Dev nD) : Loc nD τ sig :=
  (Memref.whole cc0_scratch0 : Memref sig .tc .vmem S224x224 .f32).view.loc (SparseCore.T d)

/-- The accumulator between the points: before the first point the scratch holds anything; after `n ≥ 1` points it
    holds the first `n` blocks' contributions summed. -/
def accΦ (d : Dev nD) (n : ℕ) : sProp 𝕄 :=
  if n = 0 then iprop(∃ f, scrLoc d ↦{fullShare} f)
  else iprop(scrLoc d ↦{fullShare} KVal.accAt (F := F) (m (a0Loc d)) (m (a1Loc d)) n)

theorem accΦ_zero (d : Dev nD) : accΦ m d 0 = iprop(∃ f, scrLoc d ↦{fullShare} f) := if_pos rfl
theorem accΦ_pos (d : Dev nD) {n : ℕ} (h : n ≠ 0) :
    accΦ m d n = iprop(scrLoc d ↦{fullShare} KVal.accAt (F := F) (m (a0Loc d)) (m (a1Loc d)) n) := if_neg h

/-- What the last point stores in the result's staging word: the accumulator of all sixteen blocks, summed. -/
def outWord (d : Dev nD) : S1x1.Idx → Elt F .f32 := fun _ => k0_pay3 (KVal.accAt (F := F) (m (a0Loc d)) (m (a1Loc d)) 16)

/-- The proof data on device `d`: the three arrays at entry; the inputs' blocks left in place, the result's word at the
    last point; the accumulator; full shares; the TensorCore owes the launch what it owed on entry throughout (the body
    signals nobody), and records only pairs at level 0. -/
def pdat (d : Dev nD) : Dat τ (Elt F) (HIx 1) ℕ UU ℕ cfg0 d where
  A w := match w with
    | ⟨0, _⟩ => m (a0Loc d)
    | ⟨1, _⟩ => m (a1Loc d)
    | ⟨2, _⟩ => fv d
  after w t := match w with
    | ⟨0, _⟩ => iblk0 m d t
    | ⟨1, _⟩ => iblk1 m d t
    | ⟨2, _⟩ => outWord m d
  Φ t := accΦ m d t.val
  q _ := fullShare
  owed _ := (K (F := F)).Otc d 0
  recorded _ := {p | (K (F := F)).lev (SparseCore.T d, p.1) p.2 ≤ 0}

/-- The one pipeline's proof data, as the region rule takes them. -/
abbrev pdats : (p : Fin 1) → (c : Dev nD) → Dat τ (Elt F) (HIx 1) ℕ UU ℕ (Pipeline.pin (pcfgs (F := F)) aAdm p) c :=
  fun _ c => pdat m fv c

theorem arrAt_zero (d : Dev nD) (w : Fin cfg0.W) : (pdat m fv d).arrAt w 0 = (pdat m fv d).A w := rfl
theorem A_0 (d : Dev nD) : (pdat m fv d).A 0 = m (a0Loc d) := by dsimp only [pdat]
theorem A_1 (d : Dev nD) : (pdat m fv d).A 1 = m (a1Loc d) := by dsimp only [pdat]
theorem A_2 (d : Dev nD) : (pdat m fv d).A 2 = fv d := by dsimp only [pdat]
theorem after_0 (d : Dev nD) (t : Fin cfg0.N) : (pdat m fv d).after 0 t = iblk0 m d t := by dsimp only [pdat]
theorem after_1 (d : Dev nD) (t : Fin cfg0.N) : (pdat m fv d).after 1 t = iblk1 m d t := by dsimp only [pdat]
theorem after_2 (d : Dev nD) (t : Fin cfg0.N) : (pdat m fv d).after 2 t = outWord m d := by dsimp only [pdat]
theorem Φ_eq (d : Dev nD) (t : Fin (cfg0.N + 1)) : (pdat m fv d).Φ t = accΦ m d t.val := by dsimp only [pdat]
theorem owed_eq (d : Dev nD) (t : Fin (cfg0.N + 1)) : (pdat m fv d).owed t = (K (F := F)).Otc d 0 := by dsimp only [pdat]
theorem recorded_eq (d : Dev nD) (t : Fin (cfg0.N + 1)) :
    (pdat m fv d).recorded t = {p | (K (F := F)).lev (SparseCore.T d, p.1) p.2 ≤ 0} := by dsimp only [pdat]

/-- Each input's current staging buffer holds its block at every point: both are fetched at every point, and an uncut
    fetch fills the buffer with the block. -/
theorem before_0 (d : Dev nD) (t : Fin cfg0.N) (x) : (pdat m fv d).before 0 t x = iblk0 m d t := by
  rw [Dat.before_fetched _ 0 t (fetch0_0 t) x]
  unfold Dat.fetched Dat.blockOf iblk0
  rw [A_0]; rfl
theorem before_1 (d : Dev nD) (t : Fin cfg0.N) (x) : (pdat m fv d).before 1 t x = iblk1 m d t := by
  rw [Dat.before_fetched _ 1 t (fetch0_1 t) x]
  unfold Dat.fetched Dat.blockOf iblk1
  rw [A_1]; rfl

end Cert.KernelIdeal.Region

end
-- ==== Proof.RegionRuns.lean ====
/-
  The body of the squared-difference sum, run once at a symbolic grid point in each of its three cases.

  On whole staging buffers holding a block of each input and the scratch holding the accumulator so far, the body adds
  the block's contribution to the accumulator: at the first point it zeroes the scratch first (whatever it held); at
  the last point it then sums the accumulator into the result's word; in between it does neither. The inputs' buffers
  are left as found.
-/
import proofs.«205080_g78649441125020_cont_9to1_m_374_30_alg».proof.Proof.RegionBlocks
import Idealize.ShloMosaic.Lib.Tactic

noncomputable section

namespace Cert.KernelIdeal.Region

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

open Idealize.ShloMosaic.Tactic

/-! ## Loads and stores through the whole rectangle -/

section Whole

variable {sig' : RefSig} {κ : Kind} {sp : Space} {S : Shape} {e : EltTy} {Val : EltTy → Type}

/-- A load through the rectangle of the buffer's own sizes at zero offsets reads what the view reads. -/
theorem readAt_zero (v : View sig' κ sp S e) (f : v.ty.Contents Val) {off : Fin S.rank → ℕ} (h : off = fun _ => 0)
    (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

/-- After a last store through that rectangle the view reads the store's payload, whatever came before. -/
theorem read_writes_zero (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext x
  have := View.read_writes_cons_emb v f (Rect.whole S) w L x
  rwa [Rect.emb_whole_apply] at this

end Whole

theorem off2 : (![0, 0] : Fin 2 → ℕ) = fun _ => 0 := by decide
theorem off4 : (![0, 0, 0, 0] : Fin 4 → ℕ) = fun _ => 0 := by decide

/-- The scratch buffer as the body names it. -/
abbrev scrM : Memref sig .tc .vmem S224x224 .f32 := Memref.whole cc0_scratch0

variable [∀ e, Nonempty (Elt F e)]

/-- The scratch is a whole buffer: a store through its whole rectangle replaces its contents, a load through it reads
    them, and a load after such a store reads the store's payload. -/
theorem scr_writes (g : scrM.view.ty.Contents (Elt F)) (w : S224x224.Idx → Elt F .f32) (L : List (View.Piece (Elt F) S224x224 .f32)) :
    scrM.view.writes (Elt F) g (⟨Rect.unit ![0, 0] S224x224.size inb_S224x224_S224x224_0_0, w⟩ :: L) = w :=
  read_writes_zero scrM.view g off2 _ w L
theorem scr_readAt (g : scrM.view.ty.Contents (Elt F)) :
    scrM.view.readAt (Elt F) (Rect.unit ![0, 0] S224x224.size inb_S224x224_S224x224_0_0).toLoadRect g = g :=
  readAt_zero scrM.view g off2 _
theorem scr_readCov (w : S224x224.Idx → Elt F .f32) (L : List (View.Piece (Elt F) S224x224 .f32)) :
    scrM.view.readCov (⟨Rect.unit ![0, 0] S224x224.size inb_S224x224_S224x224_0_0, w⟩ :: L)
      (Rect.unit ![0, 0] S224x224.size inb_S224x224_S224x224_0_0).toLoadRect = w :=
  View.readCov_cons_toLoadRect _ _ _ _

/-- The scratch at contents `a`. -/
abbrev scrAt (c : Dev nD) (a : Vec F S224x224 .f32) : sProp 𝕄 :=
  iprop(∃ g, ⌜g = a⌝ ∗ (scrM.view.loc (SparseCore.T c) ↦{fullShare} g))

/-- THE FIRST POINT: the scratch, whatever it held, is zeroed and then holds the first block's contribution. -/
theorem run_first (c : Dev nD) (i : grid0.Coords) (arg1 : Memref sig .tc .vmem S16x3x224x224 .f32) (harg1 : arg1.IsWhole)
    (arg2 : Memref sig .tc .vmem S16x3x224x224 .f32) (harg2 : arg2.IsWhole) (arg3 : Memref sig .tc .smem S1x1 .f32) (harg3 : arg3.IsWhole)
    (hc1 : condFirst i) (hc2 : ¬k0_cond2 i = 1#1) (x0 x1 : Vec F S16x3x224x224 .f32) (E : Set ℕ) (Kk : PUnit → sProp 𝕄) :
    iprop(owns (SparseCore.T c) arg1 fullShare x0 ∗ owns (SparseCore.T c) arg2 fullShare x1
        ∗ (∃ g, scrM.view.loc (SparseCore.T c) ↦{fullShare} g)
        ∗ (iprop(owns (SparseCore.T c) arg1 fullShare x0 ∗ owns (SparseCore.T c) arg2 fullShare x1
            ∗ scrAt c (k0_pay2 x0 x1 (k0_pay1 (F := F)))) -∗ Kk ⟨⟩))
      ⊢ wp frame (wpE (defs₀ (F := F)) 𝒱₀ (SparseCore.T c) none) E
          (cc0__mse_body i arg1 harg1 arg2 harg2 arg3 harg3 (Memref.whole cc0_scratch0) (Memref.isWhole_whole _)) Kk := by
  unfold owns
  iintro ⟨⟨%f0, %hf0, H0⟩, ⟨%f1, %hf1, H1⟩, ⟨%g, Hs⟩, Hk⟩
  sl_unfold [cc0__mse_body]
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  iexists _; isplitr
  swap; · iexact Hs
  ipureintro
  rw [scr_writes, readAt_zero _ _ off4, readAt_zero _ _ off4, hf0, hf1]
  sl_unfold_run_names
  rw [scr_readCov]

/-- A MIDDLE POINT: the block's contribution is added to the accumulator. -/
theorem run_mid (c : Dev nD) (i : grid0.Coords) (arg1 : Memref sig .tc .vmem S16x3x224x224 .f32) (harg1 : arg1.IsWhole)
    (arg2 : Memref sig .tc .vmem S16x3x224x224 .f32) (harg2 : arg2.IsWhole) (arg3 : Memref sig .tc .smem S1x1 .f32) (harg3 : arg3.IsWhole)
    (hc1 : ¬condFirst i) (hc2 : ¬k0_cond2 i = 1#1) (x0 x1 : Vec F S16x3x224x224 .f32) (acc : Vec F S224x224 .f32)
    (E : Set ℕ) (Kk : PUnit → sProp 𝕄) :
    iprop(owns (SparseCore.T c) arg1 fullShare x0 ∗ owns (SparseCore.T c) arg2 fullShare x1
        ∗ (scrM.view.loc (SparseCore.T c) ↦{fullShare} acc)
        ∗ (iprop(owns (SparseCore.T c) arg1 fullShare x0 ∗ owns (SparseCore.T c) arg2 fullShare x1
            ∗ scrAt c (k0_pay2 x0 x1 acc)) -∗ Kk ⟨⟩))
      ⊢ wp frame (wpE (defs₀ (F := F)) 𝒱₀ (SparseCore.T c) none) E
          (cc0__mse_body i arg1 harg1 arg2 harg2 arg3 harg3 (Memref.whole cc0_scratch0) (Memref.isWhole_whole _)) Kk := by
  unfold owns
  iintro ⟨⟨%f0, %hf0, H0⟩, ⟨%f1, %hf1, H1⟩, Hs, Hk⟩
  sl_unfold [cc0__mse_body]
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  iexists _; isplitr
  swap; · iexact Hs
  ipureintro
  rw [scr_writes, readAt_zero _ _ off4, readAt_zero _ _ off4, hf0, hf1, scr_readAt]

/-- THE LAST POINT: the contribution is added, and the accumulator summed into the result's word. -/
theorem run_last (c : Dev nD) (i : grid0.Coords) (arg1 : Memref sig .tc .vmem S16x3x224x224 .f32) (harg1 : arg1.IsWhole)
    (arg2 : Memref sig .tc .vmem S16x3x224x224 .f32) (harg2 : arg2.IsWhole) (arg3 : Memref sig .tc .smem S1x1 .f32) (harg3 : arg3.IsWhole)
    (hc1 : ¬condFirst i) (hc2 : k0_cond2 i = 1#1) (x0 x1 : Vec F S16x3x224x224 .f32) (acc : Vec F S224x224 .f32) (x3 : Vec F S1x1 .f32)
    (E : Set ℕ) (Kk : PUnit → sProp 𝕄) :
    iprop(owns (SparseCore.T c) arg1 fullShare x0 ∗ owns (SparseCore.T c) arg2 fullShare x1
        ∗ owns (SparseCore.T c) arg3 fullShare x3
        ∗ (scrM.view.loc (SparseCore.T c) ↦{fullShare} acc)
        ∗ (iprop(owns (SparseCore.T c) arg1 fullShare x0 ∗ owns (SparseCore.T c) arg2 fullShare x1
            ∗ owns (SparseCore.T c) arg3 fullShare (fun _ => k0_pay3 (k0_pay2 x0 x1 acc))
            ∗ scrAt c (k0_pay2 x0 x1 acc)) -∗ Kk ⟨⟩))
      ⊢ wp frame (wpE (defs₀ (F := F)) 𝒱₀ (SparseCore.T c) none) E
          (cc0__mse_body i arg1 harg1 arg2 harg2 arg3 harg3 (Memref.whole cc0_scratch0) (Memref.isWhole_whole _)) Kk := by
  unfold owns
  iintro ⟨⟨%f0, %hf0, H0⟩, ⟨%f1, %hf1, H1⟩, ⟨%f3, %hf3, H3⟩, Hs, Hk⟩
  sl_unfold [cc0__mse_body]
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H3]
  · iexists _; isplitr
    swap; · iexact H3
    ipureintro
    rw [read_writes_zero _ _ off2]
    sl_unfold_run_names
    rw [scr_readCov, readAt_zero _ _ off4, readAt_zero _ _ off4, hf0, hf1, scr_readAt]
    rfl
  iexists _; isplitr
  swap; · iexact Hs
  ipureintro
  sl_unfold_run_names
  rw [scr_writes, readAt_zero _ _ off4, readAt_zero _ _ off4, hf0, hf1, scr_readAt]

end Cert.KernelIdeal.Region

end
-- ==== Proof.RegionBody.lean ====
/-
  The body obligation of the squared-difference sum's pipeline: at every grid point, from the accumulator as the points
  before left it and each window's current staging buffer at what it then holds, the body runs to the accumulator one
  block further and each staging buffer at what the proof data say it leaves.

  The point is in one of three cases, decided in closed form over the grid: the first point (the scratch is zeroed
  before the block is added), a middle point, the last point (the accumulator is then summed into the result's word).
  The result's window is idle at every point but the last, where it is also written back: there its staging word is
  handed back as found.
-/
import proofs.«205080_g78649441125020_cont_9to1_m_374_30_alg».proof.Proof.RegionData
import proofs.«205080_g78649441125020_cont_9to1_m_374_30_alg».proof.Proof.RegionRuns

noncomputable section

namespace Cert.KernelIdeal.Region

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

open Idealize.ShloMosaic.Tactic
open Idealize.ShloMosaic.Pipeline (BodyObligationLoose)

variable (m : (ℓ : Loc nD τ sig) → Buf (Elt F) ℓ) (fv : (c : Dev nD) → Buf (Elt F) (v0Loc c))
variable [∀ e, Nonempty (Elt F e)]

/-! ## Where the result's window is idle and where it is written back -/

theorem hidle2 : ∀ t : Fin cfg0.N, cfg0.idle 2 (cfg0.grid.coords t) = true ↔ t.val ≠ 15 :=
  (by decide +kernel : ∀ t : Fin grid0.N, idle0 2 (grid0.coords t) = true ↔ t.val ≠ 15)

theorem grid_lt (t : Fin cfg0.N) : t.val < 16 := lt_of_lt_of_eq t.isLt (show cfg0.N = 16 from N_0)

theorem hflush2 (t : Fin cfg0.N) (h : t.val ≠ 15) : (cfg0.win 2).flush t = false := by
  have hN := grid_lt t
  rw [Bool.eq_false_iff]; intro hf
  have := (flush0_2 t).mp hf
  omega

/-- At a point before the last the result's staging word is left as found; -/
theorem leaves2_idle (d : Dev nD) (t : Fin cfg0.N) (h : t.val ≠ 15) :
    (pdat m fv d).leaves 2 t = iprop(∃ x, owns (SparseCore.T d) (st0_2 t) fullShare ((pdat m fv d).before 2 t x)) :=
  Dat.leaves_idle _ 2 t ((hidle2 t).mpr h) (hflush2 t h)

/-- at the last it holds the summed accumulator. -/
theorem leaves2_live (d : Dev nD) (t : Fin cfg0.N) (h : t.val = 15) :
    (pdat m fv d).leaves 2 t = owns (SparseCore.T d) (st0_2 t) fullShare (outWord m d) := by
  have hi : cfg0.idle 2 (cfg0.grid.coords t) = false := by
    rw [Bool.eq_false_iff]; intro hi; exact (hidle2 t).mp hi h
  unfold Dat.leaves; rw [hi, after_2]

/-! ## The accumulator, one block further -/

theorem acc_step (d : Dev nD) (t : Fin cfg0.N) :
    k0_pay2 (iblk0 m d t) (iblk1 m d t) (KVal.accAt (F := F) (m (a0Loc d)) (m (a1Loc d)) t.val)
      = KVal.accAt (F := F) (m (a0Loc d)) (m (a1Loc d)) (t.val + 1) := by
  rw [iblk0_eq, iblk1_eq]; rfl

/-- What the TensorCore owes, and the bound on what its waits have recorded, do not change from point to point. -/
theorem owesAt_eq (d : Dev nD) (t t' : Fin (cfg0.N + 1)) : (pdat m fv d).owesAt none t = (pdat m fv d).owesAt none t' := by
  unfold Dat.owesAt Dat.bound; rw [owed_eq, owed_eq, recorded_eq, recorded_eq]

/-! ## The obligation at a point -/

/-- What the body is called with at point `t`, the windows one by one, -/
def bodyPre (d : Dev nD) (t : Fin cfg0.N) : sProp 𝕄 :=
  iprop((pdat m fv d).Φ t.castSucc ∗ (pdat m fv d).owesAt none t.castSucc
    ∗ (∃ x, owns (SparseCore.T d) (st0_0 t) fullShare ((pdat m fv d).before 0 t x))
    ∗ (∃ x, owns (SparseCore.T d) (st0_1 t) fullShare ((pdat m fv d).before 1 t x))
    ∗ (∃ x, owns (SparseCore.T d) (st0_2 t) fullShare ((pdat m fv d).before 2 t x)))

/-- and what it returns. -/
def bodyPost (d : Dev nD) (t : Fin cfg0.N) : sProp 𝕄 :=
  iprop((pdat m fv d).Φ t.succ ∗ (pdat m fv d).owesAt none t.succ
    ∗ owns (SparseCore.T d) (st0_0 t) fullShare ((pdat m fv d).after 0 t)
    ∗ owns (SparseCore.T d) (st0_1 t) fullShare ((pdat m fv d).after 1 t)
    ∗ (pdat m fv d).leaves 2 t)

set_option maxHeartbeats 800000 in
theorem sound_body (d : Dev nD) (t : Fin cfg0.N) :
    bodyPre m fv d t ⊢ wp frame (wpE (defs₀ (F := F)) 𝒱₀ (SparseCore.T d) none) Set.univ (bodyAt0 t) (fun _ => bodyPost m fv d t) := by
  have hN := grid_lt t
  unfold bodyPre bodyPost bodyAt0
  simp only [before_0, before_1]
  rw [owesAt_eq m fv d t.succ t.castSucc, after_0, after_1, Φ_eq, Φ_eq, Fin.coe_castSucc, Fin.val_succ,
    accΦ_pos m d (Nat.succ_ne_zero t.val), ← acc_step m d t]
  by_cases h0 : t.val = 0
  · -- the first point
    have h15 : t.val ≠ 15 := by omega
    have e0 : accΦ m d t.val = iprop(∃ f, scrLoc d ↦{fullShare} f) := by rw [h0]; exact accΦ_zero m d
    have ea : KVal.accAt (F := F) (m (a0Loc d)) (m (a1Loc d)) t.val = k0_pay1 (F := F) := by rw [h0]; rfl
    rw [leaves2_idle m fv d t h15, e0, ea]
    iintro ⟨⟨%g, Hs⟩, Ho, ⟨%x0, H0⟩, ⟨%x1, H1⟩, H2⟩
    iapply (run_first d (grid0.coords t) _ _ _ _ _ _ ((hcondFirst t).mpr h0) (fun h => h15 ((hcondLast t).mp h))
      (iblk0 m d t) (iblk1 m d t) Set.univ _)
    isplitl [H0]; · iexact H0
    isplitl [H1]; · iexact H1
    isplitl [Hs]; · iexists g; iexact Hs
    iintro ⟨H0, H1, ⟨%g', %hg', Hs⟩⟩
    subst hg'
    isplitl [Hs]; · iexact Hs
    isplitl [Ho]; · iexact Ho
    isplitl [H0]; · iexact H0
    isplitl [H1]; · iexact H1
    iexact H2
  · rw [accΦ_pos m d h0]
    by_cases h15 : t.val = 15
    · -- the last point
      have e16 : KVal.accAt (F := F) (m (a0Loc d)) (m (a1Loc d)) 16 = KVal.accAt (F := F) (m (a0Loc d)) (m (a1Loc d)) (t.val + 1) := by rw [h15]
      rw [leaves2_live m fv d t h15]
      unfold outWord
      rw [e16, ← acc_step m d t]
      iintro ⟨Hs, Ho, ⟨%x0, H0⟩, ⟨%x1, H1⟩, ⟨%x2, H2⟩⟩
      iapply (run_last d (grid0.coords t) _ _ _ _ _ _ (fun h => h0 ((hcondFirst t).mp h)) ((hcondLast t).mpr h15)
        (iblk0 m d t) (iblk1 m d t) (KVal.accAt (F := F) (m (a0Loc d)) (m (a1Loc d)) t.val) _ Set.univ _)
      isplitl [H0]; · iexact H0
      isplitl [H1]; · iexact H1
      isplitl [H2]; · iexact H2
      isplitl [Hs]; · iexact Hs
      iintro ⟨H0, H1, H2, ⟨%g', %hg', Hs⟩⟩
      subst hg'
      isplitl [Hs]; · iexact Hs
      isplitl [Ho]; · iexact Ho
      isplitl [H0]; · iexact H0
      isplitl [H1]; · iexact H1
      iexact H2
    · -- a middle point
      rw [leaves2_idle m fv d t h15]
      iintro ⟨Hs, Ho, ⟨%x0, H0⟩, ⟨%x1, H1⟩, H2⟩
      iapply (run_mid d (grid0.coords t) _ _ _ _ _ _ (fun h => h0 ((hcondFirst t).mp h)) (fun h => h15 ((hcondLast t).mp h))
        (iblk0 m d t) (iblk1 m d t) (KVal.accAt (F := F) (m (a0Loc d)) (m (a1Loc d)) t.val) Set.univ _)
      isplitl [H0]; · iexact H0
      isplitl [H1]; · iexact H1
      isplitl [Hs]; · iexact Hs
      iintro ⟨H0, H1, ⟨%g', %hg', Hs⟩⟩
      subst hg'
      isplitl [Hs]; · iexact Hs
      isplitl [Ho]; · iexact Ho
      isplitl [H0]; · iexact H0
      isplitl [H1]; · iexact H1
      iexact H2

/-- The library's body obligation, at every point. -/
theorem body_obligation (d : Dev nD) : BodyObligationLoose (pdat (F := F) m fv d) defs₀ 𝒱₀ none Set.univ := fun t => by
  rw [bigSep_W0, bigSep_W0]
  exact sound_body m fv d t

end Cert.KernelIdeal.Region

end
-- ==== Proof.RegionSeg.lean ====
/-
  The squared-difference sum as one kernel region of the program: what the region is entered with and what it leaves.

  It is entered holding the two input arrays at their launch contents and the [1,1] result array at anything, the
  TensorCore owing the launch what it owes before the first SparseCore call, its recorded waits all at level 0. It
  leaves the inputs unchanged, the result at the sum of the sixteen blocks' accumulator, and the TensorCore owing the
  same, its recorded waits still at level 0 (the pipeline's own waits are at the kernels' index, level 0).

  The result array after the run is what the last point flushed: it is one block, written back once. The waits of
  the pipeline sit below everything the TensorCore owes, which is all at a call's index.
-/
import proofs.«205080_g78649441125020_cont_9to1_m_374_30_alg».proof.Proof.RegionBody
import Idealize.ShloMosaic.Lib.Pipeline.Value

noncomputable section

namespace Cert.KernelIdeal.Region

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

open Idealize.ShloMosaic.Pipeline (BodyObligationLoose)

variable (m : (ℓ : Loc nD τ sig) → Buf (Elt F) ℓ) (fv : (c : Dev nD) → Buf (Elt F) (v0Loc c))
variable [∀ e, Nonempty (Elt F e)]

/-! ## What the TensorCore owes is all at a call's index -/

theorem Otc_none (d : Dev nD) (g : GSem nD τ sig) : (K (F := F)).Otc d 0 g none = 0 := by
  by_contra h
  have := (K (F := F)).lev_of_Otc_pos (d := d) (n := 0) (g := g) (ι := none) (Nat.pos_of_ne_zero h)
  rw [SparseCore.Cfg.lev_none] at this
  omega

/-! ## The pieces of the region's entailments -/

theorem bigSep_Fin0 {M : Type} [URA M] (Φ : Fin 0 → sProp M) : bigSep Finset.univ Φ = (BI.emp : sProp M) :=
  bigSep_univ_eq_bigSepL [] (by decide) (by decide) Φ

theorem prefHeld_none (c : Dev nD) (q) (pf) :
    (Pipeline.prefHeld (Ix := HIx 1) (Name := ℕ) (U := UU) (Lvl := ℕ) (Val := Elt F) (pcfgs (F := F) 0).pre c q pf : sProp 𝕄) = BI.emp :=
  bigSep_Fin0 _

theorem scopedRest_eq (c : Dev nD) :
    (Pipeline.scopedRest (Ix := HIx 1) (Name := ℕ) (U := UU) (Lvl := ℕ) (Val := Elt F) (Pipeline.pin (pcfgs (F := F)) aAdm 0).spec c : sProp 𝕄)
      = iprop(∃ f, scrLoc c ↦{fullShare} f) :=
  scopedRest0_eq c

theorem share_full (c : Dev nD) (w : Fin cfg0.W) : (pdat m fv c).share w = fullShare :=
  (pdat m fv c).share_full (fun _ => rfl) w

theorem arrays_eq3 (c : Dev nD) (Fa : (w : Fin cfg0.W) → Buf (Elt F) ((cfg0.win w).arr.view.loc (c.tc : Thread nD τ))) :
    ((pdat m fv c).arrays Fa : sProp 𝕄)
      = iprop((a0Loc c ↦{fullShare} Fa 0) ∗ (a1Loc c ↦{fullShare} Fa 1) ∗ (v0Loc c ↦{fullShare} Fa 2)) := by
  rw [Pipeline.arrays_eq (Pipeline.pin (pcfgs (F := F)) aAdm) (pdats m fv) 0 c arr_whole0 (share_full m fv c) Fa, bigSep_W0]

/-- The result array after the run: its one block, written back once at the last point, holds the summed accumulator. -/
theorem arrAt_2 (c : Dev nD) : (pdat m fv c).arrAt 2 cfg0.N = X0 m c := by
  refine Dat.arrAt_eq_of_cover (pdat m fv c) 2 (X0 m c) (fun t hf => ?_) (fun i => ?_)
  · funext y
    show (cfg0.win 2).cut _ ((pdat m fv c).after 2 t) y = _
    rw [after_2, View.read_apply]
    rfl
  · refine ⟨t0_15, (flush0_2 t0_15).mpr rfl, ?_⟩
    let y : ((cfg0.win 2).xblock (cfg0.grid.coords t0_15)).Idx := fun a =>
      match a with
      | ⟨0, _⟩ => ⟨0, (show (0 : ℕ) < 1 from Nat.zero_lt_one)⟩
      | ⟨1, _⟩ => ⟨0, (show (0 : ℕ) < 1 from Nat.zero_lt_one)⟩
    have hi : i = ((cfg0.win 2).blk t0_15).view.emb y := by
      funext a; apply Fin.ext
      have h1 := (i a).isLt
      have h2 := (((cfg0.win 2).blk t0_15).view.emb y a).isLt
      match a with
      | ⟨0, _⟩ => exact (Nat.lt_one_iff.mp h1).trans (Nat.lt_one_iff.mp h2).symm
      | ⟨1, _⟩ => exact (Nat.lt_one_iff.mp h1).trans (Nat.lt_one_iff.mp h2).symm
    rw [hi]; exact View.emb_mem_set _ y

/-! ## What the TensorCore owes, as the pipeline holds it -/

/-- The TensorCore owing what it owes before the first SparseCore call, its recorded waits at level 0. -/
abbrev owesTc (c : Dev nD) : sProp 𝕄 :=
  iprop(∃ W, ⌜(Setup.K (F := F)).WBelow (SparseCore.T c) W 0⌝ ∗ owes (SparseCore.T c) ((Setup.K (F := F)).Otc c 0) W)

theorem owesAt_intro (c : Dev nD) (t : Fin (cfg0.N + 1)) : owesTc (F := F) c ⊢ ((pdat m fv c).owesAt none t : sProp 𝕄) := by
  unfold Dat.owesAt Pipeline.owesWithin Dat.bound
  rw [owed_eq, recorded_eq]
  iintro ⟨%W, %hW, HO⟩; iexists W; isplitr
  · ipureintro; exact fun p hp => Or.inl (hW p (Finset.mem_coe.mp hp))
  iexact HO

theorem owesAt_elim (c : Dev nD) (t : Fin (cfg0.N + 1)) : ((pdat m fv c).owesAt none t : sProp 𝕄) ⊢ owesTc (F := F) c := by
  unfold Dat.owesAt Pipeline.owesWithin Dat.bound
  rw [owed_eq, recorded_eq]
  iintro ⟨%W, %hW, HO⟩; iexists W; isplitr
  · ipureintro; intro p hp
    rcases hW (Finset.mem_coe.mpr hp) with h | ⟨w, s, rfl⟩
    · exact h
    · exact le_of_eq ((Setup.K (F := F)).lev_none _)
  iexact HO

/-! ## The region -/

/-- The thread state the region is entered from, -/
def pre (c : Dev nD) : sProp 𝕄 :=
  iprop(owesTc (F := F) c
    ∗ (a0Loc c ↦{fullShare} m (a0Loc c)) ∗ (a1Loc c ↦{fullShare} m (a1Loc c)) ∗ (v0Loc c ↦{fullShare} fv c))

/-- and the one it leaves. -/
def post (c : Dev nD) : sProp 𝕄 :=
  iprop(owesTc (F := F) c
    ∗ (a0Loc c ↦{fullShare} m (a0Loc c)) ∗ (a1Loc c ↦{fullShare} m (a1Loc c)) ∗ (v0Loc c ↦{fullShare} X0 m c))

theorem last_val : (Fin.last cfg0.N).val = 16 := N_0

/-- The squared-difference sum as a kernel region. -/
def region : Pipeline.RegionSeg (pcfgs (F := F)) aAdm (pdats m fv) none defs₀ 𝒱₀ (Setup.K (F := F)).L (Setup.K (F := F)).lev 0 where
  win := winFacts0.to₀
  block_pos := block_pos0
  stage_whole := stage_whole0
  K := PEmpty
  osem k := k.elim
  ho := Pipeline.OwnSemFacts.none _
  hbody c := body_obligation m fv c
  hwaits c := Pipeline.cellsWaits_of_cut (Pipeline.pin (pcfgs (F := F)) aAdm) (pdats m fv) none 0 c 0 ((Setup.K (F := F)).Otc c 0)
    (fun t => owed_eq m fv c t) (fun _ _ => Finset.mem_univ _) (fun _ _ => le_of_eq ((Setup.K (F := F)).lev_none _))
    (fun g i h => ⟨Finset.mem_univ _, by
      cases i with
      | none => rw [Otc_none] at h; exact absurd h (lt_irrefl 0)
      | some q => exact (Setup.K (F := F)).lev_some_pos g q⟩)
  pre := pre m fv
  post := post m
  X _ := iprop(emp)
  Y _ := iprop(emp)
  Z _ := iprop(emp)
  hentry c := by
    unfold pre
    rw [Pipeline.ownSems0_none, arrays_eq3, prefHeld_none, arrAt_zero, arrAt_zero, arrAt_zero, A_0, A_1, A_2]
    iintro ⟨⟨HO, Ha0, Ha1, Hv0⟩, -, -⟩
    imodintro
    isplitl [Ha0 Ha1 Hv0]
    · isplitl [Ha0]; · iexact Ha0
      isplitl [Ha1]; · iexact Ha1
      iexact Hv0
    isplitr; · iempintro
    isplitl [HO]; · iapply (owesAt_intro m fv c 0); iexact HO
    isplitr <;> iempintro
  hin c := by
    rw [scopedRest_eq, Φ_eq, show ((0 : Fin (cfg0.N + 1)).val) = 0 from rfl, accΦ_zero]
    iintro ⟨-, -, H⟩; iexact H
  hout c := by
    rw [Pipeline.ownSems0_none, scopedRest_eq, Φ_eq, last_val, accΦ_pos m c (by decide)]
    iintro H
    isplitr; · iempintro
    isplitr; · iempintro
    iexists _; iexact H
  hexit c := by
    unfold post
    rw [arrays_eq3, arrAt_2, Dat.arrAt_in _ 0 rfl, Dat.arrAt_in _ 1 rfl, A_0, A_1]
    iintro ⟨⟨Ha0, Ha1, Hv0⟩, HO, -, -⟩
    imodintro
    isplitl [HO]; · iapply (owesAt_elim m fv c _); iexact HO
    isplitl [Ha0]; · iexact Ha0
    isplitl [Ha1]; · iexact Ha1
    iexact Hv0

end Cert.KernelIdeal.Region

end
-- ==== Proof.RegionStep.lean ====
/-
  The squared-difference sum as one step of the program's main thread: from the two input arrays at their launch
  contents and the result array at anything, the TensorCore's call of the kernel runs to the inputs unchanged and the
  result at the sum of the sixteen blocks' accumulator, the TensorCore owing the launch throughout what it owed on
  entry.

  The kernel region is proved under the program's own body table; the call in the main thread is the same call seen
  through the table extended with the SparseCore dispatch labels, and whatever follows it is bound after it.
-/
import proofs.«205080_g78649441125020_cont_9to1_m_374_30_alg».proof.Proof.Setup
import proofs.«205080_g78649441125020_cont_9to1_m_374_30_alg».proof.Proof.RegionSeg
import proofs.«205080_g78649441125020_cont_9to1_m_374_30_alg».proof.Proof.Gen.KernelIdeal.Skeleton

noncomputable section

namespace Cert.KernelIdeal
namespace Region

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

/-- The region's entry state from what the main thread holds. -/
theorem pre_intro [∀ e, Nonempty (Elt F e)] (m : (ℓ : Loc nD τ sig) → Buf (Elt F) ℓ) (fv : (c : Dev nD) → Buf (Elt F) (v0Loc c))
    (d : Dev nD) (W : Waits sig (HIx 1)) (hW : (K (F := F)).WBelow (SparseCore.T d) W 0) :
    iprop(owes (SparseCore.T d) ((K (F := F)).Otc d 0) W
        ∗ (a0Loc d ↦{fullShare} m (a0Loc d)) ∗ (a1Loc d ↦{fullShare} m (a1Loc d)) ∗ (v0Loc d ↦{fullShare} fv d))
      ⊢ (pre m fv d : sProp 𝕄) := by
  unfold pre
  iintro ⟨HO, Ha0, Ha1, Hv0⟩
  isplitl [HO]
  · iexists W; isplitr; · ipureintro; exact hW
    iexact HO
  isplitl [Ha0]; · iexact Ha0
  isplitl [Ha1]; · iexact Ha1
  iexact Hv0

theorem mse_region [∀ e, Nonempty (Elt F e)] (m : (ℓ : Loc nD τ sig) → Buf (Elt F) ℓ) (d : Dev nD)
    (W : Waits sig (HIx 1)) (hW : (K (F := F)).WBelow (T d) W 0)
    {α : Type} (k : PUnit → Prog (TpuEff nD τ sig (Elt F) (SparseCore.Sig (ΛP (F := F)) 1) .tc) α) (Φ : α → sProp 𝕄) :
    iprop(levAts (K (F := F)).L (K (F := F)).lev ∗ boundary (T d)
        ∗ Pipeline.cellsGhost (Pipeline.pin (pcfgs (F := F)) aAdm) EP 0 d ∗ Pipeline.toksInit (Pipeline.pin (pcfgs (F := F)) aAdm) EP 0 d
        ∗ owes (T d) ((K (F := F)).Otc d 0) W
        ∗ (a0Loc d ↦{fullShare} m (a0Loc d)) ∗ (a1Loc d ↦{fullShare} m (a1Loc d)) ∗ (∃ f, v0Loc d ↦{fullShare} f)
        ∗ (iprop(boundary (T d) ∗ (∃ W', ⌜(K (F := F)).WBelow (T d) W' 0⌝ ∗ owes (T d) ((K (F := F)).Otc d 0) W')
              ∗ (a0Loc d ↦{fullShare} m (a0Loc d)) ∗ (a1Loc d ↦{fullShare} m (a1Loc d)) ∗ (v0Loc d ↦{fullShare} X0 m d))
            -∗ wp frame (wpE ((K (F := F)).defs (D (F := F))) 𝒱 (T d) none) Set.univ (k ⟨⟩) Φ))
      ⊢ wp frame (wpE ((K (F := F)).defs (D (F := F))) 𝒱 (T d) none) Set.univ
          (.op (.customCall (SparseCore.inner (Pipeline.entry 0)) ()) k) Φ := by
  have hprog : (Prog.op (TpuEff.customCall (SparseCore.inner (Pipeline.entry 0)) ()) k
        : Prog (TpuEff nD τ sig (Elt F) (SparseCore.Sig (ΛP (F := F)) 1) .tc) α)
      = ((SparseCore.liftProg (Prog.op (TpuEff.customCall (Pipeline.entry 0) ()) fun x => Prog.ret x)
          : Prog (TpuEff nD τ sig (Elt F) (SparseCore.Sig (ΛP (F := F)) 1) .tc) PUnit) >>= k) := rfl
  rw [hprog, wp_bind]
  iintro ⟨Hlev, Hb, Hcg, Htk, HO, Ha0, Ha1, ⟨%f, Hv0⟩, Hk⟩
  -- the result array's entry contents, on every device
  obtain ⟨fv, rfl⟩ : ∃ fv : (c : Dev nD) → Buf (Elt F) (v0Loc c), fv d = f :=
    ⟨Function.update (β := fun c => Buf (Elt F) (v0Loc c)) (fun c => m (v0Loc c)) d f,
      Function.update_self (β := fun c => Buf (Elt F) (v0Loc c)) d f (fun c => m (v0Loc c))⟩
  iapply (wp_wand_r frame _ Set.univ (Q := fun _ => iprop(boundary (SparseCore.T d) ∗ post m d)))
  isplitl [Hlev Hb Hcg Htk HO Ha0 Ha1 Hv0]
  · iapply ((Setup.K (F := F)).wp_liftProg (D (F := F)) 𝒱 (SparseCore.T d) Set.univ none _ _)
    have hR := Pipeline.RegionSeg.wp (pcfgs (F := F)) aAdm (pdats m fv) none cellOf_inj EP defs₀ 𝒱₀ _ _ (region m fv) d none
      (fun u hu => absurd hu (Option.not_mem_none u)) (fun x => Prog.ret x) (fun _ => iprop(boundary (SparseCore.T d) ∗ post m d))
    rw [show (region m fv).pre d = pre m fv d from rfl, show (region m fv).post d = post m d from rfl] at hR
    iapply hR
    isplitr
    · iintro H; iapply (le_wp_ret _ _); iexact H
    isplitl [Hb]; · iexact Hb
    isplitl [HO Ha0 Ha1 Hv0]
    · iapply (pre_intro m fv d W hW)
      isplitl [HO]; · iexact HO
      isplitl [Ha0]; · iexact Ha0
      isplitl [Ha1]; · iexact Ha1
      iexact Hv0
    isplitl [Hlev]; · iexact Hlev
    isplitl [Hcg]; · iexact Hcg
    iexact Htk
  · iintro %v ⟨Hb, Hp⟩
    cases v
    iapply Hk
    isplitl [Hb]; · iexact Hb
    unfold post
    iexact Hp

end Region
end Cert.KernelIdeal

end
-- ==== Proof.TileRows.lean ====
/-
  One vector subcore's three rows, as its kernel addresses them.

  Subcore `L 1` of core `L 0` works on row `2 (L 1) + (L 0)` when that is below 16. The kernel reaches the row of
  each of the three arrays by slicing the array at a rectangle one row high whose offsets it computes, and dropping
  the unit axis. Here: that rectangle is the row's part of the array, so the elements the sliced row addresses are
  the row's, and a points-to over the sliced row's own elements is one over the row; and the subcore's scratch
  buffers and the semaphores of its three copies taken out of what the subcore owns.
-/
import proofs.«205080_g78649441125020_cont_9to1_m_374_30_alg».proof.Proof.Setup
import proofs.«205080_g78649441125020_cont_9to1_m_374_30_alg».proof.Proof.Gen.KernelIdeal.Skeleton

noncomputable section

namespace Cert.KernelIdeal.Tile

open Cert.KernelIdeal Cert.KernelIdeal.Gen Cert.KernelIdeal.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-! ## The subcore and its row -/

abbrev cV (L : grid1.Coords) : Fin τ.nSC := (L 0).castLE hcore1
abbrev jV (L : grid1.Coords) : Fin τ.nSub := (L 1).castLE hsub1
/-- The row subcore `L 1` of core `L 0` works on. -/
abbrev wid (L : grid1.Coords) : ℕ := 2 * (L 1).val + (L 0).val

/-- The kernel's test, as arithmetic on the coordinates. -/
theorem cond_iff : ∀ L : grid1.Coords, k1_cond1 L = 1#1 ↔ 2 * (L 1).val + (L 0).val < 16 := by decide +kernel

/-! ## The arrays, the scratch buffers, and the row of each array as the kernel slices it -/

abbrev lgV : Memref sig .scVector .hbm S16x16000 .f32 := Memref.whole main_v4_scv
abbrev tgV : Memref sig .scVector .hbm S16x16 .i32 := Memref.whole main_v6_scv
abbrev mgV : Memref sig .scVector .hbm S16x16 .f32 := Memref.whole main_v7_scv
abbrev sLg : Memref sig .scVector .vmem S16000 .f32 := Memref.whole cc1_scratch0
abbrev sTg : Memref sig .scVector .vmem S16 .i32 := Memref.whole cc1_scratch1
abbrev sMg : Memref sig .scVector .vmem S16 .f32 := Memref.whole cc1_scratch2

abbrev rectA (L : grid1.Coords) (h : k1_cond1 L = 1#1) : Rect S16x16000 :=
  Rect.unit (s := S16x16000) (k1_off1 L) S1x16000.size (k1_off1_inb L h)
abbrev rectB (L : grid1.Coords) (h : k1_cond1 L = 1#1) : Rect S16x16 :=
  Rect.unit (s := S16x16) (k1_off2 L) S1x16.size (k1_off2_inb L h)
abbrev lgRowM (L : grid1.Coords) (h : k1_cond1 L = 1#1) : Memref sig .scVector .hbm S16000 .f32 :=
  ((lgV : Memref sig .scVector .hbm S16x16000 .f32).slice (rectA L h) (fun _ => rfl)).squeeze S16000 squeezes_S1x16000_S16000
abbrev tgRowM (L : grid1.Coords) (h : k1_cond1 L = 1#1) : Memref sig .scVector .hbm S16 .i32 :=
  ((tgV : Memref sig .scVector .hbm S16x16 .i32).slice (rectB L h) (fun _ => rfl)).squeeze S16 squeezes_S1x16_S16
abbrev mgRowM (L : grid1.Coords) (h : k1_cond1 L = 1#1) : Memref sig .scVector .hbm S16 .f32 :=
  ((mgV : Memref sig .scVector .hbm S16x16 .f32).slice (rectB L h) (fun _ => rfl)).squeeze S16 squeezes_S1x16_S16

/-- The rectangle the kernel slices the logits at is row `wid L`'s part. -/
theorem rectA_eq (L : grid1.Coords) (h : k1_cond1 L = 1#1) (hw : wid L < 16) : rectA L h = rowA ⟨wid L, hw⟩ := by
  unfold rectA rowA Rect.part Rect.block
  congr 1 <;> funext a
  · rw [k1_off1_eq]
    match a with
    | 0 => simp [Shape.partIx, Shape.partSize]
    | 1 => simp [Shape.partIx, Shape.partSize]
  · match a with
    | 0 => simp [Shape.partSize]
    | 1 => simp [Shape.partSize]
/-- The rectangle the kernel slices the target words and the margins at is row `wid L`'s part. -/
theorem rectB_eq (L : grid1.Coords) (h : k1_cond1 L = 1#1) (hw : wid L < 16) : rectB L h = rowB ⟨wid L, hw⟩ := by
  unfold rectB rowB Rect.part Rect.block
  congr 1 <;> funext a
  · rw [k1_off2_eq]
    match a with
    | 0 => simp [Shape.partIx, Shape.partSize]
    | 1 => simp [Shape.partIx, Shape.partSize]
  · match a with
    | 0 => simp [Shape.partSize]
    | 1 => simp [Shape.partSize]

theorem set_lgRowM (L : grid1.Coords) (h : k1_cond1 L = 1#1) (hw : wid L < 16) : (lgRowM L h).view.set = rowSetA ⟨wid L, hw⟩ := by
  show (((lgV : Memref sig .scVector .hbm S16x16000 .f32).view.slice (rectA L h)).reshape S16000 squeezes_S1x16000_S16000.numel_eq).set
    = ((Memref.whole main_v4_scv : Memref sig .scVector .hbm S16x16000 .f32).view.slice (rowA ⟨wid L, hw⟩)).set
  rw [View.set_reshape]
  exact rectA_eq L h hw ▸ rfl
theorem set_tgRowM (L : grid1.Coords) (h : k1_cond1 L = 1#1) (hw : wid L < 16) : (tgRowM L h).view.set = rowSetB ⟨wid L, hw⟩ := by
  show (((tgV : Memref sig .scVector .hbm S16x16 .i32).view.slice (rectB L h)).reshape S16 squeezes_S1x16_S16.numel_eq).set
    = ((Memref.whole main_v7_scv : Memref sig .scVector .hbm S16x16 .f32).view.slice (rowB ⟨wid L, hw⟩)).set
  rw [View.set_reshape]
  exact rectB_eq L h hw ▸ rfl
theorem set_mgRowM (L : grid1.Coords) (h : k1_cond1 L = 1#1) (hw : wid L < 16) : (mgRowM L h).view.set = rowSetB ⟨wid L, hw⟩ := by
  show (((mgV : Memref sig .scVector .hbm S16x16 .f32).view.slice (rectB L h)).reshape S16 squeezes_S1x16_S16.numel_eq).set
    = ((Memref.whole main_v7_scv : Memref sig .scVector .hbm S16x16 .f32).view.slice (rowB ⟨wid L, hw⟩)).set
  rw [View.set_reshape]
  exact rectB_eq L h hw ▸ rfl

/-! ## Points-to over a sliced row and over the row -/

section Pts
variable (d : Dev nD) (L : grid1.Coords) (h : k1_cond1 L = 1#1) (hw : wid L < 16)

theorem pts_lgRowM (q : PosShare TreeShare) (f : Buf (Elt F) (v4Loc d)) :
    ((lgRowM L h).view.loc (V d (cV L) (jV L)) ↦[(lgRowM L h).view.set]{q} f : sProp 𝕄) = v4Loc d ↦[rowSetA ⟨wid L, hw⟩]{q} f := by
  rw [set_lgRowM L h hw]
theorem pts_tgRowM (q : PosShare TreeShare) (f : Buf (Elt F) (v6Loc d)) :
    ((tgRowM L h).view.loc (V d (cV L) (jV L)) ↦[(tgRowM L h).view.set]{q} f : sProp 𝕄) = v6Loc d ↦[rowSetB ⟨wid L, hw⟩]{q} f := by
  rw [set_tgRowM L h hw]
theorem pts_mgRowM (q : PosShare TreeShare) (f : Buf (Elt F) (v7Loc d)) :
    ((mgRowM L h).view.loc (V d (cV L) (jV L)) ↦[(mgRowM L h).view.set]{q} f : sProp 𝕄) = v7Loc d ↦[rowSetB ⟨wid L, hw⟩]{q} f := by
  rw [set_mgRowM L h hw]

theorem pts_sLg (f : Buf (Elt F) ((V d (cV L) (jV L)).loc cc1_scratch0)) :
    ((sLg : Memref sig .scVector .vmem S16000 .f32).view.loc (V d (cV L) (jV L)) ↦{fullShare} f : sProp 𝕄) = (V d (cV L) (jV L)).loc cc1_scratch0 ↦{fullShare} f := rfl
theorem pts_sTg (f : Buf (Elt F) ((V d (cV L) (jV L)).loc cc1_scratch1)) :
    ((sTg : Memref sig .scVector .vmem S16 .i32).view.loc (V d (cV L) (jV L)) ↦{fullShare} f : sProp 𝕄) = (V d (cV L) (jV L)).loc cc1_scratch1 ↦{fullShare} f := rfl
theorem pts_sMg (f : Buf (Elt F) ((V d (cV L) (jV L)).loc cc1_scratch2)) :
    ((sMg : Memref sig .scVector .vmem S16 .f32).view.loc (V d (cV L) (jV L)) ↦{fullShare} f : sProp 𝕄) = (V d (cV L) (jV L)).loc cc1_scratch2 ↦{fullShare} f := rfl

end Pts

/-! ## The subcore's own semaphores and buffers: the three copies' counters and the three scratch buffers, and the rest -/

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)

theorem ownSems0_V (d : Dev nD) (c : Fin τ.nSC) (i : Fin τ.nSub) :
    (ownSems0 (V d c i) : sProp 𝕄)
      = iprop(semVal (cell0 d c i) 0 ∗ semVal (cell1 d c i) 0 ∗ semVal (cell2 d c i) 0
          ∗ bigSep ((((ownCells (V d c i)).erase (cell0 d c i)).erase (cell1 d c i)).erase (cell2 d c i)) fun g => semVal g 0) := by
  unfold SparseCore.Cfg.ownSems0
  rw [SparseCore.bigSep_erase' ((mem_ownCells (g := cell0 d c i)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d c i)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d c i)).mpr ⟨rfl, by show (SemLoc.dma cc1_scoped2.sem : SemLoc sig).isScoped .scVector = true; decide⟩⟩⟩)]

theorem ownBufs_V (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector c i) (b := (Proc.scVector c i).devRef cc1_scratch2) rfl⟩⟩)]

end Cert.KernelIdeal.Tile

end
-- ==== Proof.TileValue.lean ====
/-
  The values one subcore's task moves, as the pure terms of the arrays.

  Row `g` of the class-major logits, read through the row the kernel slices (one row high at offsets `(g, 0)`, the
  unit axis dropped), is `lgRow`: the sliced row's index `j` sits at `(g, j)`. The same for the target words. A
  load of sixteen lanes at offset `16 k` of a row is the row's `chunk k` (`16 k + j < 16000`, so the remainder in
  `chunk` is the identity); a load of sixteen lanes at offset 0 of a sixteen-lane buffer is the buffer. One more class
  of the walk is one step of `loopAt`. And the margins array at an index of row `g` is `marginRow` of that row's two
  inputs at the index's lane.
-/
import proofs.«205080_g78649441125020_cont_9to1_m_374_30_alg».proof.Proof.TileRows

noncomputable section

namespace Cert.KernelIdeal.Tile

open Cert.KernelIdeal Cert.KernelIdeal.Gen Cert.KernelIdeal.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

/-! ## A sliced row's placement -/

theorem emb_lgRowM (L : grid1.Coords) (h : k1_cond1 L = 1#1) (j : S16000.Idx) :
    (lgRowM L h).view.emb j = (rectA L h).emb (Fin.cons ⟨0, Nat.one_pos⟩ j) := by
  show (rectA L h).emb (Shape.reshapeEquiv _ j) = _
  rw [Shape.reshapeEquiv_cons_one (n := 1) (d := ![16000])]
theorem emb_tgRowM (L : grid1.Coords) (h : k1_cond1 L = 1#1) (j : S16.Idx) :
    (tgRowM L h).view.emb j = (rectB L h).emb (Fin.cons ⟨0, Nat.one_pos⟩ j) := by
  show (rectB L h).emb (Shape.reshapeEquiv _ j) = _
  rw [Shape.reshapeEquiv_cons_one (n := 1) (d := ![16])]
theorem emb_mgRowM (L : grid1.Coords) (h : k1_cond1 L = 1#1) (j : S16.Idx) :
    (mgRowM L h).view.emb j = (rectB L h).emb (Fin.cons ⟨0, Nat.one_pos⟩ j) := by
  show (rectB L h).emb (Shape.reshapeEquiv _ j) = _
  rw [Shape.reshapeEquiv_cons_one (n := 1) (d := ![16])]

/-- Index `j` of the sliced row of the logits is `(wid L, j)`. -/
theorem embA_eq (L : grid1.Coords) (h : k1_cond1 L = 1#1) (hw : wid L < 16) (j : S16000.Idx) :
    (rectA L h).emb (Fin.cons ⟨0, Nat.one_pos⟩ j)
      = (fun a => match a with | ⟨0, _⟩ => ⟨wid L % 16, Nat.mod_lt _ (by decide)⟩ | ⟨1, _⟩ => j 0 : S16x16000.Idx) := by
  funext a; apply Fin.ext
  rw [Rect.emb_apply]
  show k1_off1 L a + 1 * _ = _
  rw [k1_off1_eq]
  match a with
  | ⟨0, _⟩ => show wid L + 1 * 0 = wid L % 16; rw [Nat.mod_eq_of_lt hw]; omega
  | ⟨1, _⟩ => show 0 + 1 * (j 0).val = (j 0).val; omega
/-- Index `j` of the sliced row of a [16, 16] array is `(wid L, j)`. -/
theorem embB_eq (L : grid1.Coords) (h : k1_cond1 L = 1#1) (hw : wid L < 16) (j : S16.Idx) :
    (rectB L h).emb (Fin.cons ⟨0, Nat.one_pos⟩ j)
      = (fun a => match a with | ⟨0, _⟩ => ⟨wid L % 16, Nat.mod_lt _ (by decide)⟩ | ⟨1, _⟩ => j 0 : S16x16.Idx) := by
  funext a; apply Fin.ext
  rw [Rect.emb_apply]
  show k1_off2 L a + 1 * _ = _
  rw [k1_off2_eq]
  match a with
  | ⟨0, _⟩ => show wid L + 1 * 0 = wid L % 16; rw [Nat.mod_eq_of_lt hw]; omega
  | ⟨1, _⟩ => show 0 + 1 * (j 0).val = (j 0).val; omega

/-! ## What the two fetches read -/

theorem read_lgRowM (L : grid1.Coords) (h : k1_cond1 L = 1#1) (hw : wid L < 16) (x : Vec F S16x16000 .f32) :
    (lgRowM L h).view.read (Elt F) x = KVal.lgRow x (wid L) := by
  funext j
  rw [View.read_apply, emb_lgRowM, embA_eq L h hw]
  exact cast_eq _ _
theorem read_tgRowM (L : grid1.Coords) (h : k1_cond1 L = 1#1) (hw : wid L < 16) (x : Vec F S16x16 .i32) :
    (tgRowM L h).view.read (Elt F) x = KVal.tgRow x (wid L) := by
  funext j
  rw [View.read_apply, emb_tgRowM, embB_eq L h hw]
  exact cast_eq _ _

/-! ## Loads of sixteen lanes -/

/-- Sixteen lanes at offset 0 of a sixteen-lane buffer are the buffer. -/
theorem load16_idx (j : S16.Idx) : (Rect.unit (s := S16) ![0] S16.size inb_S16_S16_0).toLoadRect.idx j = j := by
  funext a; apply Fin.ext
  rw [LoadRect.idx_apply, Subsingleton.elim a 0]
  show 0 + 1 * (j 0).val = (j 0).val
  omega
theorem load16_tg (w : Vec F S16 .i32) :
    (sTg : Memref sig .scVector .vmem S16 .i32).view.readAt (Elt F) (Rect.unit (s := S16) ![0] S16.size inb_S16_S16_0).toLoadRect w = w := by
  funext j
  rw [View.readAt_apply, load16_idx]
  rfl

/-- Sixteen lanes at offset `16 k` of a class-major row are class `k`'s. -/
theorem load_chunk (L : grid1.Coords) (h : k1_cond1 L = 1#1) (k : Fin k1_t1_loop.trips) (row : Vec F S16000 .f32) :
    (sLg : Memref sig .scVector .vmem S16000 .f32).view.readAt (Elt F)
        (Rect.unit (s := S16000) (k1_off3 k) S16.size (k1_off3_inb L k h)).toLoadRect row = KVal.chunk row k.val := by
  funext j
  rw [View.readAt_apply]
  show row ((Rect.unit (s := S16000) (k1_off3 k) S16.size (k1_off3_inb L k h)).toLoadRect.idx j) = row _
  refine congrArg row (funext fun a => ?_)
  have hk : k.val < 1000 := Nat.lt_of_lt_of_le k.isLt k1_t1_abs.2.1
  have hj : (j 0).val < 16 := (j 0).isLt
  match a with
  | ⟨0, _⟩ =>
    apply Fin.ext
    show k1_off3 k 0 + 1 * (j 0).val = (16 * k.val + (j 0).val) % 16000
    have e : k1_off3 k 0 = 16 * k.val := congrFun (k1_off3_eq k) 0
    rw [Nat.mod_eq_of_lt (by omega)]
    omega

/-- A sixteen-lane buffer stored whole at offset 0 reads back the stored vector. -/
theorem store16_emb (x : S16.Idx) : (Rect.unit (s := S16) ![0] S16.size inb_S16_S16_0).emb x = x := load16_idx x
theorem read_store16 (f2 : Vec F S16 .f32) (w : FVec F S16 .f32) (x : S16.Idx) :
    (sMg : Memref sig .scVector .vmem S16 .f32).view.read (Elt F)
      ((sMg : Memref sig .scVector .vmem S16 .f32).view.writes (Elt F) f2 [⟨Rect.unit (s := S16) ![0] S16.size inb_S16_S16_0, w⟩]) x = w x := by
  have h := View.read_writes_cons_emb (sMg : Memref sig .scVector .vmem S16 .f32).view f2 (Rect.unit (s := S16) ![0] S16.size inb_S16_S16_0) w [] x
  rwa [store16_emb] at h

/-! ## The walk over the classes -/

theorem loopAt_succ (v5 : Vec F S16 .i32) (row : Vec F S16000 .f32) (k : Fin k1_t1_loop.trips) :
    KVal.loopAt v5 row (k.val + 1)
      = (k1_pay5 v5 k (KVal.loopAt v5 row k.val).1 (KVal.chunk row k.val), k1_pay6 v5 k (KVal.loopAt v5 row k.val).2 (KVal.chunk row k.val)) := by
  rw [KVal.loopAt, dif_pos k.isLt]

/-! ## The margins' row -/

/-- The margins array at an index whose row is `g` and whose lane is `j`'s. -/
theorem marginOut_at (lg : Vec F S16x16000 .f32) (tg : Vec F S16x16 .i32) (i : S16x16.Idx) (g : ℕ) (j : S16.Idx)
    (h0 : (i 0).val = g) (h1 : i 1 = j 0) :
    KVal.marginOut lg tg i = KVal.marginRow (KVal.tgRow tg g) (KVal.lgRow lg g) j := by
  subst h0
  unfold KVal.marginOut
  congr 1
  funext a
  match a with
  | ⟨0, _⟩ => exact h1

/-- The margins array at index `j` of row `wid L`, as the sliced row places it. -/
theorem marginOut_row (L : grid1.Coords) (h : k1_cond1 L = 1#1) (hw : wid L < 16) (lg : Vec F S16x16000 .f32) (tg : Vec F S16x16 .i32) (j : S16.Idx) :
    KVal.marginOut lg tg ((mgRowM L h).view.emb j) = KVal.marginRow (KVal.tgRow tg (wid L)) (KVal.lgRow lg (wid L)) j := by
  rw [emb_mgRowM, embB_eq L h hw]
  exact marginOut_at lg tg _ (wid L) j (Nat.mod_eq_of_lt hw) rfl

/-- The margins of a row from the walk's last pair. -/
theorem marginRow_of_loop (v5 : Vec F S16 .i32) (row : Vec F S16000 .f32) (mx ts : FVec F S16 .f32)
    (h : KVal.loopAt v5 row k1_t1_loop.trips = (mx, ts)) : KVal.marginRow v5 row = k1_pay7 mx ts := by
  unfold KVal.marginRow
  rw [h]

end Cert.KernelIdeal.Tile

end
-- ==== Proof.TileBody.lean ====
/-
  One vector subcore's task.

  A working subcore (row `g = 2 (L 1) + (L 0)` below 16) fetches row `g` of the class-major logits into its first
  scratch and row `g` of the target words into its second, each copy started and waited for alone on a semaphore of
  its own; loads the sixteen target words; walks the thousand classes, class `k`'s sixteen lanes loaded from offset
  `16 k` of the first scratch and folded into the carried pair; stores the sixteen margins into its third scratch and
  copies that out to row `g` of the margins, waiting for the copy. The subcore signals no other: every wait is on a
  semaphore of its own, which it holds at zero between copies. The values ride along: after the fetches the scratches
  hold `lgRow` and `tgRow` of the two inputs, before class `k` the carried pair is `loopAt … k`, and what lands in
  the margins' row is `marginOut` there. A subcore whose row would be past the last returns at once.
-/
import proofs.«205080_g78649441125020_cont_9to1_m_374_30_alg».proof.Proof.TileValue
import Idealize.ShloMosaic.Lib.Tactic

noncomputable section

namespace Cert.KernelIdeal.Tile

open Cert.KernelIdeal Cert.KernelIdeal.Gen Cert.KernelIdeal.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

open Idealize.ShloMosaic.Tactic

variable (m : (ℓ : Loc nD τ sig) → Buf (Elt F) ℓ) [FloatOps F]

section Body
variable (d : Dev nD) (L : grid1.Coords)

/-- Before class `k` of the walk: the carried pair is the walk's after `k` classes, and the row's scratch is held. -/
def inv (v5 : Vec F S16 .i32) (row : Vec F S16000 .f32) (k : Nat) (acc : FVec F S16 .f32 × FVec F S16 .f32) : sProp 𝕄 :=
  iprop(⌜acc = KVal.loopAt v5 row k⌝ ∗ ((sLg : Memref sig .scVector .vmem S16000 .f32).view.loc (V d (cV L) (jV L)) ↦{fullShare} row))

/-- One class of the walk. -/
theorem trip (h1 : k1_cond1 L = 1#1) (v5 : Vec F S16 .i32) (row : Vec F S16000 .f32) (k : Fin k1_t1_loop.trips) (acc : FVec F S16 .f32 × FVec F S16 .f32) :
    inv d L v5 row k.val acc ⊢ wp frame (wpE (defs₀ (F := F)) 𝒱₀ (V d (cV L) (jV L)) none) Set.univ
      (k1_t1_body L lgV (Memref.isWhole_whole _) tgV (Memref.isWhole_whole _) mgV (Memref.isWhole_whole _)
        sLg (Memref.isWhole_whole _) sTg (Memref.isWhole_whole _) sMg (Memref.isWhole_whole _) cc1_scratch3 cc1_scoped0 cc1_scoped1 cc1_scoped2 h1 v5 k acc)
      (inv d L v5 row (k.val + 1)) := by
  obtain ⟨mx, ts⟩ := acc
  unfold inv k1_t1_body
  iintro ⟨%hacc, Hs⟩
  sl_exec
  sl_step
  isplitr
  · ipureintro
    rw [loopAt_succ, load_chunk L h1 k row, ← hacc]
  · iexact Hs

theorem tile_work (h1 : k1_cond1 L = 1#1) (O : CellTallies nD τ sig (HIx 1)) (W : Waits sig (HIx 1)) (hO : ∀ g, O g none = 0) :
    iprop(levAts (K (F := F)).L (K (F := F)).lev ∗ emp ∗ tileRes m d (L 0).val (L 1).val (m (v7Loc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__margin_kernel L lgV (Memref.isWhole_whole _) tgV (Memref.isWhole_whole _) mgV (Memref.isWhole_whole _)
            sLg (Memref.isWhole_whole _) sTg (Memref.isWhole_whole _) sMg (Memref.isWhole_whole _) cc1_scratch3 cc1_scoped0 cc1_scoped1 cc1_scoped2)
          fun _ => iprop(tileRes m d (L 0).val (L 1).val (X7 m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hw : wid L < 16 := (cond_iff L).mp h1
  simp only [cc1__margin_kernel_eq_skeleton]; unfold cc1__margin_kernel_skel
  rw [tileRes_pos m d hw, tileRes_pos m d hw, (K (F := F)).scopedBufs_V facts d (cV L) (jV L), SparseCore.Cfg.scopedSems0_V (Val := Elt F) d (cV L) (jV L), ownSems0_V, ownBufs_V]
  iintro ⟨#Hlv, -, ⟨Hlg, Htg, Hmg⟩, ⟨⟨%f0, Hs0⟩, ⟨%f1, Hs1⟩, ⟨%f2, Hs2⟩, Hbufs⟩, ⟨Hc0, Hc1, Hc2, Hsems⟩, HO⟩
  ihave Hmw := ((K (F := F)).mayWaits_none (thr := V d (cV L) (jV L)) hO) $$ Hlv
  ihave Hlg' := (Entails.of_eq (pts_lgRowM (F := F) d L h1 hw _ _).symm) $$ Hlg
  ihave Htg' := (Entails.of_eq (pts_tgRowM (F := F) d L h1 hw _ _).symm) $$ Htg
  ihave Hmg' := (Entails.of_eq (pts_mgRowM (F := F) d L h1 hw _ _).symm) $$ Hmg
  ihave Hs0' := (Entails.of_eq (pts_sLg (F := F) d L _).symm) $$ Hs0
  ihave Hs1' := (Entails.of_eq (pts_sTg (F := F) d L _).symm) $$ Hs1
  ihave Hs2' := (Entails.of_eq (pts_sMg (F := F) d L _).symm) $$ Hs2
  -- the two fetches and their waits, the load of the target words
  sl_exec
  -- what the fetches left: the logits' row in its scratch, the target words' row loaded
  have hrow : View.write (Elt F) (sLg : Memref sig .scVector .vmem S16000 .f32).view f0 (tile_work.sl.dma0 m d L h1) Finset.univ
      = KVal.lgRow (X4 m d) (wid L) := by
    unfold tile_work.sl.dma0
    exact (View.write_whole_univ cc1_scratch0 f0 _).trans (read_lgRowM L h1 hw _)
  have hv5 : View.readAt (Elt F) (sTg : Memref sig .scVector .vmem S16 .i32).view (Rect.unit (s := S16) ![0] S16.size inb_S16_S16_0).toLoadRect
        (View.write (Elt F) (sTg : Memref sig .scVector .vmem S16 .i32).view f1 (tile_work.sl.dma0_1 m d L h1) Finset.univ)
      = KVal.tgRow (X6 m d) (wid L) := by
    unfold tile_work.sl.dma0_1
    exact (load16_tg _).trans ((View.write_whole_univ cc1_scratch1 f1 _).trans (read_tgRowM L h1 hw _))
  ihave Hs0 := (Entails.of_eq (congrArg (fun f => ((sLg : Memref sig .scVector .vmem S16000 .f32).view.loc (V d (cV L) (jV L)) ↦{fullShare} f : sProp 𝕄)) hrow)) $$ Hs0'
  -- the walk over the classes
  sl_for (inv d L (View.readAt (Elt F) (sTg : Memref sig .scVector .vmem S16 .i32).view (Rect.unit (s := S16) ![0] S16.size inb_S16_S16_0).toLoadRect
        (View.write (Elt F) (sTg : Memref sig .scVector .vmem S16 .i32).view f1 (tile_work.sl.dma0_1 m d L h1) Finset.univ))
      (KVal.lgRow (X4 m d) (wid L))) $$ [Hs0]
  case region => intro k acc; exact trip d L h1 _ _ k acc
  · unfold inv
    isplitr
    · ipureintro; rfl
    · iexact Hs0
  iintro %acc HI
  obtain ⟨mx, ts⟩ := acc
  unfold inv
  icases HI with ⟨%hacc, Hs0⟩
  -- the margins stored, written out to their row, the write-out waited for
  sl_exec
  sl_step
  -- what landed in the margins' row is the margins array there
  have hmg : ∀ x : S16.Idx,
      (mgRowM L h1).view.writes (Elt F) (m (v7Loc d)) [⟨Rect.whole S16, tile_work.sl.dma2 d L f2 mx ts⟩] ((mgRowM L h1).view.emb x)
        = X7 m d ((mgRowM L h1).view.emb x) := by
    intro x
    have hl := View.read_writes_cons_emb (mgRowM L h1).view (m (v7Loc d)) (Rect.whole S16) (tile_work.sl.dma2 d L f2 mx ts) [] x
    rw [Rect.emb_whole_apply, View.read_apply] at hl
    refine ((cast_eq _ _).symm.trans hl).trans ?_
    unfold tile_work.sl.dma2 tile_work.sl.Hs2'_1
    refine (read_store16 f2 (k1_pay7 mx ts) x).trans ?_
    refine Eq.trans ?_ (marginOut_row L h1 hw (X4 m d) (X6 m d) x).symm
    rw [marginRow_of_loop _ _ mx ts (by rw [← hv5]; exact hacc.symm)]
  have hE : ((mgRowM L h1).view.loc (V d (cV L) (jV L)) ↦[(mgRowM L h1).view.set]{fullShare}
        (mgRowM L h1).view.writes (Elt F) (m (v7Loc d)) [⟨Rect.whole S16, tile_work.sl.dma2 d L f2 mx ts⟩] : sProp 𝕄)
      = v7Loc d ↦[rowSetB ⟨wid L, hw⟩]{fullShare} X7 m d :=
    (pointsTo_congr fun i hi => by obtain ⟨x, -, rfl⟩ := Finset.mem_map.mp hi; exact hmg x).trans (pts_mgRowM (F := F) d L h1 hw _ _)
  -- the three rows back
  isplitl [Hlg' Htg' Hmg']
  · isplitl [Hlg']; · iapply (Entails.of_eq (pts_lgRowM (F := F) d L h1 hw _ _)); iexact Hlg'
    isplitl [Htg']; · iapply (Entails.of_eq (pts_tgRowM (F := F) d L h1 hw _ _)); iexact Htg'
    iapply (Entails.of_eq hE); iexact Hmg'
  -- the scratch buffers and the counters back
  isplitl [Hs0 Hs1' Hs2' Hbufs]
  · isplitl [Hs0]; · iexists _; iapply (Entails.of_eq (pts_sLg (F := F) d L _)); iexact Hs0
    isplitl [Hs1']; · iexists _; iapply (Entails.of_eq (pts_sTg (F := F) d L _)); iexact Hs1'
    isplitl [Hs2']; · iexists _; iapply (Entails.of_eq (pts_sMg (F := F) d L _)); iexact Hs2'
    iexact Hbufs
  isplitl [Hc0 Hc1 Hc2 Hsems]
  · isplitl [Hc0]; · iexact Hc0
    isplitl [Hc1]; · iexact Hc1
    isplitl [Hc2]; · iexact Hc2
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

/-- A subcore whose row would be past the last: the kernel's test fails, the task is two returns. -/
theorem tile_idle (h1 : ¬ k1_cond1 L = 1#1) (O : CellTallies nD τ sig (HIx 1)) (W : Waits sig (HIx 1)) :
    iprop(levAts (K (F := F)).L (K (F := F)).lev ∗ emp ∗ tileRes m d (L 0).val (L 1).val (m (v7Loc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__margin_kernel L lgV (Memref.isWhole_whole _) tgV (Memref.isWhole_whole _) mgV (Memref.isWhole_whole _)
            sLg (Memref.isWhole_whole _) sTg (Memref.isWhole_whole _) sMg (Memref.isWhole_whole _) cc1_scratch3 cc1_scoped0 cc1_scoped1 cc1_scoped2)
          fun _ => iprop(tileRes m d (L 0).val (L 1).val (X7 m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hw : ¬ wid L < 16 := fun h => h1 ((cond_iff L).mpr h)
  simp only [cc1__margin_kernel_eq_skeleton]; unfold cc1__margin_kernel_skel
  rw [tileRes_neg m d hw, tileRes_neg m d hw]
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

end Body

end Cert.KernelIdeal.Tile

end
-- ==== Proof.TileObl.lean ====
/-
  The body obligation of the SparseCore call at a symbolic vector subcore.

  The subcore's thread runs the kernel's function at the subcore's coordinates; the function's test on the
  coordinates decides which of the two cases of the task applies, and either way the subcore's share of the three
  arrays comes back with the margins' row holding the margins array.
-/
import proofs.«205080_g78649441125020_cont_9to1_m_374_30_alg».proof.Proof.TileBody

noncomputable section

namespace Cert.KernelIdeal.Tile

open Cert.KernelIdeal Cert.KernelIdeal.Gen Cert.KernelIdeal.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__margin_kernel (coordsV c s)
          lgV (Memref.isWhole_whole _) tgV (Memref.isWhole_whole _) mgV (Memref.isWhole_whole _)
          sLg (Memref.isWhole_whole _) sTg (Memref.isWhole_whole _) sMg (Memref.isWhole_whole _) cc1_scratch3 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (m : (ℓ : Loc nD τ sig) → Buf (Elt F) ℓ) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ tileRes m d c.val i.val (m (v7Loc d)) ∗ _) ⊢ wp _ _ _ _ (fun _ => iprop(tileRes m d c.val i.val (X7 m d) ∗ _))
  by_cases h1 : k1_cond1 (coordsV ⟨_, hc.1⟩ ⟨_, hc.2⟩) = 1#1
  · exact (tile_work m d (coordsV ⟨_, hc.1⟩ ⟨_, hc.2⟩) h1 O W hO).trans (wp_mono frame _ _ fun _ => obl_post)
  · exact (tile_idle m d (coordsV ⟨_, hc.1⟩ ⟨_, hc.2⟩) h1 O W).trans (wp_mono frame _ _ fun _ => obl_post)

end Cert.KernelIdeal.Tile

end
-- ==== Proof.MseReindex.lean ====
/-
  Re-indexing laws for the squared-difference sum, over any additive commutative monoid.

  A [256, 3, 224, 224] index is a pair (block t < 16, index inside the block): the leading row B is 16 t + b with
  b < 16, the other three coordinates unchanged. So a sum over the sixteen blocks of a sum over each block is the sum
  over the whole array (`sum_blocks`). A sum over the result indices of a reduction of the sums over the source
  indices that drop to each is the sum over every source index (`sum_fibers`): the fibers of the dropping map
  partition the source. Neither uses more than associativity and commutativity of the addition.

  `sqd w x i` is the summand, (c · (tanh wᵢ + u) − xᵢ)², the two literals c and u kept as the words the programs
  carry.
-/
import proofs.«205080_g78649441125020_cont_9to1_m_374_30_alg».proof.Proof.KVal
import Idealize.ShloMosaic.PureOps.Ideal.Laws

noncomputable section

open scoped BigOperators

namespace Cert.Bridge.Mse

open Idealize.ShloMosaic Cert.KernelIdeal Cert.KernelIdeal.KVal

/-- The summand at one index: (c · (tanh w + u) − x)², with c and u the extended reals of the two literal words. -/
def sqd {s : Shape} (w x : s.Idx → EReal) (i : s.Idx) : EReal :=
  (Ideal.ofBits .f32 0x42FF0000#32 * (Ideal.tanh (w i) + Ideal.ofBits .f32 0x3F800000#32) - x i)
    * (Ideal.ofBits .f32 0x42FF0000#32 * (Ideal.tanh (w i) + Ideal.ofBits .f32 0x3F800000#32) - x i)

/-- A whole-array index is a block number and an index inside that block. -/
def blkEquiv : Fin 16 × S16x3x224x224.Idx ≃ S256x3x224x224.Idx where
  toFun p := blkIdx p.1.val p.2
  invFun I :=
    (⟨(I 0).val / 16, by have h : (I 0).val < 256 := (I 0).isLt; omega⟩,
      fun a => match a with
        | ⟨0, _⟩ => ⟨(I 0).val % 16, Nat.mod_lt _ (by decide)⟩
        | ⟨1, _⟩ => I 1
        | ⟨2, _⟩ => I 2
        | ⟨3, _⟩ => I 3)
  left_inv p := by
    obtain ⟨t, i⟩ := p
    have ht : t.val < 16 := t.isLt
    have hi : (i 0).val < 16 := (i 0).isLt
    refine Prod.ext (Fin.ext ?_) (funext fun a => ?_)
    · show (16 * t.val + (i 0).val) % 256 / 16 = t.val
      omega
    · match a with
      | ⟨0, _⟩ =>
        refine Fin.ext ?_
        show (16 * t.val + (i 0).val) % 256 % 16 = (i 0).val
        omega
      | ⟨1, _⟩ => rfl
      | ⟨2, _⟩ => rfl
      | ⟨3, _⟩ => rfl
  right_inv I := by
    have h : (I 0).val < 256 := (I 0).isLt
    funext a
    match a with
    | ⟨0, _⟩ =>
      refine Fin.ext ?_
      show (16 * ((I 0).val / 16) + (I 0).val % 16) % 256 = (I 0).val
      omega
    | ⟨1, _⟩ => rfl
    | ⟨2, _⟩ => rfl
    | ⟨3, _⟩ => rfl

/-- The sum over sixteen blocks of the sum over each block is the sum over the whole array. -/
theorem sum_blocks {M : Type} [AddCommMonoid M] (f : S256x3x224x224.Idx → M) :
    ∑ t ∈ Finset.range 16, ∑ i : S16x3x224x224.Idx, f (blkIdx t i) = ∑ I : S256x3x224x224.Idx, f I := by
  rw [Finset.sum_range (fun t => ∑ i : S16x3x224x224.Idx, f (blkIdx t i)),
    ← Fintype.sum_prod_type' (f := fun (t : Fin 16) (i : S16x3x224x224.Idx) => f (blkIdx t.val i))]
  exact Equiv.sum_comp blkEquiv f

/-- The sums over the fibers of a reduction's dropping map add up to the sum over every source index. -/
theorem sum_fibers {M : Type} [AddCommMonoid M] {s t : Shape} {axes : List (Fin s.rank)} (h : s.Reduces axes t)
    (g : s.Idx → M) :
    ∑ j : t.Idx, ∑ i ∈ Finset.univ.filter (fun i => h.drop i = j), g i = ∑ i : s.Idx, g i :=
  Finset.sum_fiberwise Finset.univ h.drop g

end Cert.Bridge.Mse

end
-- ==== Proof.MsePayload.lean ====
/-
  The kernel's three pure terms read at the ideal instance.

  The zero accumulator is 0 at every index (`pay1_apply`). One block's step adds to the old accumulator, at each
  result index j, the sum of the squared differences over the block's indices that drop to j (`pay2_apply`): the
  reduction's neutral word contributes nothing at the ideal instance, whose sum is the plain finite sum. The last step
  sums the accumulator over all its indices (`pay3_eq`): the reduction keeps only unit axes, so it is the total sum,
  and the casts around it only rename indices.

  Each holds over arbitrary shapes and is then read at the program's shapes.
-/
import proofs.«205080_g78649441125020_cont_9to1_m_374_30_alg».proof.Proof.MseReindex
import Idealize.ShloMosaic.Lib.Pipeline.Value

noncomputable section

open scoped BigOperators

namespace Cert.Bridge.Mse

open Idealize.ShloMosaic Cert.KernelIdeal Cert.KernelIdeal.Gen

/-- An ideal `add` reduction at a result index is the sum over the source indices that drop to it. -/
theorem multiReduction_add_apply {s t : Shape} {axes : List (Fin s.rank)} (src : FVec Ideal s .f32)
    (acc : BitVec FTy.f32.bits) (h : s.Reduces axes t) (hφ : FKind.Formats .f32)
    (hacc : acc = FKind.add.neutral .f32 hφ) (j : t.Idx) :
    multiReduction .add axes t src acc h hφ hacc j = ∑ i ∈ Finset.univ.filter (fun i => h.drop i = j), src i := rfl

/-- One block's step over arbitrary shapes: the old accumulator plus the fiber sums of the squared differences. -/
theorem pay2_gen {s t : Shape} {axes : List (Fin s.rank)} (h : s.Reduces axes t) (hc : t.ShapeCasts t)
    (hφ : FKind.Formats .f32) (hacc : (0x00000000#32 : BitVec FTy.f32.bits) = FKind.add.neutral .f32 hφ)
    (v3 v9 : FVec Ideal s .f32) (v11 : FVec Ideal t .f32) (j : t.Idx) :
    shapeCast t (addf v11 (multiReduction .add axes t
        (mulf (subf (mulf (broadcast s (Scalar.ofBits (F := Ideal) .f32 0x42FF0000#32))
            (addf (tanh v3) (broadcast s (Scalar.ofBits (F := Ideal) .f32 0x3F800000#32)))) v9)
          (subf (mulf (broadcast s (Scalar.ofBits (F := Ideal) .f32 0x42FF0000#32))
            (addf (tanh v3) (broadcast s (Scalar.ofBits (F := Ideal) .f32 0x3F800000#32)))) v9))
        0x00000000#32 h hφ hacc)) hc j
      = v11 j + ∑ i ∈ Finset.univ.filter (fun i => h.drop i = j), sqd v3 v9 i := by
  rw [shapeCast_self]
  show v11 j + multiReduction .add axes t _ 0x00000000#32 h hφ hacc j = _
  rw [multiReduction_add_apply]
  rfl

/-- One block's step at the program's shapes. -/
theorem pay2_apply (v3 v9 : Vec Ideal S16x3x224x224 .f32) (v11 : Vec Ideal S224x224 .f32) (j : S224x224.Idx) :
    k0_pay2 (F := Ideal) v3 v9 v11 j
      = v11 j + ∑ i ∈ Finset.univ.filter (fun i => reduces_S16x3x224x224_S224x224.drop i = j), sqd v3 v9 i :=
  pay2_gen reduces_S16x3x224x224_S224x224 shapeCasts_S224x224_S224x224 (.inl rfl) rfl v3 v9 v11 j

/-- The zero accumulator is 0 everywhere. -/
theorem pay1_apply (j : S224x224.Idx) : k0_pay1 (F := Ideal) j = 0 := by
  show shapeCast S224x224 (broadcast S224x224 (Scalar.ofBits (F := Ideal) .f32 0x00000000#32))
    shapeCasts_S224x224_S224x224 j = 0
  rw [shapeCast_self]
  exact Ideal.ofBits_zero_f32

/-- The last step over arbitrary shapes: a cast, a reduction onto unit axes, a cast and a read are the total sum. -/
theorem pay3_gen {s s1 t1 t3 : Shape} {axes : List (Fin s1.rank)} (hc1 : s.ShapeCasts s1) (h : s1.Reduces axes t1)
    (ht : ∀ b, t1.size b = 1) (hc3 : t1.ShapeCasts t3) (pos : Fin t3.rank → Nat) (hpos : ∀ a, pos a < t3.size a)
    (hφ : FKind.Formats .f32) (hacc : (0x00000000#32 : BitVec FTy.f32.bits) = FKind.add.neutral .f32 hφ)
    (v : FVec Ideal s .f32) :
    extractAt pos (shapeCast t3 (multiReduction .add axes t1 (shapeCast s1 v hc1) 0x00000000#32 h hφ hacc) hc3) hpos
      = ∑ j : s.Idx, v j := by
  unfold extractAt
  show multiReduction .add axes t1 (shapeCast s1 v hc1) 0x00000000#32 h hφ hacc _ = _
  refine (Ideal.multiReduction_add_total _ _ h ht hφ hacc _).trans ?_
  exact Equiv.sum_comp (Shape.reshapeEquiv hc1) v

/-- The last step at the program's shapes: the sum of the accumulator. -/
theorem pay3_eq (acc : Vec Ideal S224x224 .f32) : k0_pay3 (F := Ideal) acc = ∑ j : S224x224.Idx, acc j :=
  pay3_gen shapeCasts_S224x224_S1x224x224 reduces_S1x224x224_S1 (by decide) shapeCasts_S1_S1x1x1 ![0, 0, 0]
    inpos_S1x1x1_p0_0_0 (.inl rfl) rfl acc

end Cert.Bridge.Mse

end
-- ==== Proof.RefParts.lean ====
/-
  The reference's result, cut at its two mathematical parts.

  The reference adds two numbers: the sum over every entry of (127.5 · (tanh w + 1) − x)², divided by the entry
  count; and half of the sum of 256 margins divided by 256. `refMse` is the first sum and `refMargins` the 256
  margins — per row r, max(logits[r, t_r] − max_j masked[r, j], −10), where the true-class logit is read by a gather
  and `masked` is the logits with −∞ written at (r, t_r) by a scatter — each spelt exactly as the reference's run
  states it, so that `res_eq` holds by unfolding.
-/
import proofs.«205080_g78649441125020_cont_9to1_m_374_30_alg».proof.Proof.Gen.ReferenceIdeal.Run

noncomputable section

namespace Cert.ReferenceIdeal.Parts

open Cert.ReferenceIdeal Cert.ReferenceIdeal.Gen Idealize.ShloMosaic Idealize.ShloMosaic.TcCoe Idealize.ShloMosaic.StableHlo

variable {F : FTy → Type} [FloatOps F]

/-- The sum over all entries of (127.5 · (tanh w + 1) − x)². -/
def refMse (w x : Vec F S256x3x224x224 .f32) : Vec F S_ .f32 :=
  (Host.reduceAdd (mulf (subf (mulf (broadcastInDim S256x3x224x224 ![] bcast_S_S256x3x224x224 (constant S_ .f32 0x42FF0000#32)) (addf (Host.tanh w) (broadcastInDim S256x3x224x224 ![] bcast_S_S256x3x224x224 (constant S_ .f32 0x3F800000#32)))) x) (subf (mulf (broadcastInDim S256x3x224x224 ![] bcast_S_S256x3x224x224 (constant S_ .f32 0x42FF0000#32)) (addf (Host.tanh w) (broadcastInDim S256x3x224x224 ![] bcast_S_S256x3x224x224 (constant S_ .f32 0x3F800000#32)))) x)) (constant S_ .f32 0x00000000#32) reducesTo_S256x3x224x224_S_d0_1_2_3 h_S_)

set_option maxRecDepth 8192 in
/-- The 256 margins max(logits[r, t_r] − max_j masked[r, j], −10). -/
def refMargins (lg : Vec F S256x1000 .f32) (t : Vec F S256x1 .i32) : Vec F S256 .f32 :=
  (maximumf (subf (shapeCast _ (select (Host.reduce IntOp.andi (andi (cmpi .sge (shapeCast _ (select (cmpi .slt (broadcastInDim S256x1 ![0] bcast_S256_S256x1_0 (shapeCast _ t shapeCasts_S256x1_S256)) (broadcastInDim S256x1 ![] bcast_S_S256x1 (constantI S_ 32 0#32))) (addi (broadcastInDim S256x1 ![0] bcast_S256_S256x1_0 (shapeCast _ t shapeCasts_S256x1_S256)) (broadcastInDim S256x1 ![] bcast_S_S256x1 (constantI S_ 32 1000#32))) (broadcastInDim S256x1 ![0] bcast_S256_S256x1_0 (shapeCast _ t shapeCasts_S256x1_S256))) shapeCasts_S256x1_S256x1x1) (broadcastInDim S256x1x1 ![] bcast_S_S256x1x1 (constantI S_ 32 0#32))) (cmpi .sle (shapeCast _ (select (cmpi .slt (broadcastInDim S256x1 ![0] bcast_S256_S256x1_0 (shapeCast _ t shapeCasts_S256x1_S256)) (broadcastInDim S256x1 ![] bcast_S_S256x1 (constantI S_ 32 0#32))) (addi (broadcastInDim S256x1 ![0] bcast_S256_S256x1_0 (shapeCast _ t shapeCasts_S256x1_S256)) (broadcastInDim S256x1 ![] bcast_S_S256x1 (constantI S_ 32 1000#32))) (broadcastInDim S256x1 ![0] bcast_S256_S256x1_0 (shapeCast _ t shapeCasts_S256x1_S256))) shapeCasts_S256x1_S256x1x1) (broadcastInDim S256x1x1 ![0, 1, 2] bcast_S1x1x1_S256x1x1_0_1_2 (broadcastInDim S1x1x1 ![2] bcast_S1_S1x1x1_2 (constantI S1 32 999#32))))) (constantI S_ 1 1#1) reducesTo_S256x1x1_S256x1_d2 h_S_) (Host.gather gather_S256x1000_S256x1x1_S256x1_n_1_0_0_1_2_11 lg (shapeCast _ (select (cmpi .slt (broadcastInDim S256x1 ![0] bcast_S256_S256x1_0 (shapeCast _ t shapeCasts_S256x1_S256)) (broadcastInDim S256x1 ![] bcast_S_S256x1 (constantI S_ 32 0#32))) (addi (broadcastInDim S256x1 ![0] bcast_S256_S256x1_0 (shapeCast _ t shapeCasts_S256x1_S256)) (broadcastInDim S256x1 ![] bcast_S_S256x1 (constantI S_ 32 1000#32))) (broadcastInDim S256x1 ![0] bcast_S256_S256x1_0 (shapeCast _ t shapeCasts_S256x1_S256))) shapeCasts_S256x1_S256x1x1)) (broadcastInDim S256x1 ![] bcast_S_S256x1 (constant S_ .f32 0x7FC00000#32))) shapeCasts_S256x1_S256) (Host.reduce FloatOps.maximumf (Host.scatter scatter_S256x1000_S256x2_S256_n_01_01_1 (fun _ b => b) lg (concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt (shapeCast _ t shapeCasts_S256x1_S256) (broadcastInDim S256 ![] bcast_S_S256 (constantI S_ 32 0#32))) (addi (shapeCast _ t shapeCasts_S256x1_S256) (broadcastInDim S256 ![] bcast_S_S256 (constantI S_ 32 1000#32))) (shapeCast _ t shapeCasts_S256x1_S256)))⟩] concatenates_S256x1_S256x1_S256x2_d1) (broadcastInDim S256 ![] bcast_S_S256 (constant S_ .f32 0xFF800000#32))) (constant S_ .f32 0xFF800000#32) reducesTo_S256x1000_S256_d1 h_S_)) (broadcastInDim S256 ![] bcast_S_S256 (constant S_ .f32 0xC1200000#32)))

set_option maxRecDepth 8192 in
/-- The reference's result is the two parts under its last five operations. -/
theorem res_eq (m : (ℓ : Loc nD τ sig) → Buf (Elt F) ℓ) (c : Dev nD) :
    Cert.ReferenceIdeal.Value.res_out0 m c
      = (fun (w x : Vec F S256x3x224x224 .f32) (lg : Vec F S256x1000 .f32) (t : Vec F S256x1 .i32) =>
          (addf (Host.divf (refMse w x) (constant S_ .f32 0x4C130000#32)) (mulf (constant S_ .f32 0x3F000000#32) (Host.divf (Host.reduceAdd (refMargins lg t) (constant S_ .f32 0x00000000#32) reducesTo_S256_S_d0 h_S_) (constant S_ .f32 0x43800000#32))) : Vec F S_ .f32))
        (m ((c.tc : Thread nD τ).loc main_arg0)) (m ((c.tc : Thread nD τ).loc main_arg1))
        (m ((c.tc : Thread nD τ).loc main_arg2)) (m ((c.tc : Thread nD τ).loc main_arg3)) := by
  show Cert.ReferenceIdeal.Value.res_main_v36 m c = _
  unfold Cert.ReferenceIdeal.Value.res_main_v36 refMse refMargins
  rfl

end Cert.ReferenceIdeal.Parts

end
-- ==== Proof.MseRef.lean ====
/-
  The reference's sum read at the ideal instance.

  The reference reduces the squared differences over all four axes from a zero initial value. At the ideal instance
  that is 0 plus the plain sum over every index; a scalar broadcast reads the scalar, so the summand is the same
  (c · (tanh wᵢ + u) − xᵢ)² the kernel's blocks carry (`refMse_apply`). First over an arbitrary shape, then at the
  program's.
-/
import proofs.«205080_g78649441125020_cont_9to1_m_374_30_alg».proof.Proof.MseReindex
import proofs.«205080_g78649441125020_cont_9to1_m_374_30_alg».proof.Proof.RefParts

noncomputable section

open scoped BigOperators

namespace Cert.Bridge.Mse

open Idealize.ShloMosaic

/-- A full reduction, from a zero initial value, of the squared differences spelt with broadcast scalars is their
    total sum. -/
theorem ref_gen {s t : Shape} {axes : List (Fin s.rank)} (h' : s.ReducesTo axes t) (ht : ∀ b, t.size b = 1)
    (hb : (⟨0, ![]⟩ : Shape).BroadcastsInDim s ![]) (hu : 0 < (⟨0, ![]⟩ : Shape).numel)
    (w x : FVec Ideal s .f32) (j : t.Idx) :
    Host.reduceAdd (F := Ideal)
        (mulf (subf (mulf (broadcastInDim s ![] hb (constant (F := Ideal) ⟨0, ![]⟩ .f32 0x42FF0000#32))
            (addf (Host.tanh w) (broadcastInDim s ![] hb (constant (F := Ideal) ⟨0, ![]⟩ .f32 0x3F800000#32)))) x)
          (subf (mulf (broadcastInDim s ![] hb (constant (F := Ideal) ⟨0, ![]⟩ .f32 0x42FF0000#32))
            (addf (Host.tanh w) (broadcastInDim s ![] hb (constant (F := Ideal) ⟨0, ![]⟩ .f32 0x3F800000#32)))) x))
        (constant (F := Ideal) ⟨0, ![]⟩ .f32 0x00000000#32) h' hu j
      = ∑ i : s.Idx, sqd w x i := by
  show Ideal.hostReduceAdd h' _ (Ideal.ofBits .f32 0x00000000#32) j = _
  rw [Ideal.hostReduceAdd_total h' ht, Ideal.ofBits_zero_f32, zero_add]
  exact Finset.sum_congr rfl fun i _ => rfl

/-- The reference's sum at the program's shape. -/
theorem refMse_apply (w x : Vec Ideal Cert.ReferenceIdeal.S256x3x224x224 .f32) (j : Cert.ReferenceIdeal.S_.Idx) :
    Cert.ReferenceIdeal.Parts.refMse (F := Ideal) w x j = ∑ i : Cert.ReferenceIdeal.S256x3x224x224.Idx, sqd w x i :=
  ref_gen Cert.ReferenceIdeal.Gen.reducesTo_S256x3x224x224_S_d0_1_2_3 (fun b => b.elim0)
    Cert.ReferenceIdeal.Gen.bcast_S_S256x3x224x224 Cert.ReferenceIdeal.Gen.h_S_ w x j

end Cert.Bridge.Mse

end
-- ==== Proof.MseBridge.lean ====
/-
  The kernel's squared-difference sum is the reference's.

  By induction on the number of blocks, the accumulator after n blocks holds at each index j the sum, over the first
  n blocks, of the squared differences over the block's indices that drop to j (`accAt_apply`). Summing the
  accumulator over j turns each block's fiber sums into the sum over the whole block, and the sixteen blocks' sums
  into the sum over the whole array — which is what the reference computes. Only a finite sum is regrouped: nothing
  is assumed of the entries of w and x, which may be infinite.
-/
import proofs.«205080_g78649441125020_cont_9to1_m_374_30_alg».proof.Proof.MsePayload
import proofs.«205080_g78649441125020_cont_9to1_m_374_30_alg».proof.Proof.MseRef

noncomputable section

open scoped BigOperators

namespace Cert.Bridge.Mse

open Idealize.ShloMosaic Cert.KernelIdeal Cert.KernelIdeal.Gen Cert.KernelIdeal.KVal

/-- The accumulator after n blocks, at an index: the first n blocks' fiber sums. -/
theorem accAt_apply (w x : Vec Ideal S256x3x224x224 .f32) (n : Nat) :
    ∀ j : S224x224.Idx, accAt (F := Ideal) w x n j
      = ∑ t ∈ Finset.range n,
          ∑ i ∈ Finset.univ.filter (fun i => reduces_S16x3x224x224_S224x224.drop i = j), sqd w x (blkIdx t i) := by
  induction n with
  | zero =>
    intro j
    show k0_pay1 (F := Ideal) j = _
    rw [pay1_apply, Finset.sum_range_zero]
  | succ n ih =>
    intro j
    show k0_pay2 (F := Ideal) (blk w n) (blk x n) (accAt w x n) j = _
    rw [pay2_apply, ih j, Finset.sum_range_succ]
    exact congrArg (_ + ·) (Finset.sum_congr rfl fun i _ => rfl)

/-- The kernel's one number: the sum of the squared differences over the whole array. -/
theorem mseOut_eq (w x : Vec Ideal S256x3x224x224 .f32) :
    k0_pay3 (F := Ideal) (accAt w x 16) = ∑ I : S256x3x224x224.Idx, sqd w x I := by
  rw [pay3_eq]
  rw [Finset.sum_congr rfl fun j _ => accAt_apply w x 16 j, Finset.sum_comm]
  rw [Finset.sum_congr rfl fun t _ =>
    sum_fibers reduces_S16x3x224x224_S224x224 (fun i => sqd w x (blkIdx t i))]
  exact sum_blocks (sqd w x)

end Cert.Bridge.Mse

namespace Cert.Bridge

open Idealize.ShloMosaic

theorem mse_eq (w x : Vec Ideal Cert.KernelIdeal.S256x3x224x224 .f32) :
    (shapeCast Cert.KernelIdeal.S_ (Cert.KernelIdeal.KVal.mseOut (F := Ideal) w x) Cert.KernelIdeal.Gen.shapeCasts_S1x1_S_ : Vec Ideal Cert.KernelIdeal.S_ .f32)
      = Cert.ReferenceIdeal.Parts.refMse (F := Ideal) w x := by
  funext j
  rw [Mse.refMse_apply]
  exact Mse.mseOut_eq w x

end Cert.Bridge

end
-- ==== Proof.MarginRange.lean ====
/-
  The integer range of the target words, read out of the input-domain predicate.

  The predicate is a conjunction of four "all entries satisfy …" tests, each a reduction by `and` of an array of
  one-bit words from the word 1. Its last conjunct tests, entry by entry, 0 ≤ t and t ≤ 999 as signed comparisons of
  32-bit words. If the conjunction is 1, the last reduction is 1, so every entry of its operand is 1, so both
  comparisons hold at every entry.
-/
import proofs.«205080_g78649441125020_cont_9to1_m_374_30_alg».proof.Proof.Gen.Pre_input_domain
import Idealize.ShloMosaic.PureOps.Ideal
import Idealize.ShloMosaic.Lib.ReduceAll
import Idealize.ShloMosaic.Lib.ValueIdx

namespace Cert.Bridge

open Idealize.ShloMosaic

/-- The rank-0 shape has one index. -/
instance subsingleton_scalar_idx : Subsingleton Cert.Pre_input_domain.S_.Idx := ⟨fun a b => funext fun d => d.elim0⟩

/-- Every target word lies in [0, 999], read signed. -/
theorem targets_range (w x : Vec Ideal Cert.Pre_input_domain.S256x3x224x224 .f32) (lg : Vec Ideal Cert.Pre_input_domain.S256x1000 .f32)
    (t : Vec Ideal Cert.Pre_input_domain.S256x1 .i32)
    (h : Cert.Pre_input_domain.fn (F := Ideal) w x lg t = fun _ => 1#1) : ∀ i, 0 ≤ (t i).toInt ∧ (t i).toInt ≤ 999 := by
  intro i
  have e := congrFun h ValueIdx.ix0
  dsimp only [Cert.Pre_input_domain.fn, Cert.Pre_input_domain.fn_part1] at e
  have e2 := (IntOp.andi_eq_one.1 e).2
  have e3 := Host.reduce_andi_all _ _ _ _ _ e2 i
  obtain ⟨h0, h1⟩ := IntOp.andi_eq_one.1 e3
  have h0' := IntOp.cmpi_sge.1 h0
  have h1' := IntOp.cmpi_sle.1 h1
  exact ⟨h0', h1'⟩

end Cert.Bridge
-- ==== Proof.MarginFold.lean ====
/-
  The order-theoretic core of the margin: a running maximum that skips one position.

  Let f be a sequence of extended reals and T a position. A walk over the positions 0, 1, 2, … carries two values:
  the maximum so far of f over the positions other than T, started from the bottom element ⊥ (the identity of max),
  and the value of f at T once T has been passed, started from an arbitrary value z. After n steps the first is the
  supremum of the masked sequence (f with ⊥ written at position T) over the positions below n, and the second is f T if
  T < n, else z. A fold of max from ⊥ over all N positions of the masked sequence, in whatever order, is that same
  supremum: max is associative, commutative and idempotent, and ⊥ is its identity, so the supremum is characterised by
  its universal property alone.
-/
import Mathlib.Data.EReal.Basic
import Mathlib.Data.Finset.Lattice.Fold
import Mathlib.Data.Fintype.Basic

noncomputable section

namespace Cert.Bridge.Fold

/-- The sequence f with the bottom element written at position T. -/
def masked (f : ℕ → EReal) (T : ℕ) (j : ℕ) : EReal := if j = T then ⊥ else f j

/-- The supremum of the masked sequence over the positions below n. -/
def supBelow (f : ℕ → EReal) (T : ℕ) (n : ℕ) : EReal := (Finset.range n).sup (masked f T)

theorem supBelow_zero (f : ℕ → EReal) (T : ℕ) : supBelow f T 0 = ⊥ := by
  simp [supBelow]

theorem supBelow_succ (f : ℕ → EReal) (T : ℕ) (n : ℕ) :
    supBelow f T (n + 1) = if n = T then supBelow f T n else max (supBelow f T n) (f n) := by
  unfold supBelow
  rw [Finset.range_add_one, Finset.sup_insert]
  unfold masked
  by_cases h : n = T
  · rw [if_pos h, if_pos h]; exact bot_sup_eq _
  · rw [if_neg h, if_neg h]; exact max_comm _ _

/-- A sequence that starts at ⊥ and at each step below N either keeps its value (at position T) or takes the maximum
    with f's next value is the supremum of the masked sequence. -/
theorem runmax_eq (f : ℕ → EReal) (T : ℕ) (a : ℕ → EReal) (N : ℕ) (h0 : a 0 = ⊥)
    (hs : ∀ n, n < N → a (n + 1) = if n = T then a n else max (a n) (f n)) :
    ∀ n, n ≤ N → a n = supBelow f T n
  | 0, _ => by rw [h0, supBelow_zero]
  | n + 1, hn => by
    rw [hs n hn, supBelow_succ, runmax_eq f T a N h0 hs n (Nat.le_of_succ_le hn)]

/-- A sequence that starts at z and at each step below N either keeps its value or (at position T) takes f's value
    there holds f T once T has been passed. -/
theorem picked_eq (f : ℕ → EReal) (T : ℕ) (b : ℕ → EReal) (N : ℕ) (z : EReal) (h0 : b 0 = z)
    (hs : ∀ n, n < N → b (n + 1) = if n = T then f n else b n) :
    ∀ n, n ≤ N → b n = if T < n then f T else z
  | 0, _ => by rw [h0, if_neg (Nat.not_lt_zero T)]
  | n + 1, hn => by
    rw [hs n hn, picked_eq f T b N z h0 hs n (Nat.le_of_succ_le hn)]
    by_cases h : n = T
    · subst h; rw [if_pos rfl, if_pos (Nat.lt_succ_self _)]
    · rw [if_neg h]
      by_cases h' : T < n
      · rw [if_pos h', if_pos (Nat.lt_succ_of_lt h')]
      · rw [if_neg h', if_neg (by omega)]

/-- A fold of max from ⊥ over all N positions of an array that is the masked sequence is its supremum. -/
theorem fold_max_eq_supBelow (N T : ℕ) (f : ℕ → EReal) (G : Fin N → EReal)
    (hG : ∀ k : Fin N, G k = masked f T k.val) :
    (Finset.univ : Finset (Fin N)).fold max ⊥ G = supBelow f T N := by
  show (Finset.univ : Finset (Fin N)).sup G = _
  unfold supBelow
  apply le_antisymm
  · refine Finset.sup_le fun k _ => ?_
    rw [hG k]
    exact Finset.le_sup (f := masked f T) (Finset.mem_range.2 k.isLt)
  · refine Finset.sup_le fun j hj => ?_
    have hj' : j < N := Finset.mem_range.1 hj
    have := Finset.le_sup (f := G) (Finset.mem_univ (⟨j, hj'⟩ : Fin N))
    rwa [hG ⟨j, hj'⟩] at this

end Cert.Bridge.Fold

end
-- ==== Proof.MarginKernel.lean ====
/-
  One lane of the kernel's walk over the classes, at the ideal instance.

  A lane holds a target word T in [0, 999] and sees, class after class, the sequence f 0, f 1, … of its row's logits.
  The walk's mask at class n is "the word equals the induction variable", which is n = T because neither wraps. So the
  first carried value follows the recursion "keep at n = T, else take the maximum with f n" from −∞ = ⊥, and the second
  "take f n at n = T, else keep". By the fold law the walk ends, after all 1000 classes, at the supremum of f over the
  classes other than T and at f T, and the lane's margin is max (f T − that supremum, −10).
-/
import proofs.«205080_g78649441125020_cont_9to1_m_374_30_alg».proof.Proof.KVal
import proofs.«205080_g78649441125020_cont_9to1_m_374_30_alg».proof.Proof.MarginFold
import Idealize.ShloMosaic.PureOps.Ideal
import Idealize.ShloMosaic.Lib.ValueIdx
import Idealize.ShloMosaic.Lib.Affine
import Idealize.ShloMosaic.Lib.Pipeline.Value

noncomputable section

namespace Cert.Bridge.Kern

open Idealize.ShloMosaic Cert.KernelIdeal Cert.KernelIdeal.Gen Cert.KernelIdeal.KVal

/-- The walk visits all 1000 classes. -/
theorem trips_eq : k1_t1_loop.trips = 1000 := by decide

/-- The word 0xFF800000 denotes −∞, the bottom element. -/
theorem negInf : Ideal.ofBits .f32 0xFF800000#32 = ⊥ := by simp [Ideal.ofBits, Ideal.ieee]

/-- The sequence of logits a lane sees: class j's entry of the class-major row at that lane. -/
def laneSeq (row : Vec Ideal S16000 .f32) (y : S16.Idx) (j : ℕ) : EReal := chunk (F := Ideal) row j y

/-- The induction variable at trip k is the word k, so a word equals it exactly when it reads k. -/
theorem word_eq_iv (w : BitVec 32) (k : ℕ) (hk : k < 1000) : w = Scf.iv 0#32 1#32 k ↔ k = w.toNat := by
  have e : Scf.iv 0#32 1#32 k = BitVec.ofNat 32 k := by simp [Scf.iv]
  rw [e, ← BitVec.toNat_inj, BitVec.toNat_ofNat, Nat.mod_eq_of_lt (by omega)]
  exact eq_comm

/-- A select on an equality test of two words is the `if` on their equality. -/
theorem select_cmpi_eq {α : Type} (w v : BitVec 32) (a b : α) :
    Scalar.select (IntOp.cmpi .eq w v) a b = if w = v then a else b := by
  by_cases h : w = v
  · rw [if_pos h, IntOp.cmpi_eq.2 h]; exact ValueIdx.select_one a b
  · rw [if_neg h, ValueIdx.eq_zero_of_ne_one (mt IntOp.cmpi_eq.1 h)]; exact ValueIdx.select_zero a b

/-- One class of the walk. -/
theorem loopAt_succ (v5 : Vec Ideal S16 .i32) (row : Vec Ideal S16000 .f32) (n : ℕ) (h : n < k1_t1_loop.trips) :
    loopAt (F := Ideal) v5 row (n + 1)
      = (k1_pay5 v5 ⟨n, h⟩ (loopAt (F := Ideal) v5 row n).1 (chunk row n),
         k1_pay6 v5 ⟨n, h⟩ (loopAt (F := Ideal) v5 row n).2 (chunk row n)) := by
  rw [loopAt]; exact dif_pos h

/-- The running maximum's step at a lane. -/
theorem loopAt_succ_fst (v5 : Vec Ideal S16 .i32) (row : Vec Ideal S16000 .f32) (n : ℕ) (hn : n < 1000) (y : S16.Idx) :
    (loopAt (F := Ideal) v5 row (n + 1)).1 y
      = if n = (v5 y).toNat then (loopAt (F := Ideal) v5 row n).1 y
        else max ((loopAt (F := Ideal) v5 row n).1 y) (laneSeq row y n) := by
  rw [loopAt_succ v5 row n (trips_eq ▸ hn)]
  unfold k1_pay5 k1_pay4 k1_pay3
  simp only [shapeCast_self]
  show Scalar.select (IntOp.cmpi .eq (v5 y) (Scf.iv 0#32 1#32 n)) ((loopAt (F := Ideal) v5 row n).1 y)
      (max ((loopAt (F := Ideal) v5 row n).1 y) (chunk (F := Ideal) row n y)) = _
  rw [select_cmpi_eq]
  by_cases hT : n = (v5 y).toNat
  · rw [if_pos hT, if_pos ((word_eq_iv _ n hn).2 hT)]
  · rw [if_neg hT, if_neg (mt (word_eq_iv _ n hn).1 hT)]; rfl

/-- The true-class logit's step at a lane. -/
theorem loopAt_succ_snd (v5 : Vec Ideal S16 .i32) (row : Vec Ideal S16000 .f32) (n : ℕ) (hn : n < 1000) (y : S16.Idx) :
    (loopAt (F := Ideal) v5 row (n + 1)).2 y
      = if n = (v5 y).toNat then laneSeq row y n else (loopAt (F := Ideal) v5 row n).2 y := by
  rw [loopAt_succ v5 row n (trips_eq ▸ hn)]
  unfold k1_pay6 k1_pay4 k1_pay3
  simp only [shapeCast_self]
  show Scalar.select (IntOp.cmpi .eq (v5 y) (Scf.iv 0#32 1#32 n)) (chunk (F := Ideal) row n y)
      ((loopAt (F := Ideal) v5 row n).2 y) = _
  rw [select_cmpi_eq]
  by_cases hT : n = (v5 y).toNat
  · rw [if_pos hT, if_pos ((word_eq_iv _ n hn).2 hT)]; rfl
  · rw [if_neg hT, if_neg (mt (word_eq_iv _ n hn).1 hT)]

/-- The walk starts from −∞ in its first carried value. -/
theorem loopAt_zero_fst (v5 : Vec Ideal S16 .i32) (row : Vec Ideal S16000 .f32) (y : S16.Idx) :
    (loopAt (F := Ideal) v5 row 0).1 y = ⊥ := by
  show Ideal.ofBits .f32 0xFF800000#32 = ⊥
  exact negInf

/-- A LANE'S MARGIN: the logit at the lane's target minus the supremum of the other classes' logits, clamped below by
    the word 0xC1200000 (−10). -/
theorem marginRow_apply (v5 : Vec Ideal S16 .i32) (row : Vec Ideal S16000 .f32) (y : S16.Idx) (hT : (v5 y).toNat < 1000) :
    marginRow (F := Ideal) v5 row y
      = max (laneSeq row y (v5 y).toNat - Fold.supBelow (laneSeq row y) (v5 y).toNat 1000)
          (Ideal.ofBits .f32 0xC1200000#32) := by
  have h1 := Fold.runmax_eq (laneSeq row y) (v5 y).toNat (fun n => (loopAt (F := Ideal) v5 row n).1 y) 1000
    (loopAt_zero_fst v5 row y) (fun n hn => loopAt_succ_fst v5 row n hn y) 1000 (Nat.le_refl _)
  have h2 := Fold.picked_eq (laneSeq row y) (v5 y).toNat (fun n => (loopAt (F := Ideal) v5 row n).2 y) 1000
    ((loopAt (F := Ideal) v5 row 0).2 y) rfl (fun n hn => loopAt_succ_snd v5 row n hn y) 1000 (Nat.le_refl _)
  rw [if_pos hT] at h2
  unfold marginRow k1_pay7
  rw [trips_eq]
  simp only [shapeCast_self]
  show max ((loopAt (F := Ideal) v5 row 1000).2 y - (loopAt (F := Ideal) v5 row 1000).1 y) (Ideal.ofBits .f32 0xC1200000#32) = _
  exact congrArg₂ (fun a b => max (a - b) (Ideal.ofBits .f32 0xC1200000#32)) h2 h1

end Cert.Bridge.Kern

end
-- ==== Proof.MarginLayout.lean ====
/-
  The host re-layouts around the margin walk, read at an index.

  The logits [256, 1000] are regrouped as [16, 16, 1000], the last two axes exchanged, and flattened to [16, 16000]:
  entry (g, 16 j + l) of the result is logits[16 g + l, j]. The target words [256, 1] are regrouped as [16, 16]: entry
  (g, l) is t[16 g + l]. The [16, 16] array of margins is flattened to [256]: entry r is the margin at (r / 16, r % 16).
  Each is a chain of reshapes (same row-major position) and one transpose, so each reading is arithmetic on positions.
-/
import proofs.«205080_g78649441125020_cont_9to1_m_374_30_alg».proof.Proof.KVal
import proofs.«205080_g78649441125020_cont_9to1_m_374_30_alg».proof.Proof.MarginKernel
import Idealize.ShloMosaic.Lib.ValueIdx
import Idealize.ShloMosaic.Lib.ValueLayout
import Idealize.ShloMosaic.Lib.Pipeline.Value

noncomputable section

namespace Cert.Bridge.Layout

open Idealize.ShloMosaic Idealize.ShloMosaic.ValueIdx Cert.KernelIdeal Cert.KernelIdeal.Gen Cert.KernelIdeal.KVal

/-- The class-major logits at (g, 16 j + l) are the logits at (16 g + l, j). -/
theorem lgT_apply (lg : Vec Ideal S256x1000 .f32) (g : Fin 16) (j : Fin 1000) (l : Fin 16) (k : S16x16000.Idx)
    (hk0 : (k 0).val = g.val) (hk1 : (k 1).val = 16 * j.val + l.val) :
    lgT (F := Ideal) lg k = lg (ix2 (⟨16 * g.val + l.val, by omega⟩ : Fin 256) j) := by
  unfold lgT
  refine (shapeCast_apply _ shapeCasts_S16x1000x16_S16x16000 k (ix3 g j l) ?_).trans ?_
  · rw [Shape.rowMajor_val_three, Shape.rowMajor_val_two]
    show (g.val * 1000 + j.val) * 16 + l.val = (k 0).val * 16000 + (k 1).val
    omega
  refine (transpose_ix3_021_apply _ transposes_S16x16x1000_S16x1000x16_0_2_1 g j l).trans ?_
  refine shapeCast_apply lg shapeCasts_S256x1000_S16x16x1000 (ix3 g l j) _ ?_
  rw [Shape.rowMajor_val_two, Shape.rowMajor_val_three]
  show (16 * g.val + l.val) * 1000 + j.val = (g.val * 16 + l.val) * 1000 + j.val
  omega

/-- The regrouped target words at (g, l) are the words at row 16 g + l. -/
theorem tgT_apply (t : Vec Ideal S256x1 .i32) (g l : Fin 16) (k : S16x16.Idx)
    (hk0 : (k 0).val = g.val) (hk1 : (k 1).val = l.val) :
    tgT (F := Ideal) t k = t (ix2 (⟨16 * g.val + l.val, by omega⟩ : Fin 256) (0 : Fin 1)) := by
  unfold tgT
  refine (shapeCast_apply _ shapeCasts_S256_S16x16 k (ix1 (⟨16 * g.val + l.val, by omega⟩ : Fin 256)) ?_).trans ?_
  · rw [Shape.rowMajor_val_one, Shape.rowMajor_val_two]
    show 16 * g.val + l.val = (k 0).val * 16 + (k 1).val
    omega
  refine shapeCast_apply t shapeCasts_S256x1_S256 _ _ ?_
  rw [Shape.rowMajor_val_two, Shape.rowMajor_val_one]
  show (16 * g.val + l.val) * 1 + 0 = 16 * g.val + l.val
  omega

/-- The flattened margins at r are the [16, 16] margins at (r / 16, r % 16). -/
theorem flat_apply (M : Vec Ideal S16x16 .f32) (i : S256.Idx) :
    shapeCast S256 M shapeCasts_S16x16_S256 i
      = M (ix2 (⟨(i 0).val / 16, by have h : (i 0).val < 256 := (i 0).isLt; show (i 0).val / 16 < 16; omega⟩ : Fin 16)
            (⟨(i 0).val % 16, Nat.mod_lt _ (by decide)⟩ : Fin 16)) := by
  refine shapeCast_apply M shapeCasts_S16x16_S256 i _ ?_
  rw [Shape.rowMajor_val_two, Shape.rowMajor_val_one]
  show (i 0).val / 16 * 16 + (i 0).val % 16 = (i 0).val
  omega

/-- The sequence of logits lane l of group g sees is row 16 g + l of the logits, class by class. -/
theorem laneSeq_lgT (lg : Vec Ideal S256x1000 .f32) (g l : Fin 16) (y : S16.Idx) (hy : (y 0).val = l.val)
    (j : ℕ) (hj : j < 1000) :
    Kern.laneSeq (lgRow (F := Ideal) (lgT lg) g.val) y j
      = lg (ix2 (⟨16 * g.val + l.val, by omega⟩ : Fin 256) (⟨j, hj⟩ : Fin 1000)) := by
  unfold Kern.laneSeq chunk lgRow
  exact lgT_apply lg g ⟨j, hj⟩ l _ (by show g.val % 16 = g.val; omega)
    (by show (16 * j + (y 0).val) % 16000 = 16 * j + l.val; omega)

/-- The target word lane l of group g holds is the word of row 16 g + l. -/
theorem tgRow_tgT (t : Vec Ideal S256x1 .i32) (g l : Fin 16) (y : S16.Idx) (hy : (y 0).val = l.val) :
    tgRow (F := Ideal) (tgT (F := Ideal) t) g.val y = t (ix2 (⟨16 * g.val + l.val, by omega⟩ : Fin 256) (0 : Fin 1)) := by
  unfold tgRow
  exact tgT_apply t g l _ (by show g.val % 16 = g.val; omega) hy

end Cert.Bridge.Layout

end
-- ==== Proof.LibScatterSet.lean ====
/-
  A "set" scatter read at an index.

  `Host.scatter d (fun _ b => b) x idx upd` folds the updates into the operand in row-major order of the update
  indices; with the body "return the update" a later update to an element simply replaces an earlier one. So the
  result at an operand index `i` is the update at the LAST update index (in row-major order) whose result index is
  `i`, and the operand's own element when no update index lands on `i`. The two theorems below say exactly this,
  for any dimension numbers; they are proved from two facts about a left fold whose step either leaves an element
  alone (a miss) or overwrites it with a value that depends on the step's index only (a hit).
-/
import Mathlib.Data.List.OfFn
import Mathlib.Data.List.FinRange
import Idealize.ShloMosaic.PureOps.ShapeOps

namespace Cert.LibScatterSet

open Idealize.ShloMosaic

/-- A fold all of whose steps miss the element `i` leaves it as it was. -/
theorem foldl_miss {ι κ α : Type*} (step : (κ → α) → ι → κ → α) (P : ι → Prop) (i : κ)
    (hmiss : ∀ r n, ¬ P n → step r n i = r i) :
    ∀ (l : List ι) (x : κ → α), (∀ n ∈ l, ¬ P n) → l.foldl step x i = x i
  | [], _, _ => rfl
  | a :: l, x, h => by
    rw [List.foldl_cons, foldl_miss step P i hmiss l _ fun n hn => h n (List.mem_cons_of_mem _ hn),
      hmiss x a (h a List.mem_cons_self)]

/-- A fold with a hit at `n` and only misses after it ends with the hit's value at `i`. -/
theorem foldl_last_hit {ι κ α : Type*} (step : (κ → α) → ι → κ → α) (P : ι → Prop) (i : κ) (val : ι → α)
    (hmiss : ∀ r n, ¬ P n → step r n i = r i) (hhit : ∀ r n, P n → step r n i = val n)
    (l₁ l₂ : List ι) (n : ι) (x : κ → α) (hn : P n) (hl₂ : ∀ n' ∈ l₂, ¬ P n') :
    (l₁ ++ n :: l₂).foldl step x i = val n := by
  rw [List.foldl_append, List.foldl_cons, foldl_miss step P i hmiss l₂ _ hl₂, hhit _ n hn]

/-- The indices `0, 1, …, N − 1` in order: every index after a given one in the list is larger. -/
theorem finRange_split {N : Nat} (n : Fin N) :
    ∃ l₁ l₂ : List (Fin N), List.finRange N = l₁ ++ n :: l₂ ∧ ∀ n' ∈ l₂, n < n' := by
  obtain ⟨l₁, l₂, h⟩ := List.append_of_mem (List.mem_finRange n)
  refine ⟨l₁, l₂, h, ?_⟩
  have hp : (List.finRange N).Pairwise (· < ·) := by
    rw [← List.ofFn_id]; exact List.pairwise_ofFn.mpr fun i j hij => hij
  rw [h] at hp
  exact fun n' hn' => List.rel_of_pairwise_cons (List.pairwise_append.mp hp).2.1 hn'

variable {s si u : Shape} {w : Nat} {α : Type}

/-- No update index lands on `i`: the operand's element stays. -/
theorem scatter_set_of_none (d : ScatterDims s si u) (x : s.Idx → α) (idx : IVec si w) (upd : u.Idx → α) (i : s.Idx)
    (hnone : ∀ j : u.Idx, d.resultIdx? j idx ≠ some i) :
    Host.scatter d (fun _ b => b) x idx upd i = x i := by
  unfold Host.scatter
  refine foldl_miss _ (fun n => d.resultIdx? (u.rowMajor.symm n) idx = some i) i (fun r n hn => ?_) _ x
    (fun n _ => hnone _)
  dsimp only
  generalize d.resultIdx? (u.rowMajor.symm n) idx = o at hn ⊢
  cases o with
  | none => rfl
  | some k => exact if_neg fun e => hn (by rw [e])

/-- The update index `j` lands on `i` and no later one (in row-major order) does: the result there is `j`'s update. -/
theorem scatter_set_of_last (d : ScatterDims s si u) (x : s.Idx → α) (idx : IVec si w) (upd : u.Idx → α) (i : s.Idx)
    (j : u.Idx) (hj : d.resultIdx? j idx = some i)
    (hlast : ∀ j' : u.Idx, u.rowMajor j < u.rowMajor j' → d.resultIdx? j' idx ≠ some i) :
    Host.scatter d (fun _ b => b) x idx upd i = upd j := by
  unfold Host.scatter
  obtain ⟨l₁, l₂, hl, hgt⟩ := finRange_split (u.rowMajor j)
  rw [hl]
  refine (foldl_last_hit _ (fun n => d.resultIdx? (u.rowMajor.symm n) idx = some i) i
    (fun n => upd (u.rowMajor.symm n)) (fun r n hn => ?_) (fun r n hn => ?_) l₁ l₂ _ x ?_ ?_).trans ?_
  · dsimp only
    generalize d.resultIdx? (u.rowMajor.symm n) idx = o at hn ⊢
    cases o with
    | none => rfl
    | some k => exact if_neg fun e => hn (by rw [e])
  · dsimp only
    rw [hn]
    exact if_pos rfl
  · rw [Equiv.symm_apply_apply]; exact hj
  · intro n' hn'
    have := hlast (u.rowMajor.symm n') (by rw [Equiv.apply_symm_apply]; exact hgt n' hn')
    exact this
  · rw [Equiv.symm_apply_apply]

end Cert.LibScatterSet
-- ==== Proof.MarginRefScatter.lean ====
/-
  The reference's masked logits, read at an index.

  The reference writes −∞ into the logits at the 256 positions (r, t_r) by one scatter whose body returns the update.
  Update r's index pair is (r, t_r); with 0 ≤ t_r ≤ 999 it lies inside the [256, 1000] array, and the pairs of different
  updates differ in their first component. So position (r, k) receives update r's value if k = t_r, and otherwise keeps
  its logit: no two updates meet, and the order of the scatter's fold does not matter.
-/
import proofs.«205080_g78649441125020_cont_9to1_m_374_30_alg».proof.Proof.Gen.ReferenceIdeal
import proofs.«205080_g78649441125020_cont_9to1_m_374_30_alg».proof.Proof.LibScatterSet
import Idealize.ShloMosaic.Lib.ValueIdx

noncomputable section

namespace Cert.Bridge.Ref

open Idealize.ShloMosaic Idealize.ShloMosaic.ValueIdx Cert.ReferenceIdeal Cert.ReferenceIdeal.Gen

/-- Where update r lands: at (r, T r), given that its index pair reads (r, T r) with T r < 1000. -/
theorem resultIdx_eq (ind : IVec S256x2 32) (T : Fin 256 → ℕ) (hT : ∀ r, T r < 1000)
    (h0 : ∀ r : Fin 256, (ind (ix2 r (0 : Fin 2))).toInt = (r.val : Int))
    (h1 : ∀ r : Fin 256, (ind (ix2 r (1 : Fin 2))).toInt = (T r : Int)) (r : Fin 256) :
    scatter_S256x1000_S256x2_S256_n_01_01_1.resultIdx? (ix1 r) ind = some (ix2 r (⟨T r, hT r⟩ : Fin 1000)) := by
  have hw : ∀ a, scatter_S256x1000_S256x2_S256_n_01_01_1.window (ix1 r) a = 0 := by
    intro a
    unfold ScatterDims.window
    exact dif_neg (by revert a; decide)
  have hs0 : scatter_S256x1000_S256x2_S256_n_01_01_1.start (ix1 r) ind 0 = (r.val : Int) := by
    unfold ScatterDims.start
    rw [dif_pos (show (0 : Fin 2) ∈ scatter_S256x1000_S256x2_S256_n_01_01_1.scatterDimsToOperandDims by decide)]
    have hsi : scatter_S256x1000_S256x2_S256_n_01_01_1.siIdx (ix1 r)
        ⟨List.idxOf (0 : Fin 2) scatter_S256x1000_S256x2_S256_n_01_01_1.scatterDimsToOperandDims,
          List.idxOf_lt_length_iff.2 (by decide)⟩ = ix2 r (0 : Fin 2) := by
      funext b; refine Fin.ext ?_
      match b with
      | ⟨0, _⟩ => rfl
      | ⟨1, _⟩ => rfl
    rw [hsi]; exact h0 r
  have hs1 : scatter_S256x1000_S256x2_S256_n_01_01_1.start (ix1 r) ind 1 = (T r : Int) := by
    unfold ScatterDims.start
    rw [dif_pos (show (1 : Fin 2) ∈ scatter_S256x1000_S256x2_S256_n_01_01_1.scatterDimsToOperandDims by decide)]
    have hsi : scatter_S256x1000_S256x2_S256_n_01_01_1.siIdx (ix1 r)
        ⟨List.idxOf (1 : Fin 2) scatter_S256x1000_S256x2_S256_n_01_01_1.scatterDimsToOperandDims,
          List.idxOf_lt_length_iff.2 (by decide)⟩ = ix2 r (1 : Fin 2) := by
      funext b; refine Fin.ext ?_
      match b with
      | ⟨0, _⟩ => rfl
      | ⟨1, _⟩ => rfl
    rw [hsi]; exact h1 r
  have hin : ∀ a, 0 ≤ scatter_S256x1000_S256x2_S256_n_01_01_1.start (ix1 r) ind a
        + scatter_S256x1000_S256x2_S256_n_01_01_1.window (ix1 r) a
      ∧ scatter_S256x1000_S256x2_S256_n_01_01_1.start (ix1 r) ind a
        + scatter_S256x1000_S256x2_S256_n_01_01_1.window (ix1 r) a < S256x1000.size a := by
    intro a
    match a with
    | ⟨0, _⟩ =>
      have := r.isLt
      show (0 : Int) ≤ scatter_S256x1000_S256x2_S256_n_01_01_1.start (ix1 r) ind 0
            + ((scatter_S256x1000_S256x2_S256_n_01_01_1.window (ix1 r) 0 : ℕ) : Int)
          ∧ scatter_S256x1000_S256x2_S256_n_01_01_1.start (ix1 r) ind 0
            + ((scatter_S256x1000_S256x2_S256_n_01_01_1.window (ix1 r) 0 : ℕ) : Int) < ((256 : ℕ) : Int)
      rw [hw, hs0]
      omega
    | ⟨1, _⟩ =>
      have := hT r
      show (0 : Int) ≤ scatter_S256x1000_S256x2_S256_n_01_01_1.start (ix1 r) ind 1
            + ((scatter_S256x1000_S256x2_S256_n_01_01_1.window (ix1 r) 1 : ℕ) : Int)
          ∧ scatter_S256x1000_S256x2_S256_n_01_01_1.start (ix1 r) ind 1
            + ((scatter_S256x1000_S256x2_S256_n_01_01_1.window (ix1 r) 1 : ℕ) : Int) < ((1000 : ℕ) : Int)
      rw [hw, hs1]
      omega
  unfold ScatterDims.resultIdx?
  rw [dif_pos hin]
  refine congrArg some (funext fun a => Fin.ext ?_)
  match a with
  | ⟨0, _⟩ =>
    show (scatter_S256x1000_S256x2_S256_n_01_01_1.start (ix1 r) ind 0
      + scatter_S256x1000_S256x2_S256_n_01_01_1.window (ix1 r) 0).toNat = r.val
    rw [hw, hs0]; omega
  | ⟨1, _⟩ =>
    show (scatter_S256x1000_S256x2_S256_n_01_01_1.start (ix1 r) ind 1
      + scatter_S256x1000_S256x2_S256_n_01_01_1.window (ix1 r) 1).toNat = T r
    rw [hw, hs1]; omega

/-- THE MASKED LOGITS AT (r, k): update r's value at k = T r, the logit elsewhere. -/
theorem scatter_apply {α : Type} (lg : S256x1000.Idx → α) (ind : IVec S256x2 32) (upd : S256.Idx → α)
    (T : Fin 256 → ℕ) (hT : ∀ r, T r < 1000)
    (h0 : ∀ r : Fin 256, (ind (ix2 r (0 : Fin 2))).toInt = (r.val : Int))
    (h1 : ∀ r : Fin 256, (ind (ix2 r (1 : Fin 2))).toInt = (T r : Int)) (r : Fin 256) (k : Fin 1000) :
    Host.scatter scatter_S256x1000_S256x2_S256_n_01_01_1 (fun _ b => b) lg ind upd (ix2 r k)
      = if k.val = T r then upd (ix1 r) else lg (ix2 r k) := by
  have hres : ∀ j : S256.Idx, scatter_S256x1000_S256x2_S256_n_01_01_1.resultIdx? j ind
      = some (ix2 (j 0) (⟨T (j 0), hT (j 0)⟩ : Fin 1000)) := by
    intro j
    exact (congrArg (fun x => scatter_S256x1000_S256x2_S256_n_01_01_1.resultIdx? x ind) (eq_ix1 j)).trans
      (resultIdx_eq ind T hT h0 h1 (j 0))
  by_cases hk : k.val = T r
  · rw [if_pos hk]
    refine Cert.LibScatterSet.scatter_set_of_last _ lg ind upd (ix2 r k) (ix1 r) ?_ ?_
    · rw [resultIdx_eq ind T hT h0 h1 r]
      exact congrArg some (congrArg (ix2 r) (Fin.ext hk.symm))
    · intro j' hlt he
      rw [hres j'] at he
      have e0 : (j' 0) = r := congrFun (Option.some.inj he) (0 : Fin 2)
      rw [Fin.lt_def, Shape.rowMajor_val_one, Shape.rowMajor_val_one] at hlt
      have : (j' 0).val = r.val := congrArg Fin.val e0
      exact absurd hlt (by show ¬ (r.val < (j' 0).val); omega)
  · rw [if_neg hk]
    refine Cert.LibScatterSet.scatter_set_of_none _ lg ind upd (ix2 r k) fun j he => ?_
    rw [hres j] at he
    have e0 : (j 0) = r := congrFun (Option.some.inj he) (0 : Fin 2)
    have e1 : (⟨T (j 0), hT (j 0)⟩ : Fin 1000) = k := congrFun (Option.some.inj he) (1 : Fin 2)
    rw [e0] at e1
    exact hk (congrArg Fin.val e1).symm

end Cert.Bridge.Ref

end
-- ==== Proof.MarginRefGather.lean ====
/-
  The reference's true-class logit, read at an index.

  The reference reads logits[r, t_r] by a gather batched over the rows: result (r, 0) is the operand at row r and at
  the column its start index names, read signed and clamped into [0, 999]. A validity mask — 0 ≤ index ≤ 999, reduced
  by `and` over a unit axis — selects between the gathered value and a fill; with every index in range the mask is 1
  everywhere and the fill is never selected. Negative-index wrapping (add the extent where the word is negative) is the
  identity on words that read nonnegative.
-/
import proofs.«205080_g78649441125020_cont_9to1_m_374_30_alg».proof.Proof.Gen.ReferenceIdeal
import Idealize.ShloMosaic.Lib.ValueIdx
import Idealize.ShloMosaic.Lib.Affine
import Idealize.ShloMosaic.Lib.Pipeline.Value
import Idealize.ShloMosaic.PureOps.Reduce

noncomputable section

namespace Cert.Bridge.Ref

open Idealize.ShloMosaic Idealize.ShloMosaic.ValueIdx Cert.ReferenceIdeal Cert.ReferenceIdeal.Gen

/-! ## Words -/

/-- Wrapping a word that reads nonnegative leaves it alone. -/
theorem wrap_word (w c : BitVec 32) (h0 : 0 ≤ w.toInt) :
    Scalar.select (IntOp.cmpi .slt w 0#32) (IntOp.addi w c) w = w := by
  have hn : ¬ IntOp.cmpi .slt w 0#32 = 1#1 := by
    rw [IntOp.cmpi_slt, show (0#32 : BitVec 32).toInt = 0 from by decide]
    omega
  rw [eq_zero_of_ne_one hn]
  exact select_zero _ _

/-- A word that reads in [0, 999] reads the same signed and unsigned. -/
theorem toInt_eq_toNat (w : BitVec 32) (h0 : 0 ≤ w.toInt) : w.toInt = (w.toNat : Int) := by
  have h := w.isLt
  unfold BitVec.toInt at h0 ⊢
  split at h0 <;> split <;> omega

/-- The word k, for k < 256, reads k. -/
theorem toInt_ofNat_small (k : ℕ) (hk : k < 256) : (BitVec.ofNat 32 k).toInt = (k : Int) := by
  rw [BitVec.toInt_ofNat']
  exact Int.bmod_eq_of_le (by omega) (by omega)

/-! ## An all-ones mask -/

/-- A left fold of `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  exact foldl_andi_ones x _ fun n _ => hx n

/-! ## The batched gather -/

/-- THE GATHER READ AT (r, u): row r of the operand at the start index idx[r, u, 0], read signed and clamped into
    [0, 999]. -/
theorem gather_apply {α : Type} (lg : S256x1000.Idx → α) (idx3 : IVec S256x1x1 32) (r : Fin 256) (u : Fin 1) :
    Host.gather gather_S256x1000_S256x1x1_S256x1_n_1_0_0_1_2_11 lg idx3 (ix2 r u)
      = lg (ix2 r (⟨min (idx3 (ix3 r u (0 : Fin 1))).toInt.toNat (1000 - 1), by omega⟩ : Fin 1000)) := by
  unfold Host.gather
  refine congrArg lg (funext fun a => Fin.ext ?_)
  match a with
  | ⟨0, _⟩ =>
    show gather_S256x1000_S256x1x1_S256x1_n_1_0_0_1_2_11.start (ix2 r u) idx3 0
      + gather_S256x1000_S256x1x1_S256x1_n_1_0_0_1_2_11.batchCoord (ix2 r u) 0
      + gather_S256x1000_S256x1x1_S256x1_n_1_0_0_1_2_11.offCoord (ix2 r u) 0 = r.val
    have hst : gather_S256x1000_S256x1x1_S256x1_n_1_0_0_1_2_11.start (ix2 r u) idx3 0 = 0 :=
      GatherDims.start_batching _ _ _ 0 (by decide)
    have hof : gather_S256x1000_S256x1x1_S256x1_n_1_0_0_1_2_11.offCoord (ix2 r u) 0 = 0 :=
      GatherDims.offCoord_eq_zero _ _ 0 (by decide)
    have hb : gather_S256x1000_S256x1x1_S256x1_n_1_0_0_1_2_11.batchCoord (ix2 r u) 0 = r.val := by
      unfold GatherDims.batchCoord
      rw [dif_pos (show (0 : Fin 2) ∈ gather_S256x1000_S256x1x1_S256x1_n_1_0_0_1_2_11.operandBatchingDims by decide)]
      rfl
    rw [hst, hof, hb]; omega
  | ⟨1, _⟩ =>
    show gather_S256x1000_S256x1x1_S256x1_n_1_0_0_1_2_11.start (ix2 r u) idx3 1
      + gather_S256x1000_S256x1x1_S256x1_n_1_0_0_1_2_11.batchCoord (ix2 r u) 1
      + gather_S256x1000_S256x1x1_S256x1_n_1_0_0_1_2_11.offCoord (ix2 r u) 1 = _
    rw [GatherDims.batchCoord_eq_zero _ _ 1 (by decide), GatherDims.offCoord_eq_zero _ _ 1 (by decide)]
    simp only [Nat.add_zero]
    unfold GatherDims.start
    rw [dif_pos (show (1 : Fin 2) ∈ gather_S256x1000_S256x1x1_S256x1_n_1_0_0_1_2_11.startIndexMap by decide)]
    have hsi : gather_S256x1000_S256x1x1_S256x1_n_1_0_0_1_2_11.siIdx (ix2 r u)
        ⟨List.idxOf (1 : Fin 2) gather_S256x1000_S256x1x1_S256x1_n_1_0_0_1_2_11.startIndexMap,
          List.idxOf_lt_length_iff.2 (by decide)⟩ = ix3 r u (0 : Fin 1) := by
      funext b; refine Fin.ext ?_
      match b with
      | ⟨0, _⟩ => rfl
      | ⟨1, _⟩ => rfl
      | ⟨2, _⟩ => rfl
    rw [hsi]
    rfl

end Cert.Bridge.Ref

end
-- ==== Proof.LibGatherPair.lean ====
/-
  GATHERS WHOSE START INDEX NAMES WHOLE AXES, READ AT AN INDEX — general lemmas, no program imported.

  `stablehlo.gather` (PureOps/ShapeOps.lean `Host.gather`) reads each result element from the operand at the index whose
  coordinate on every axis is the start index's component for that axis — read off the start-indices array as a signed
  integer and clamped so that the slice fits — plus the result's offset coordinate on the axes that are not collapsed.
  Three patterns of dimension numbers, each with the start indices' last axis the index vector (`index_vector_dim = 1`):
  • ROWS of a matrix, `x[idx]` along axis 0 (`rowsDims`, `gather_rows_apply`): operand `[N, K]`, start indices `[R, 1]`,
    result `[R, K]`; result `(r, k)` is the operand at `(clamp idx[r, 0], k)`.
  • PAIRS out of a stack of matrices, `x[:, i, j]` (`stackPairDims`, `gather_stackPair_apply`): operand `[K, N, M]`,
    start indices `[R, 2]`, result `[K, R]`; result `(k, r)` is the operand at `(k, clamp idx[r, 0], clamp idx[r, 1])`.
  • PAIRS out of one matrix, `x[i, j]` (`pairDims`, `gather_pair_apply`): operand `[N, M]`, start indices `[R, 2]`,
    result `[R]`; result `r` is the operand at `(clamp idx[r, 0], clamp idx[r, 1])`.
  `clamp` on an axis of extent `N` is `min (·).toInt.toNat (N - 1)`: a negative start reads position 0, one past the
  end the last position — no range hypothesis on the indices is needed.
  And the usual form of such start indices: two index vectors made columns (`broadcast_in_dim` to
  `[R, 1]`) and set side by side (`concatenate` along axis 1) read back as the two vectors (`cols_apply_zero`,
  `cols_apply_one`), one column alone as its vector (`col_apply`).
-/
import Idealize.ShloMosaic.Lib.ValueIdx
import Idealize.ShloMosaic.Lib.Pipeline.Value

noncomputable section

namespace GatherPair

open Idealize.ShloMosaic Idealize.ShloMosaic.ValueIdx

variable {α : Type}

/-! ## Rows of a matrix -/

/-- The dimension numbers of `x[idx]` along axis 0 of a matrix. -/
abbrev rowsDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand's row at the start index `idx[r, 0]`, read signed and clamped into
    `[0, N - 1]`, at column `k`. -/
theorem gather_rows_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowsDims N K R wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowsDims N K R wf).start (ix2 r k) idx 0 + (rowsDims N K R wf).batchCoord (ix2 r k) 0
      + (rowsDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R wf).startIndexMap from List.mem_singleton.mpr rfl)]
    have hsi : (rowsDims N K R wf).siIdx (ix2 r k) ⟨List.idxOf (0 : Fin 2) (rowsDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N K R wf).start (ix2 r k) idx 1 + (rowsDims N K R wf).batchCoord (ix2 r k) 1
      + (rowsDims N K R wf).offCoord (ix2 r k) 1 = k.val
    have h10 : (1 : Fin 2) ∉ ([0] : List (Fin 2)) := by decide
    rw [GatherDims.batchCoord_eq_zero _ _ _ List.not_mem_nil]
    have hst : (rowsDims N K R wf).start (ix2 r k) idx 1 = 0 := by
      unfold GatherDims.start; rw [dif_neg h10]
    have hof : (rowsDims N K R wf).offCoord (ix2 r k) 1 = k.val := by
      unfold GatherDims.offCoord
      rw [dif_pos ((GatherDims.mem_sKept _ _).mpr ⟨h10, List.not_mem_nil⟩)]
      rfl
    rw [hst, hof]; omega

/-! ## Pairs out of a stack of matrices -/

/-- The dimension numbers of `x[:, i, j]` for a stack `x : [K, N, M]` and index pairs `[R, 2]`. -/
abbrev stackPairDims (K N M R : Nat)
    (wf : GatherDims.WF ⟨3, ![K, N, M]⟩ ⟨2, ![R, 2]⟩ ⟨2, ![K, R]⟩ [0] [1, 2] [] [1, 2] [] 1 ![K, 1, 1]) :
    GatherDims ⟨3, ![K, N, M]⟩ ⟨2, ![R, 2]⟩ ⟨2, ![K, R]⟩ where
  offsetDims := [0]
  collapsedSliceDims := [1, 2]
  operandBatchingDims := []
  startIndicesBatchingDims := []
  startIndexMap := [1, 2]
  indexVectorDim := 1
  sliceSizes := ![K, 1, 1]
  wf := wf

/-- THE STACK-PAIR GATHER READ AT `(k, r)`: matrix `k` of the stack at the start index `(idx[r, 0], idx[r, 1])`, each
    component read signed and clamped into its axis. -/
theorem gather_stackPair_apply {K N M R w : Nat} (hN : 0 < N) (hM : 0 < M)
    (wf : GatherDims.WF ⟨3, ![K, N, M]⟩ ⟨2, ![R, 2]⟩ ⟨2, ![K, R]⟩ [0] [1, 2] [] [1, 2] [] 1 ![K, 1, 1])
    (x : (⟨3, ![K, N, M]⟩ : Shape).Idx → α) (idx : IVec ⟨2, ![R, 2]⟩ w) (k : Fin K) (r : Fin R) :
    Host.gather (stackPairDims K N M R wf) x idx (ix2 k r)
      = x (ix3 k ⟨min (idx (ix2 r (0 : Fin 2))).toInt.toNat (N - 1), by omega⟩
            ⟨min (idx (ix2 r (1 : Fin 2))).toInt.toNat (M - 1), by omega⟩) := by
  unfold Host.gather
  congr 1
  funext a
  refine Fin.ext ?_
  have h0 : (0 : Fin 3) ∉ ([1, 2] : List (Fin 3)) := by decide
  have h1 : (1 : Fin 3) ∈ ([1, 2] : List (Fin 3)) := by decide
  have h2 : (2 : Fin 3) ∈ ([1, 2] : List (Fin 3)) := by decide
  match a with
  | ⟨0, _⟩ =>
    show (stackPairDims K N M R wf).start (ix2 k r) idx 0 + (stackPairDims K N M R wf).batchCoord (ix2 k r) 0
      + (stackPairDims K N M R wf).offCoord (ix2 k r) 0 = k.val
    rw [GatherDims.batchCoord_eq_zero _ _ _ List.not_mem_nil]
    have hst : (stackPairDims K N M R wf).start (ix2 k r) idx 0 = 0 := by
      unfold GatherDims.start; rw [dif_neg h0]
    have hof : (stackPairDims K N M R wf).offCoord (ix2 k r) 0 = k.val := by
      unfold GatherDims.offCoord
      rw [dif_pos ((GatherDims.mem_sKept _ _).mpr ⟨h0, List.not_mem_nil⟩)]
      rfl
    rw [hst, hof]; omega
  | ⟨1, _⟩ =>
    show (stackPairDims K N M R wf).start (ix2 k r) idx 1 + (stackPairDims K N M R wf).batchCoord (ix2 k r) 1
      + (stackPairDims K N M R wf).offCoord (ix2 k r) 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 3) ∈ (stackPairDims K N M R wf).startIndexMap from h1)]
    have hsi : (stackPairDims K N M R wf).siIdx (ix2 k r) ⟨List.idxOf (1 : Fin 3) (stackPairDims K N M R wf).startIndexMap,
        List.idxOf_lt_length_iff.2 h1⟩ = ix2 r (0 : Fin 2) := by
      funext b; refine Fin.ext ?_
      match b with
      | ⟨0, _⟩ => rfl
      | ⟨1, _⟩ => rfl
    rw [hsi]
    rfl
  | ⟨2, _⟩ =>
    show (stackPairDims K N M R wf).start (ix2 k r) idx 2 + (stackPairDims K N M R wf).batchCoord (ix2 k r) 2
      + (stackPairDims K N M R wf).offCoord (ix2 k r) 2 = _
    rw [GatherDims.batchCoord_eq_zero _ _ _ List.not_mem_nil,
      GatherDims.offCoord_eq_zero _ _ _ (fun h => ((GatherDims.mem_sKept _ _).mp h).1 h2)]
    simp only [Nat.add_zero]
    unfold GatherDims.start
    rw [dif_pos (show (2 : Fin 3) ∈ (stackPairDims K N M R wf).startIndexMap from h2)]
    have hsi : (stackPairDims K N M R wf).siIdx (ix2 k r) ⟨List.idxOf (2 : Fin 3) (stackPairDims K N M R wf).startIndexMap,
        List.idxOf_lt_length_iff.2 h2⟩ = ix2 r (1 : Fin 2) := by
      funext b; refine Fin.ext ?_
      match b with
      | ⟨0, _⟩ => rfl
      | ⟨1, _⟩ => rfl
    rw [hsi]
    rfl

/-! ## Pairs out of one matrix -/

/-- The dimension numbers of `x[i, j]` for a matrix `x : [N, M]` and index pairs `[R, 2]`. -/
abbrev pairDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE PAIR GATHER READ AT `r`: the matrix at the start index `(idx[r, 0], idx[r, 1])`, each component read signed and
    clamped into its axis. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 ⟨min (idx (ix2 r (0 : Fin 2))).toInt.toNat (N - 1), by omega⟩
            ⟨min (idx (ix2 r (1 : Fin 2))).toInt.toNat (M - 1), by omega⟩) := by
  unfold Host.gather
  congr 1
  funext a
  refine Fin.ext ?_
  have h0 : (0 : Fin 2) ∈ ([0, 1] : List (Fin 2)) := by decide
  have h1 : (1 : Fin 2) ∈ ([0, 1] : List (Fin 2)) := by decide
  match a with
  | ⟨0, _⟩ =>
    show (pairDims N M R wf).start (ix1 r) idx 0 + (pairDims N M R wf).batchCoord (ix1 r) 0
      + (pairDims N M R wf).offCoord (ix1 r) 0 = _
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos (show (0 : Fin 2) ∈ (pairDims N M R wf).startIndexMap from h0)]
    have hsi : (pairDims N M R wf).siIdx (ix1 r) ⟨List.idxOf (0 : Fin 2) (pairDims N M R wf).startIndexMap,
        List.idxOf_lt_length_iff.2 h0⟩ = ix2 r (0 : Fin 2) := by
      funext b; refine Fin.ext ?_
      match b with
      | ⟨0, _⟩ => rfl
      | ⟨1, _⟩ => rfl
    rw [hsi]
    rfl
  | ⟨1, _⟩ =>
    show (pairDims N M R wf).start (ix1 r) idx 1 + (pairDims N M R wf).batchCoord (ix1 r) 1
      + (pairDims N M R wf).offCoord (ix1 r) 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 2) ∈ (pairDims N M R wf).startIndexMap from h1)]
    have hsi : (pairDims N M R wf).siIdx (ix1 r) ⟨List.idxOf (1 : Fin 2) (pairDims N M R wf).startIndexMap,
        List.idxOf_lt_length_iff.2 h1⟩ = ix2 r (1 : Fin 2) := by
      funext b; refine Fin.ext ?_
      match b with
      | ⟨0, _⟩ => rfl
      | ⟨1, _⟩ => rfl
    rw [hsi]
    rfl

/-! ## Index vectors as columns, side by side -/

/-- An index vector made a column (`broadcast_in_dim` `[R] → [R, 1]` along axis 0) reads, at `(r, u)`, the vector at `r`. -/
theorem col_apply {R : Nat} (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- Two columns side by side (`concatenate` along axis 1) read, at `(r, 0)`, the first column at `(r, 0)`. -/
theorem cols_apply_zero {R : Nat} (A B : (⟨2, ![R, 1]⟩ : Shape).Idx → α)
    (h : Shape.Concatenates [(⟨2, ![R, 1]⟩ : Shape), ⟨2, ![R, 1]⟩] ⟨2, ![R, 2]⟩ 1) (r : Fin R) :
    concatenate ⟨2, ![R, 2]⟩ 1 [⟨⟨2, ![R, 1]⟩, A⟩, ⟨⟨2, ![R, 1]⟩, B⟩] h (ix2 r (0 : Fin 2)) = A (ix2 r (0 : Fin 1)) :=
  concatenate_pair_apply_left 1 A B h (ix2 r (0 : Fin 2)) rfl (ix2 r (0 : Fin 1)) fun b =>
    match b with | ⟨0, _⟩ => rfl | ⟨1, _⟩ => rfl

/-- … and, at `(r, 1)`, the second column at `(r, 0)`. -/
theorem cols_apply_one {R : Nat} (A B : (⟨2, ![R, 1]⟩ : Shape).Idx → α)
    (h : Shape.Concatenates [(⟨2, ![R, 1]⟩ : Shape), ⟨2, ![R, 1]⟩] ⟨2, ![R, 2]⟩ 1) (r : Fin R) :
    concatenate ⟨2, ![R, 2]⟩ 1 [⟨⟨2, ![R, 1]⟩, A⟩, ⟨⟨2, ![R, 1]⟩, B⟩] h (ix2 r (1 : Fin 2)) = B (ix2 r (0 : Fin 1)) :=
  concatenate_pair_apply_right 1 A B h (ix2 r (1 : Fin 2)) rfl rfl (ix2 r (0 : Fin 1))
    (fun b hb => match b, hb with | ⟨0, _⟩, _ => rfl | ⟨1, _⟩, hb => absurd rfl hb) rfl

end GatherPair

end
-- ==== Proof.MarginRef.lean ====
/-
  The reference's 256 margins, read at a row.

  Under 0 ≤ t_r ≤ 999 every negative-index wrap is the identity, so the index arrays are the words themselves; the
  gather then reads logits[r, t_r] (its validity mask all ones), the scatter writes −∞ = ⊥ at (r, t_r) and nowhere else
  in row r, and the row maximum from ⊥ is a fold of max over the 1000 classes of the masked row, that is, the supremum
  of the row's logits over the classes other than t_r. The margin at row r is max (logits[r, t_r] − that supremum, −10), with the same subtraction, the same maximum and the same word for −10 as the
  program states.
-/
import proofs.«205080_g78649441125020_cont_9to1_m_374_30_alg».proof.Proof.RefParts
import proofs.«205080_g78649441125020_cont_9to1_m_374_30_alg».proof.Proof.MarginRefScatter
import proofs.«205080_g78649441125020_cont_9to1_m_374_30_alg».proof.Proof.MarginRefGather
import proofs.«205080_g78649441125020_cont_9to1_m_374_30_alg».proof.Proof.LibGatherPair
import proofs.«205080_g78649441125020_cont_9to1_m_374_30_alg».proof.Proof.MarginFold
import Idealize.ShloMosaic.PureOps.Ideal.Laws

noncomputable section

namespace Cert.Bridge.Ref

open Idealize.ShloMosaic Idealize.ShloMosaic.ValueIdx Cert.ReferenceIdeal Cert.ReferenceIdeal.Gen

/-- The word 0xFF800000 denotes −∞, the bottom element. -/
theorem negInf : Ideal.ofBits .f32 0xFF800000#32 = ⊥ := by simp [Ideal.ofBits, Ideal.ieee]

/-! ## The index arrays -/

/-- The words flattened to [256]: entry r is the word of row r. -/
theorem flatWords_apply (t : Vec Ideal S256x1 .i32) (r : Fin 256) :
    shapeCast S256 t shapeCasts_S256x1_S256 (ix1 r) = t (ix2 r (0 : Fin 1)) := by
  refine shapeCast_apply t shapeCasts_S256x1_S256 _ _ ?_
  rw [Shape.rowMajor_val_two, Shape.rowMajor_val_one]
  show r.val * 1 + 0 = r.val
  omega

/-- The flattened words made a column again are the words. -/
theorem colWords_eq (t : Vec Ideal S256x1 .i32) :
    broadcastInDim S256x1 ![0] bcast_S256_S256x1_0 (shapeCast S256 t shapeCasts_S256x1_S256) = t := by
  funext j
  obtain ⟨r, u, rfl⟩ : ∃ (r : Fin 256) (u : Fin 1), j = ix2 r u := ⟨j 0, j 1, eq_ix2 j⟩
  refine (GatherPair.col_apply _ bcast_S256_S256x1_0 r u).trans ((flatWords_apply t r).trans ?_)
  exact congrArg t (congrArg (ix2 r) (Subsingleton.elim _ _))

/-- Wrapping the column of words is the identity when every word reads nonnegative. -/
theorem wrapCol_eq (t : Vec Ideal S256x1 .i32) (ht : ∀ i, 0 ≤ (t i).toInt ∧ (t i).toInt ≤ 999) :
    select (cmpi .slt (broadcastInDim S256x1 ![0] bcast_S256_S256x1_0 (shapeCast S256 t shapeCasts_S256x1_S256))
        (broadcastInDim S256x1 ![] bcast_S_S256x1 (constantI S_ 32 0#32)))
      (addi (broadcastInDim S256x1 ![0] bcast_S256_S256x1_0 (shapeCast S256 t shapeCasts_S256x1_S256))
        (broadcastInDim S256x1 ![] bcast_S_S256x1 (constantI S_ 32 1000#32)))
      (broadcastInDim S256x1 ![0] bcast_S256_S256x1_0 (shapeCast S256 t shapeCasts_S256x1_S256)) = t := by
  rw [colWords_eq]
  funext j
  exact wrap_word (t j) 1000#32 (ht j).1

/-- Wrapping the flattened words likewise. -/
theorem wrapFlat_eq (t : Vec Ideal S256x1 .i32) (ht : ∀ i, 0 ≤ (t i).toInt ∧ (t i).toInt ≤ 999) :
    select (cmpi .slt (shapeCast S256 t shapeCasts_S256x1_S256) (broadcastInDim S256 ![] bcast_S_S256 (constantI S_ 32 0#32)))
      (addi (shapeCast S256 t shapeCasts_S256x1_S256) (broadcastInDim S256 ![] bcast_S_S256 (constantI S_ 32 1000#32)))
      (shapeCast S256 t shapeCasts_S256x1_S256) = shapeCast S256 t shapeCasts_S256x1_S256 := by
  funext j
  refine wrap_word _ 1000#32 ?_
  unfold shapeCast
  exact (ht _).1

/-- Wrapping the row numbers 0 … 255 likewise. -/
theorem wrapIota_eq :
    select (cmpi .slt (iotaInDim S256 32 0) (broadcastInDim S256 ![] bcast_S_S256 (constantI S_ 32 0#32)))
      (addi (iotaInDim S256 32 0) (broadcastInDim S256 ![] bcast_S_S256 (constantI S_ 32 256#32)))
      (iotaInDim S256 32 0) = iotaInDim S256 32 0 := by
  funext j
  refine wrap_word _ 256#32 ?_
  have h : (j 0).val < 256 := (j 0).isLt
  show 0 ≤ (BitVec.ofNat 32 (j 0).val).toInt
  rw [toInt_ofNat_small _ h]
  omega

/-- The words as a [256, 1, 1] array: entry (r, 0, 0) is the word of row r. -/
theorem cubeWords_apply (t : Vec Ideal S256x1 .i32) (r : Fin 256) :
    shapeCast S256x1x1 t shapeCasts_S256x1_S256x1x1 (ix3 r (0 : Fin 1) (0 : Fin 1)) = t (ix2 r (0 : Fin 1)) := by
  refine shapeCast_apply t shapeCasts_S256x1_S256x1x1 _ _ ?_
  rw [Shape.rowMajor_val_two, Shape.rowMajor_val_three]
  show r.val * 1 + 0 = (r.val * 1 + 0) * 1 + 0
  omega

/-! ## The true-class logit -/

theorem select_of_one {α : Type} (c : BitVec 1) (a b : α) (h : c = 1#1) : Scalar.select c a b = a := by
  rw [h]; exact select_one a b

/-- Row r's true-class logit, as the reference's gather, mask and select state it. -/
theorem trueLogit_apply (lg : Vec Ideal S256x1000 .f32) (t : Vec Ideal S256x1 .i32)
    (ht : ∀ i, 0 ≤ (t i).toInt ∧ (t i).toInt ≤ 999) (r : Fin 256) (hT : (t (ix2 r (0 : Fin 1))).toNat < 1000) :
    shapeCast S256 (select (Host.reduce IntOp.andi (andi (cmpi .sge (shapeCast S256x1x1 t shapeCasts_S256x1_S256x1x1)
          (broadcastInDim S256x1x1 ![] bcast_S_S256x1x1 (constantI S_ 32 0#32)))
        (cmpi .sle (shapeCast S256x1x1 t shapeCasts_S256x1_S256x1x1)
          (broadcastInDim S256x1x1 ![0, 1, 2] bcast_S1x1x1_S256x1x1_0_1_2 (broadcastInDim S1x1x1 ![2] bcast_S1_S1x1x1_2 (constantI S1 32 999#32)))))
        (constantI S_ 1 1#1) reducesTo_S256x1x1_S256x1_d2 h_S_)
      (Host.gather gather_S256x1000_S256x1x1_S256x1_n_1_0_0_1_2_11 lg (shapeCast S256x1x1 t shapeCasts_S256x1_S256x1x1))
      (broadcastInDim S256x1 ![] bcast_S_S256x1 (constant (F := Ideal) S_ .f32 0x7FC00000#32))) shapeCasts_S256x1_S256 (ix1 r)
      = lg (ix2 r (⟨(t (ix2 r (0 : Fin 1))).toNat, hT⟩ : Fin 1000)) := by
  refine (shapeCast_apply _ shapeCasts_S256x1_S256 (ix1 r) (ix2 r (0 : Fin 1)) ?_).trans ?_
  · rw [Shape.rowMajor_val_two, Shape.rowMajor_val_one]
    show r.val * 1 + 0 = r.val
    omega
  rw [select_apply]
  refine (select_of_one _ _ _ (reduce_andi_ones _ _ _ _ _ (fun j => ?_) (fun _ => rfl))).trans ?_
  · show IntOp.andi (IntOp.cmpi .sge (shapeCast S256x1x1 t shapeCasts_S256x1_S256x1x1 j) 0#32)
        (IntOp.cmpi .sle (shapeCast S256x1x1 t shapeCasts_S256x1_S256x1x1 j) 999#32) = 1#1
    rw [IntOp.andi_eq_one, IntOp.cmpi_sge, IntOp.cmpi_sle, show (0#32 : BitVec 32).toInt = 0 from by decide,
      show (999#32 : BitVec 32).toInt = 999 from by decide]
    unfold shapeCast
    exact ht _
  refine (gather_apply lg _ r (0 : Fin 1)).trans (congrArg lg (congrArg (ix2 r) (Fin.ext ?_)))
  show min (shapeCast S256x1x1 t shapeCasts_S256x1_S256x1x1 (ix3 r (0 : Fin 1) (0 : Fin 1))).toInt.toNat (1000 - 1)
    = (t (ix2 r (0 : Fin 1))).toNat
  rw [cubeWords_apply, toInt_eq_toNat _ (ht _).1, Int.toNat_natCast]
  omega

/-! ## The row maximum of the masked logits -/

/-- The first column of the scatter's index pairs reads the row number. -/
theorem pairs_zero (t : Vec Ideal S256x1 .i32) (r : Fin 256) :
    (concatenate S256x2 1 [⟨S256x1, broadcastInDim S256x1 ![0] bcast_S256_S256x1_0 (iotaInDim S256 32 0)⟩,
        ⟨S256x1, broadcastInDim S256x1 ![0] bcast_S256_S256x1_0 (shapeCast S256 t shapeCasts_S256x1_S256)⟩]
      concatenates_S256x1_S256x1_S256x2_d1 (ix2 r (0 : Fin 2))).toInt = (r.val : Int) := by
  rw [GatherPair.cols_apply_zero, GatherPair.col_apply]
  show (BitVec.ofNat 32 r.val).toInt = _
  exact toInt_ofNat_small _ r.isLt

/-- The second column reads the row's target word. -/
theorem pairs_one (t : Vec Ideal S256x1 .i32) (ht : ∀ i, 0 ≤ (t i).toInt ∧ (t i).toInt ≤ 999) (r : Fin 256) :
    (concatenate S256x2 1 [⟨S256x1, broadcastInDim S256x1 ![0] bcast_S256_S256x1_0 (iotaInDim S256 32 0)⟩,
        ⟨S256x1, broadcastInDim S256x1 ![0] bcast_S256_S256x1_0 (shapeCast S256 t shapeCasts_S256x1_S256)⟩]
      concatenates_S256x1_S256x1_S256x2_d1 (ix2 r (1 : Fin 2))).toInt = ((t (ix2 r (0 : Fin 1))).toNat : Int) := by
  rw [GatherPair.cols_apply_one, GatherPair.col_apply, flatWords_apply]
  exact toInt_eq_toNat _ (ht _).1

/-- A reduction over the classes names the index (r, k) at row r and class k. -/
theorem lift_eq (h : S256x1000.Reduces [1] S256) (r : Fin 256) (k : Fin 1000) : h.lift (ix1 r) k = ix2 r k := by
  funext a; refine Fin.ext ?_
  match a with
  | ⟨0, _⟩ => rfl
  | ⟨1, _⟩ => rfl

/-- The masked logits at (r, k): ⊥ at the row's target class, the logit elsewhere. -/
theorem masked_apply (lg : Vec Ideal S256x1000 .f32) (t : Vec Ideal S256x1 .i32)
    (ht : ∀ i, 0 ≤ (t i).toInt ∧ (t i).toInt ≤ 999) (r : Fin 256) (k : Fin 1000) :
    Host.scatter scatter_S256x1000_S256x2_S256_n_01_01_1 (fun _ b => b) lg
        (concatenate S256x2 1 [⟨S256x1, broadcastInDim S256x1 ![0] bcast_S256_S256x1_0 (iotaInDim S256 32 0)⟩,
            ⟨S256x1, broadcastInDim S256x1 ![0] bcast_S256_S256x1_0 (shapeCast S256 t shapeCasts_S256x1_S256)⟩]
          concatenates_S256x1_S256x1_S256x2_d1)
        (broadcastInDim S256 ![] bcast_S_S256 (constant (F := Ideal) S_ .f32 0xFF800000#32)) (ix2 r k)
      = if k.val = (t (ix2 r (0 : Fin 1))).toNat then ⊥ else lg (ix2 r k) := by
  have hT : ∀ r : Fin 256, (t (ix2 r (0 : Fin 1))).toNat < 1000 := fun r => by
    have h := ht (ix2 r (0 : Fin 1))
    have e := toInt_eq_toNat _ h.1
    omega
  refine (scatter_apply lg _ _ (fun r => (t (ix2 r (0 : Fin 1))).toNat) hT (pairs_zero t) (pairs_one t ht) r k).trans ?_
  by_cases hk : k.val = (t (ix2 r (0 : Fin 1))).toNat
  · rw [if_pos hk, if_pos hk]; exact negInf
  · rw [if_neg hk, if_neg hk]

/-- Row r's maximum of the masked logits is the supremum, over the classes other than the target, of any sequence f
    that lists the row's logits. -/
theorem rowMax_apply (lg : Vec Ideal S256x1000 .f32) (t : Vec Ideal S256x1 .i32)
    (ht : ∀ i, 0 ≤ (t i).toInt ∧ (t i).toInt ≤ 999) (r : Fin 256) (f : ℕ → EReal)
    (hf : ∀ k : Fin 1000, f k.val = lg (ix2 r k)) :
    Host.reduce (FloatOps.maximumf (F := Ideal) (φ := .f32))
        (Host.scatter scatter_S256x1000_S256x2_S256_n_01_01_1 (fun _ b => b) lg
          (concatenate S256x2 1 [⟨S256x1, broadcastInDim S256x1 ![0] bcast_S256_S256x1_0 (iotaInDim S256 32 0)⟩,
              ⟨S256x1, broadcastInDim S256x1 ![0] bcast_S256_S256x1_0 (shapeCast S256 t shapeCasts_S256x1_S256)⟩]
            concatenates_S256x1_S256x1_S256x2_d1)
          (broadcastInDim S256 ![] bcast_S_S256 (constant (F := Ideal) S_ .f32 0xFF800000#32)))
        (constant (F := Ideal) S_ .f32 0xFF800000#32) reducesTo_S256x1000_S256_d1 h_S_ (ix1 r)
      = Fold.supBelow f (t (ix2 r (0 : Fin 1))).toNat 1000 := by
  have hRed : S256x1000.Reduces [1] S256 := by decide
  refine (Host.reduce_eq_fold_single (FloatOps.maximumf (F := Ideal) (φ := .f32)) _ _ reducesTo_S256x1000_S256_d1 hRed h_S_ (ix1 r)).trans ?_
  rw [show constant (F := Ideal) S_ .f32 0xFF800000#32 (Shape.Idx.first h_S_) = (⊥ : EReal) from negInf]
  refine Fold.fold_max_eq_supBelow (S256x1000.size 1) (t (ix2 r (0 : Fin 1))).toNat f _ fun k => ?_
  rw [Function.comp_apply, lift_eq hRed r k]
  refine (masked_apply lg t ht r k).trans ?_
  unfold Fold.masked
  rw [hf k]

/-! ## The margins -/

/-- THE REFERENCE'S MARGIN AT ROW r. -/
theorem refMargins_apply (lg : Vec Ideal S256x1000 .f32) (t : Vec Ideal S256x1 .i32)
    (ht : ∀ i, 0 ≤ (t i).toInt ∧ (t i).toInt ≤ 999) (r : Fin 256) (hT : (t (ix2 r (0 : Fin 1))).toNat < 1000)
    (f : ℕ → EReal) (hf : ∀ k : Fin 1000, f k.val = lg (ix2 r k)) :
    Cert.ReferenceIdeal.Parts.refMargins (F := Ideal) lg t (ix1 r)
      = max (lg (ix2 r (⟨(t (ix2 r (0 : Fin 1))).toNat, hT⟩ : Fin 1000)) - Fold.supBelow f (t (ix2 r (0 : Fin 1))).toNat 1000)
          (Ideal.ofBits .f32 0xC1200000#32) := by
  unfold Cert.ReferenceIdeal.Parts.refMargins
  rw [wrapCol_eq t ht, wrapFlat_eq t ht, wrapIota_eq]
  rw [maximumf_apply, subf_apply, trueLogit_apply lg t ht r hT, rowMax_apply lg t ht r f hf]
  rfl

end Cert.Bridge.Ref

end
-- ==== Proof.MarginBridge.lean ====
/-
  The kernel's 256 margins are the reference's.

  Row r = 16 g + l is lane l of group g. The kernel's lane walks the classes of row r's logits and ends at
  max (logits[r, t_r] − sup of the other classes' logits, −10); the reference gathers logits[r, t_r], writes −∞ over it
  and takes the row maximum, which is the same supremum because −∞ is the identity of max and max does not depend on
  the order or grouping of its operands. Both sides then apply the same subtraction and the same maximum against the
  same word for −10, so no finiteness of the logits is used.
-/
import proofs.«205080_g78649441125020_cont_9to1_m_374_30_alg».proof.Proof.KVal
import proofs.«205080_g78649441125020_cont_9to1_m_374_30_alg».proof.Proof.RefParts
import proofs.«205080_g78649441125020_cont_9to1_m_374_30_alg».proof.Proof.Gen.Pre_input_domain
import Idealize.ShloMosaic.PureOps.Ideal
import proofs.«205080_g78649441125020_cont_9to1_m_374_30_alg».proof.Proof.MarginRange
import proofs.«205080_g78649441125020_cont_9to1_m_374_30_alg».proof.Proof.MarginKernel
import proofs.«205080_g78649441125020_cont_9to1_m_374_30_alg».proof.Proof.MarginLayout
import proofs.«205080_g78649441125020_cont_9to1_m_374_30_alg».proof.Proof.MarginRef

noncomputable section

namespace Cert.Bridge

open Idealize.ShloMosaic Idealize.ShloMosaic.ValueIdx

/-- The [16, 16] margins at (g, l): the margin the walk of group g leaves at some lane index whose coordinate is l. -/
theorem marginOut_apply (LG : Vec Ideal Cert.KernelIdeal.S16x16000 .f32) (TG : Vec Ideal Cert.KernelIdeal.S16x16 .i32)
    (i : Cert.KernelIdeal.S16x16.Idx) :
    ∃ y : Cert.KernelIdeal.S16.Idx, y 0 = i 1 ∧
      Cert.KernelIdeal.KVal.marginOut (F := Ideal) LG TG i
        = Cert.KernelIdeal.KVal.marginRow (F := Ideal) (Cert.KernelIdeal.KVal.tgRow (F := Ideal) TG (i 0).val)
            (Cert.KernelIdeal.KVal.lgRow (F := Ideal) LG (i 0).val) y :=
  ⟨_, rfl, rfl⟩

/-- THE MARGINS AGREE, row by row, whenever every target word lies in [0, 999]. -/
theorem margins_eq (lg : Vec Ideal Cert.KernelIdeal.S256x1000 .f32) (t : Vec Ideal Cert.KernelIdeal.S256x1 .i32)
    (ht : ∀ i, 0 ≤ (t i).toInt ∧ (t i).toInt ≤ 999) :
    (shapeCast Cert.KernelIdeal.S256 (Cert.KernelIdeal.KVal.marginOut (F := Ideal) (Cert.KernelIdeal.KVal.lgT lg) (Cert.KernelIdeal.KVal.tgT (F := Ideal) t))
        Cert.KernelIdeal.Gen.shapeCasts_S16x16_S256 : Vec Ideal Cert.KernelIdeal.S256 .f32)
      = Cert.ReferenceIdeal.Parts.refMargins (F := Ideal) lg t := by
  funext i
  obtain ⟨r, rfl⟩ : ∃ r : Fin 256, i = ix1 r := ⟨i 0, eq_ix1 i⟩
  have hr : r.val < 256 := r.isLt
  have hg : r.val / 16 < 16 := by omega
  have hl : r.val % 16 < 16 := Nat.mod_lt _ (by decide)
  have hrow : (⟨16 * (⟨r.val / 16, hg⟩ : Fin 16).val + (⟨r.val % 16, hl⟩ : Fin 16).val, by
      show 16 * (r.val / 16) + r.val % 16 < 256; omega⟩ : Fin 256) = r :=
    Fin.ext (by show 16 * (r.val / 16) + r.val % 16 = r.val; omega)
  have hTr : (t (ix2 r (0 : Fin 1))).toNat < 1000 := by
    have h := ht (ix2 r (0 : Fin 1))
    have e := Ref.toInt_eq_toNat _ h.1
    omega
  -- the kernel's side at row r
  refine (Layout.flat_apply _ (ix1 r)).trans ?_
  obtain ⟨y, hy, e⟩ := marginOut_apply (Cert.KernelIdeal.KVal.lgT lg) (Cert.KernelIdeal.KVal.tgT (F := Ideal) t)
    (ix2 (⟨r.val / 16, hg⟩ : Fin 16) (⟨r.val % 16, hl⟩ : Fin 16))
  have hyv : (y 0).val = (⟨r.val % 16, hl⟩ : Fin 16).val := congrArg Fin.val hy
  have hw : Cert.KernelIdeal.KVal.tgRow (F := Ideal) (Cert.KernelIdeal.KVal.tgT (F := Ideal) t) (⟨r.val / 16, hg⟩ : Fin 16).val y
      = t (ix2 r (0 : Fin 1)) :=
    (Layout.tgRow_tgT t ⟨r.val / 16, hg⟩ ⟨r.val % 16, hl⟩ y hyv).trans (congrArg (fun q => t (ix2 q (0 : Fin 1))) hrow)
  have hseq : ∀ k : Fin 1000,
      Kern.laneSeq (Cert.KernelIdeal.KVal.lgRow (F := Ideal) (Cert.KernelIdeal.KVal.lgT lg) (⟨r.val / 16, hg⟩ : Fin 16).val) y k.val
        = lg (ix2 r k) := fun k =>
    (Layout.laneSeq_lgT lg ⟨r.val / 16, hg⟩ ⟨r.val % 16, hl⟩ y hyv k.val k.isLt).trans
      (congrArg (fun q => lg (ix2 q k)) hrow)
  refine e.trans ?_
  refine (Kern.marginRow_apply _ _ y (by rw [hw]; exact hTr)).trans ?_
  rw [hw]
  -- the reference's side at row r, over the same sequence of logits
  refine Eq.trans ?_ (Ref.refMargins_apply lg t ht r hTr _ hseq).symm
  exact congrArg (fun a => max (a - _) _) (hseq ⟨(t (ix2 r (0 : Fin 1))).toNat, hTr⟩)

end Cert.Bridge

end
-- ==== Proof.Glue.lean ====
/-
  The two programs compute one function. The reference's result is its last five operations applied to the
  squared-difference sum and to the 256 margins; the kernel's value is the same five operations applied to its own two
  parts; the parts agree (the sum by reordering a finite sum, the margins by the running maximum's universal
  property, given that every target word names a class), so the results agree.
-/
import proofs.«205080_g78649441125020_cont_9to1_m_374_30_alg».proof.Proof.MseBridge
import proofs.«205080_g78649441125020_cont_9to1_m_374_30_alg».proof.Proof.MarginBridge

noncomputable section

open Idealize.ShloMosaic

namespace Cert.Bridge

/-- At the ideal instance, for target words in `[0, 999]`, the reference's result is the kernel's value of the same
    four arrays. -/
theorem kernelVal_eq_ref (m' : (ℓ : Loc Cert.ReferenceIdeal.nD Cert.ReferenceIdeal.τ Cert.ReferenceIdeal.sig) → Buf (Elt Ideal) ℓ) (c : Dev Cert.ReferenceIdeal.nD)
    (ht : ∀ i, 0 ≤ ((m' ((c.tc : Thread Cert.ReferenceIdeal.nD Cert.ReferenceIdeal.τ).loc Cert.ReferenceIdeal.main_arg3)) i).toInt
      ∧ ((m' ((c.tc : Thread Cert.ReferenceIdeal.nD Cert.ReferenceIdeal.τ).loc Cert.ReferenceIdeal.main_arg3)) i).toInt ≤ 999) :
    Cert.ReferenceIdeal.Value.res_out0 (F := Ideal) m' c
      = Cert.KernelIdeal.KVal.kernelVal (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) := by
  rw [Cert.ReferenceIdeal.Parts.res_eq]
  show _ = Cert.KernelIdeal.KVal.kernelVal (F := Ideal) _ _ _ _
  unfold Cert.KernelIdeal.KVal.kernelVal
  rw [mse_eq, margins_eq _ _ ht]

end Cert.Bridge

end
-- ==== Proof.AssembleIdeal.lean ====
/-
  The claims about the idealized programs. The idealized kernel's frame is its run with the value dropped; the
  reference's frame is its generated run with the value dropped; and the two end with equal results because the
  kernel's run ends at `KVal.kernelVal` of its arguments, the reference's at its own composed term of arguments that
  agree, and the two are one function wherever every target word names a class — which the precondition says.
-/
import proofs.«205080_g78649441125020_cont_9to1_m_374_30_alg».proof.Proof.Launch5
import proofs.«205080_g78649441125020_cont_9to1_m_374_30_alg».proof.Proof.RegionStep
import proofs.«205080_g78649441125020_cont_9to1_m_374_30_alg».proof.Proof.TileObl
import proofs.«205080_g78649441125020_cont_9to1_m_374_30_alg».proof.Proof.Glue
import proofs.«205080_g78649441125020_cont_9to1_m_374_30_alg».proof.Proof.Gen.ReferenceIdeal.Run
import proofs.«205080_g78649441125020_cont_9to1_m_374_30_alg».proof.Proof.Gen.Pre_input_domain

noncomputable section

namespace Cert.Proof.IdealSide

open Idealize.ShloMosaic Idealize.SL.Sem
open Cert.KernelIdeal Cert.KernelIdeal.Setup

/-- The region's step at the ideal instance, in the shape @main's proof takes it. -/
theorem hreg (m : (ℓ : Loc nD τ sig) → Buf (Elt Ideal) ℓ) : Cert.KernelIdeal.Launch.RegionStep (F := Ideal) m :=
  fun d W hW _ k Φ => Cert.KernelIdeal.Region.mse_region m d W hW k Φ

/-- The idealized kernel's run: the result at the program's value of the arguments, the arguments unchanged. -/
theorem run (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ (Cert.KernelIdeal.Launch.QC m) :=
  Cert.KernelIdeal.Launch.run_main (F := Ideal) m ρ (hreg m) (Cert.KernelIdeal.Tile.tileObl m)

theorem frame_KI : Cert.frame_KernelIdeal := fun m ρ _ =>
  (θ_run (Cert.KernelIdeal.defs (F := Ideal)) _ _).mono (fun _ h c => (h c).2) (run m ρ)

theorem frame_RI : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => KVal.kernelVal (F := Ideal) (m (a0Loc c)) (m (a1Loc c)) (m (a2Loc c)) (m (a3Loc c)), run m ρ, ?_⟩
  refine (θ_run Cert.ReferenceIdeal.defs _ _).mono (fun _ h c => ⟨(h c).1.trans ?_, (h c).2⟩)
    (Cert.ReferenceIdeal.Value.run (F := Ideal) m' ρ')
  have e0 := (hagree c).1
  have e1 := (hagree c).2.1
  have e2 := (hagree c).2.2.1
  have e3 := (hagree c).2.2.2
  -- the precondition, carried to the reference's arguments, bounds the target words
  have hp : Cert.Pre_input_domain.fn (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = fun _ => 1#1 := by
    rw [e0, e1, e2, e3]; exact hpre c
  have ht := Cert.Bridge.targets_range _ _ _ _ hp
  show Cert.ReferenceIdeal.Value.res_out0 (F := Ideal) m' c = _
  rw [Cert.Bridge.kernelVal_eq_ref m' c ht, e0, e1, e2, e3]

end Cert.Proof.IdealSide

end
-- ==== Proof.Bits.KVal.lean ====
/-
  The kernel's result as pure terms of its four argument arrays, for any float instance.

  The program computes two numbers and adds them.

  The first is the mean of the squared differences between 127.5 · (tanh w + 1) and x. It is accumulated over
  sixteen blocks of sixteen leading rows each: a [224, 224] accumulator starts at zero, each block adds to it the
  block's squared differences summed over the block's two leading axes, and after the last block the accumulator is
  summed to one number (`accAt`, `mseOut`).

  The second is half the mean of 256 margins. Row r of the logits and its target word t_r give
  max(logits[r, t_r] − max_{j ≠ t_r} logits[r, j], −10). Sixteen rows are handled at a time, one per lane: the
  logits of rows 16 g … 16 g + 15 are laid out class-major (entry 16 j + l of row g is logits[16 g + l, j]), and a
  walk over the classes j = 0 … 999 carries two 16-lane vectors — the running maximum over the classes that are not
  the lane's target, from −∞, and the logit at the lane's target, from 0 (`loopAt`); the margin is taken at the
  end (`marginRow`, `marginOut`).

  `kernelVal` composes the two with the program's own host operations.
-/
import proofs.«205080_g78649441125020_cont_9to1_m_374_30_alg».proof.Proof.Gen.Kernel.Skeleton

noncomputable section

namespace Cert.Kernel.KVal

open Idealize.ShloMosaic Cert.Kernel Cert.Kernel.Gen

variable {F : FTy → Type} [FloatOps F]

/-! ## The squared-difference sum, block by block -/

/-- Entry `j` of block `t` (sixteen leading rows) of a [256, 3, 224, 224] array sits at leading row `16 t + j₀`. -/
def blkIdx (t : Nat) (j : S16x3x224x224.Idx) : S256x3x224x224.Idx :=
  fun a => match a with
    | ⟨0, _⟩ => ⟨(16 * t + (j 0).val) % 256, Nat.mod_lt _ (by decide)⟩
    | ⟨1, _⟩ => j 1
    | ⟨2, _⟩ => j 2
    | ⟨3, _⟩ => j 3

/-- Block `t` of an array. -/
def blk (w : Vec F S256x3x224x224 .f32) (t : Nat) : Vec F S16x3x224x224 .f32 := fun j => w (blkIdx t j)

/-- The accumulator after the first `n` blocks: zero, then each block's contribution added. -/
def accAt (w x : Vec F S256x3x224x224 .f32) : Nat → FVec F S224x224 .f32
  | 0 => k0_pay1 (F := F)
  | n + 1 => k0_pay2 (blk w n) (blk x n) (accAt w x n)

/-- The one number the sixteen blocks leave: the accumulator summed. -/
def mseOut (w x : Vec F S256x3x224x224 .f32) : Vec F S1x1 .f32 := fun _ => k0_pay3 (accAt w x 16)

/-! ## The margins, sixteen rows at a time -/

/-- Row `g` of a [16, n] array. -/
def lgRow (lg : Vec F S16x16000 .f32) (g : Nat) : Vec F S16000 .f32 :=
  fun j => lg (fun a => match a with | ⟨0, _⟩ => ⟨g % 16, Nat.mod_lt _ (by decide)⟩ | ⟨1, _⟩ => j 0)
def tgRow (tg : Vec F S16x16 .i32) (g : Nat) : Vec F S16 .i32 :=
  fun j => tg (fun a => match a with | ⟨0, _⟩ => ⟨g % 16, Nat.mod_lt _ (by decide)⟩ | ⟨1, _⟩ => j 0)

/-- The sixteen lanes of class `k` in a class-major row: entries `16 k … 16 k + 15`. -/
def chunk (row : Vec F S16000 .f32) (k : Nat) : Vec F S16 .f32 :=
  fun j => row (fun a => match a with | ⟨0, _⟩ => ⟨(16 * k + (j 0).val) % 16000, Nat.mod_lt _ (by decide)⟩)

/-- The two carried vectors after the first `n` classes. -/
def loopAt (v5 : Vec F S16 .i32) (row : Vec F S16000 .f32) : Nat → FVec F S16 .f32 × FVec F S16 .f32
  | 0 => (k1_pay1 (F := F), k1_pay2 (F := F))
  | n + 1 =>
    if h : n < k1_t1_loop.trips then
      (k1_pay5 v5 ⟨n, h⟩ (loopAt v5 row n).1 (chunk row n), k1_pay6 v5 ⟨n, h⟩ (loopAt v5 row n).2 (chunk row n))
    else loopAt v5 row n

/-- Sixteen margins: the walk over all classes, then the difference clamped below at −10. -/
def marginRow (v5 : Vec F S16 .i32) (row : Vec F S16000 .f32) : FVec F S16 .f32 :=
  k1_pay7 (loopAt v5 row k1_t1_loop.trips).1 (loopAt v5 row k1_t1_loop.trips).2

/-- All 256 margins as a [16, 16] array: entry (g, l) is the margin of row 16 g + l. -/
def marginOut (lg : Vec F S16x16000 .f32) (tg : Vec F S16x16 .i32) : Vec F S16x16 .f32 :=
  fun i => marginRow (tgRow (F := F) tg (i 0).val) (lgRow lg (i 0).val) (fun a => match a with | ⟨0, _⟩ => i 1)

/-! ## The host operations around them -/

/-- The logits class-major within groups of sixteen rows: [256, 1000] → [16, 16, 1000] → [16, 1000, 16] → [16, 16000]. -/
def lgT (lg : Vec F S256x1000 .f32) : Vec F S16x16000 .f32 :=
  shapeCast S16x16000 (transpose S16x1000x16 [0, 2, 1] (shapeCast S16x16x1000 lg shapeCasts_S256x1000_S16x16x1000)
    transposes_S16x16x1000_S16x1000x16_0_2_1) shapeCasts_S16x1000x16_S16x16000

/-- The target words as a [16, 16] array. -/
def tgT (t : Vec F S256x1 .i32) : Vec F S16x16 .i32 :=
  shapeCast S16x16 (shapeCast S256 t shapeCasts_S256x1_S256) shapeCasts_S256_S16x16

/-- The program's result: the squared-difference sum over the element count, plus half the mean margin. -/
def kernelVal (w x : Vec F S256x3x224x224 .f32) (lg : Vec F S256x1000 .f32) (t : Vec F S256x1 .i32) : Vec F S_ .f32 :=
  addf (Host.divf (shapeCast S_ (mseOut w x) shapeCasts_S1x1_S_) (constant S_ .f32 0x4C130000#32) : FVec F S_ .f32)
    (mulf (constant S_ .f32 0x3F000000#32)
      (Host.divf (Host.reduceAdd (shapeCast S256 (marginOut (lgT lg) (tgT (F := F) t)) shapeCasts_S16x16_S256)
        (constant S_ .f32 0x00000000#32) reducesTo_S256_S_d0 h_S_) (constant S_ .f32 0x43800000#32)))

end Cert.Kernel.KVal

end
-- ==== Proof.Bits.Setup.lean ====
/-
  What the parts of this certificate share: the program as the launch theorem sees it, the ghost algebra, and what
  each handshake of the one SparseCore call carries.

  The program runs a TensorCore kernel (the squared-difference sum), six host re-layouts, one SparseCore call on
  2 × 16 vector subcores, and eleven host operations. In the SparseCore call the subcore `i` of core `c` works iff
  `2 i + c < 16`, and then on row `2 i + c` alone of three arrays: it reads that row of the class-major logits and of
  the target words and writes that row of the margins. So the call hands each working subcore exactly its three rows
  and gets them back, the margins' row holding `KVal.marginOut` of the two inputs; a core's share is the conjunction
  of its subcores' shares, which makes the split of a core's operands into its tasks' the identity.

  The ghost algebra has three factors: the launch handshakes' rounds, the TensorCore pipeline's staging cells' rounds,
  and the plain counters of the subcores' own local copies (which need no schedule).
-/
import proofs.«205080_g78649441125020_cont_9to1_m_374_30_alg».proof.Defs
import proofs.«205080_g78649441125020_cont_9to1_m_374_30_alg».proof.Proof.Bits.KVal
import proofs.«205080_g78649441125020_cont_9to1_m_374_30_alg».proof.Proof.Gen.Kernel.Launch
import proofs.«205080_g78649441125020_cont_9to1_m_374_30_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one pipeline's admissible prefetch tables: it has none, so the empty contents; pinned at them the pipeline's
    configuration is the printed one (by unfolding). -/
abbrev aAdm : (p : Fin 1) → (pcfgs (F := F) p).Adm := fun p => (cfgs p).toPCfg_adm

/-! ## The ghost algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor. -/
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP embR; infer_instance

/-! ## The launch memory and the arrays the SparseCore call works on -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
/-- The squared-difference sum's [1,1] result; the class-major logits; the target words as [16,16]; the margins. -/
abbrev v0Loc (d : Dev nD) : Loc nD τ sig := (SparseCore.T d).loc main_v0
abbrev v4Loc (d : Dev nD) : Loc nD τ sig := (SparseCore.T d).loc main_v4
abbrev v6Loc (d : Dev nD) : Loc nD τ sig := (SparseCore.T d).loc main_v6
abbrev v7Loc (d : Dev nD) : Loc nD τ sig := (SparseCore.T d).loc main_v7

variable [FloatOps F]

/-- What the TensorCore kernel leaves in its result, and what the host re-layouts leave in the call's two inputs,
    as functions of the launch contents of the arguments; what the call leaves in its output. -/
abbrev X0 (d : Dev nD) : Buf (Elt F) (v0Loc d) := KVal.mseOut (F := F) (m (a0Loc d)) (m (a1Loc d))
abbrev X4 (d : Dev nD) : Buf (Elt F) (v4Loc d) := KVal.lgT (F := F) (m (a2Loc d))
abbrev X6 (d : Dev nD) : Buf (Elt F) (v6Loc d) := KVal.tgT (F := F) (m (a3Loc d))
abbrev X7 (d : Dev nD) : Buf (Elt F) (v7Loc d) := KVal.marginOut (F := F) (X4 m d) (X6 m d)

/-! ## Rows -/

theorem hdivA : 16 ∣ S16x16000.size 0 := ⟨1, rfl⟩
theorem hdivB : 16 ∣ S16x16.size 0 := ⟨1, rfl⟩
/-- Row `g` of a [16, 16000] array and of a [16, 16] array: the `g`-th of sixteen parts along axis 0. -/
abbrev rowA (g : Fin 16) : Rect S16x16000 := Rect.part (s := S16x16000) (a₀ := 0) hdivA g
abbrev rowB (g : Fin 16) : Rect S16x16 := Rect.part (s := S16x16) (a₀ := 0) hdivB g
abbrev rowSetA (g : Fin 16) : Finset S16x16000.Idx := ((Memref.whole main_v4_scv : Memref sig .scVector .hbm S16x16000 .f32).view.slice (rowA g)).set
abbrev rowSetB (g : Fin 16) : Finset S16x16.Idx := ((Memref.whole main_v7_scv : Memref sig .scVector .hbm S16x16 .f32).view.slice (rowB g)).set

/-- The three rows a working subcore holds, the margins' row at contents `f`. -/
abbrev rows3 (d : Dev nD) (g : Fin 16) (f : Buf (Elt F) (v7Loc d)) : sProp 𝕄 :=
  iprop((v4Loc d ↦[rowSetA g]{fullShare} X4 m d) ∗ (v6Loc d ↦[rowSetB g]{fullShare} X6 m d) ∗ (v7Loc d ↦[rowSetB g]{fullShare} f))

/-- Subcore `i` of core `c`: its rows if `2 i + c < 16`, nothing otherwise. -/
def tileRes (d : Dev nD) (c i : ℕ) (f : Buf (Elt F) (v7Loc d)) : sProp 𝕄 :=
  if h : 2 * i + c < 16 then rows3 m d ⟨2 * i + c, h⟩ f else iprop(emp)

theorem tileRes_pos (d : Dev nD) {c i : ℕ} (h : 2 * i + c < 16) (f : Buf (Elt F) (v7Loc d)) :
    tileRes m d c i f = rows3 m d ⟨2 * i + c, h⟩ f := dif_pos h
theorem tileRes_neg (d : Dev nD) {c i : ℕ} (h : ¬ 2 * i + c < 16) (f : Buf (Elt F) (v7Loc d)) :
    tileRes m d c i f = iprop(emp) := dif_neg h

instance tileRes_storable (d : Dev nD) (c i : ℕ) (f : Buf (Elt F) (v7Loc d)) : BI.Storable (upEmb : UEmb _ 𝕄) (tileRes m d c i f) := by
  unfold tileRes; split <;> infer_instance

/-! ## What the handshakes carry -/

/-- The one call: each subcore its rows, the margins' row at its launch contents on the way in and at `X7` on the way
    out; a core the conjunction of its subcores'; no kernel proof consumes anything of the launch's. -/
def P : (K (F := F)).Pay (nD := nD) (Val := Elt F) (Name := ℕ) (U := UU) where
  st := fun _ d c => bigSep Finset.univ fun i : Fin ((K (F := F)).nSub 0) => tileRes m d c.val i.val (m (v7Loc d))
  dn := fun _ d c => bigSep Finset.univ fun i : Fin ((K (F := F)).nSub 0) => tileRes m d c.val i.val (X7 m d)
  go := fun _ d c i => tileRes m d c.val i.val (m (v7Loc d))
  td := fun _ d c i => tileRes m d c.val i.val (X7 m d)
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.Kernel.Setup

end
-- ==== Proof.Bits.Launch1.lean ====
/-
  The launch of the one SparseCore call: how a core's operands split into its subcores' (the identity, by the way
  the shares are stated), and the launch element of the ghost state — the handshakes' rounds, the TensorCore
  pipeline's staging cells funded for its region, and the counters, which nothing of the launch consumes.
-/
import proofs.«205080_g78649441125020_cont_9to1_m_374_30_alg».proof.Proof.Bits.Setup

noncomputable section

namespace Cert.Kernel.Launch

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

variable (m : (ℓ : Loc nD τ sig) → Buf (Elt F) ℓ) (ρ : Dev nD → PrngReg)

/-- A core's operands are its subcores' conjoined, and so are its results: the split is the identity. -/
theorem vecSplit : (K (F := F)).VecSplit' (P m) 0 := by
  intro d c
  show (bigSep Finset.univ fun i : Fin ((K (F := F)).nSub 0) => tileRes m d c.val i.val (m (v7Loc d)))
    ⊢ |={Set.univ}=> iprop((bigSep Finset.univ fun i : Fin ((K (F := F)).nSub 0) => tileRes m d c.val i.val (m (v7Loc d)))
      ∗ ((bigSep Finset.univ fun i : Fin ((K (F := F)).nSub 0) => tileRes m d c.val i.val (X7 m d))
          -∗ (bigSep Finset.univ fun i : Fin ((K (F := F)).nSub 0) => tileRes m d c.val i.val (X7 m d))))
  iintro H; imodintro
  isplitl [H]; · iexact H
  iintro H; iexact H

/-! ## The launch element -/

/-- The handshakes' cells and tokens; the pipeline's staging cells and its transfers' tokens; the counters' unit. -/
def u₀ : UU :=
  (initOf (K (F := F)).hsCells (K (F := F)).hsToks,
    (initOf (Pipeline.cells cfgs cellOf_inj) (Pipeline.launchToks cfgs cellOf_inj), 1))

/-- What @main's proof on device `d` starts from beyond what the launch deals it: the pipeline's cells' ghost state
    and its transfers' tokens, for the region. -/
abbrev G (d : Dev nD) : sProp 𝕄 :=
  iprop(Pipeline.cellsGhost (Pipeline.pin (pcfgs (F := F)) aAdm) EP 0 d ∗ Pipeline.toksInit (Pipeline.pin (pcfgs (F := F)) aAdm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR (A := UH) (B := UP × Counters)) _ _) $$ HR
  icases HR' with ⟨HP, -⟩
  ihave HP' := (Entails.of_eq (show (BI.own (((Emb.inl : Emb UP (UP × Counters)).trans (embR (A := UH) (B := UP × Counters)))
        (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost cfgs (EP (F := F)) cellOf_inj) $$ HP' with ⟨Hg, Ht⟩
  imodintro
  isplitl [HH]; · iexact HH
  isplitl [Hg Ht]
  · -- one pipeline: each device's family over `Fin 1` is its one member
    have h1 : ∀ (Φ : Dev nD → Fin 1 → sProp 𝕄), (bigSep Finset.univ fun c : Dev nD => bigSep Finset.univ fun p : Fin 1 => Φ c p)
        = bigSep Finset.univ fun c : Dev nD => Φ c 0 := fun Φ =>
      bigSep_congr fun c _ => by rw [show (Finset.univ : Finset (Fin 1)) = {0} from by decide, bigSep_singleton]
    rw [bigSep_sep']
    ihave Hg' := (Entails.of_eq (h1 fun c p => Pipeline.cellsGhost cfgs (EP (F := F)) p c)) $$ Hg
    ihave Ht' := (Entails.of_eq (h1 fun c p => Pipeline.toksInit cfgs (EP (F := F)) p c)) $$ Ht
    isplitl [Hg']
    · iexact Hg'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Launch

end
-- ==== Proof.Bits.Launch2.lean ====
/-
  @main on the TensorCore, as a sequence: the squared-difference kernel's region, six host re-layouts, the SparseCore
  call, ten host operations; and the contents of the device's arrays along the way, as functions of the launch
  contents of the four arguments — after the region the [1,1] result holds the squared-difference sum; after the
  re-layouts the call's two inputs hold the class-major logits and the [16,16] target words; after the call its output
  holds the margins; after the last operation the result holds `KVal.kernelVal` of the arguments, which are unchanged.
-/
import proofs.«205080_g78649441125020_cont_9to1_m_374_30_alg».proof.Proof.Bits.Launch1

noncomputable section

namespace Cert.Kernel.Launch

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ
open Idealize.ShloMosaic.StableHlo (held held_sub_split held_congr wp_seq)

variable (m : (ℓ : Loc nD τ sig) → Buf (Elt F) ℓ) (ρ : Dev nD → PrngReg)

/-! ## The two stretches of host operations -/

/-- The six re-layouts between the region and the call. -/
abbrev ops1 : List (HloOp τ sig (Elt F)) :=
  [ StableHlo.reshape main_v0 main_v1 rfl shapeCasts_S1x1_S_,
    StableHlo.reshape main_arg2 main_v2 rfl shapeCasts_S256x1000_S16x16x1000,
    StableHlo.unary main_v2 main_v3 ((transpose S16x1000x16 [0, 2, 1] · transposes_S16x16x1000_S16x1000x16_0_2_1) : (⟨S16x16x1000, .f32⟩ : BufTy).Contents (Elt F) → (⟨S16x1000x16, .f32⟩ : BufTy).Contents (Elt F)),
    StableHlo.reshape main_v3 main_v4 rfl shapeCasts_S16x1000x16_S16x16000,
    StableHlo.reshape main_arg3 main_v5 rfl shapeCasts_S256x1_S256,
    StableHlo.reshape main_v5 main_v6 rfl shapeCasts_S256_S16x16 ]

/-- The ten operations after the call. -/
abbrev ops2 : List (HloOp τ sig (Elt F)) :=
  [ StableHlo.nullary main_cst (constant S_ .f32 0x4C130000#32),
    StableHlo.binary main_v1 main_cst main_v8 (Host.divf : (⟨S_, .f32⟩ : BufTy).Contents (Elt F) → (⟨S_, .f32⟩ : BufTy).Contents (Elt F) → (⟨S_, .f32⟩ : BufTy).Contents (Elt F)),
    StableHlo.reshape main_v7 main_v9 rfl shapeCasts_S16x16_S256,
    StableHlo.nullary main_cst_0 (constant S_ .f32 0x00000000#32),
    StableHlo.binary main_v9 main_cst_0 main_v10 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.nullary main_cst_1 (constant S_ .f32 0x43800000#32),
    StableHlo.binary main_v10 main_cst_1 main_v11 (Host.divf : (⟨S_, .f32⟩ : BufTy).Contents (Elt F) → (⟨S_, .f32⟩ : BufTy).Contents (Elt F) → (⟨S_, .f32⟩ : BufTy).Contents (Elt F)),
    StableHlo.nullary main_cst_2 (constant S_ .f32 0x3F000000#32),
    StableHlo.binary main_cst_2 main_v11 main_v12 (mulf : (⟨S_, .f32⟩ : BufTy).Contents (Elt F) → (⟨S_, .f32⟩ : BufTy).Contents (Elt F) → (⟨S_, .f32⟩ : BufTy).Contents (Elt F)),
    StableHlo.binary main_v8 main_v12 main_v13 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the region, the first stretch, the call, the second stretch. -/
theorem main_eq (d : Dev nD) : main (F := F) d
    = (Prog.lift (.customCall (SparseCore.inner (Pipeline.entry 0)) ()) >>= fun _ =>
        (StableHlo.seq ops1 >>= fun _ => ((sc (F := F)).run d 0 >>= fun _ => StableHlo.seq ops2))) := rfl

/-! ## The arrays' contents along the way -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v4' : DevRef τ sig := Proc.devRef .tc (main_v4 : Ref sig .tc)
abbrev v6' : DevRef τ sig := Proc.devRef .tc (main_v6 : Ref sig .tc)
abbrev v7' : DevRef τ sig := Proc.devRef .tc (main_v7 : Ref sig .tc)
abbrev v13' : DevRef τ sig := Proc.devRef .tc (main_v13 : Ref sig .tc)

/-- At the launch; after the region (the [1,1] result at the squared-difference sum); after the re-layouts; after the
    call (its output at the margins); at the end. -/
def V0 (d : Dev nD) : Valuation τ sig (Elt F) := fun b => m (d, b)
def V1 (d : Dev nD) : Valuation τ sig (Elt F) := Function.update (V0 m d) v0' (X0 m d)
def V2 (d : Dev nD) : Valuation τ sig (Elt F) := StableHlo.after ops1 (V1 m d)
def V3 (d : Dev nD) : Valuation τ sig (Elt F) := Function.update (V2 m d) v7' (X7 m d)
def V4 (d : Dev nD) : Valuation τ sig (Elt F) := StableHlo.after ops2 (V3 m d)

theorem V1_v0 (d : Dev nD) : V1 m d v0' = X0 m d := Function.update_self _ _ _
theorem V1_ne (d : Dev nD) {b : DevRef τ sig} (h : b ≠ v0') : V1 m d b = m (d, b) := Function.update_of_ne h _ _
theorem V3_v7 (d : Dev nD) : V3 m d v7' = X7 m d := Function.update_self _ _ _
theorem V3_ne (d : Dev nD) {b : DevRef τ sig} (h : b ≠ v7') : V3 m d b = V2 m d b := Function.update_of_ne h _ _

/-- The re-layouts leave the class-major logits and the [16,16] words in the call's inputs. -/
theorem V2_v4 (d : Dev nD) : V2 m d v4' = X4 m d := by
  show StableHlo.after ops1 (V1 m d) (Proc.devRef .tc main_v4) = _
  after_results
  rw [V1_ne m d (by decide)]
  rfl
theorem V2_v6 (d : Dev nD) : V2 m d v6' = X6 m d := by
  show StableHlo.after ops1 (V1 m d) (Proc.devRef .tc main_v6) = _
  after_results
  rw [V1_ne m d (by decide)]
  rfl
/-- The [1,1] result re-cast as a scalar; the call's output before the call. -/
theorem V2_v1 (d : Dev nD) : V2 m d (Proc.devRef .tc main_v1) = (shapeCast S_ (X0 m d) shapeCasts_S1x1_S_ : Vec F S_ .f32) := by
  show StableHlo.after ops1 (V1 m d) (Proc.devRef .tc main_v1) = _
  after_results
  rw [V1_v0]
  rfl
theorem V2_v7 (d : Dev nD) : V2 m d v7' = m (v7Loc d) := by
  show StableHlo.after ops1 (V1 m d) (Proc.devRef .tc main_v7) = _
  after_results
  rw [V1_ne m d (by decide)]

/-- At the end the result holds the program's value of the four arguments, -/
theorem V4_v13 (d : Dev nD) : V4 m d v13' = KVal.kernelVal (F := F) (m (a0Loc d)) (m (a1Loc d)) (m (a2Loc d)) (m (a3Loc d)) := by
  show StableHlo.after ops2 (V3 m d) (Proc.devRef .tc main_v13) = _
  after_results
  rw [V3_v7, V3_ne m d (by decide), V2_v1]
  rfl

/-- and the arguments hold what they held at the launch: no operation writes them. -/
theorem V4_arg0 (d : Dev nD) : V4 m d a0' = m (a0Loc d) := by
  show StableHlo.after ops2 (V3 m d) (Proc.devRef .tc main_arg0) = _
  after_results
  rw [V3_ne m d (by decide)]
  show StableHlo.after ops1 (V1 m d) (Proc.devRef .tc main_arg0) = _
  after_results
  rw [V1_ne m d (by decide)]
theorem V4_arg1 (d : Dev nD) : V4 m d a1' = m (a1Loc d) := by
  show StableHlo.after ops2 (V3 m d) (Proc.devRef .tc main_arg1) = _
  after_results
  rw [V3_ne m d (by decide)]
  show StableHlo.after ops1 (V1 m d) (Proc.devRef .tc main_arg1) = _
  after_results
  rw [V1_ne m d (by decide)]
theorem V4_arg2 (d : Dev nD) : V4 m d a2' = m (a2Loc d) := by
  show StableHlo.after ops2 (V3 m d) (Proc.devRef .tc main_arg2) = _
  after_results
  rw [V3_ne m d (by decide)]
  show StableHlo.after ops1 (V1 m d) (Proc.devRef .tc main_arg2) = _
  after_results
  rw [V1_ne m d (by decide)]
theorem V4_arg3 (d : Dev nD) : V4 m d a3' = m (a3Loc d) := by
  show StableHlo.after ops2 (V3 m d) (Proc.devRef .tc main_arg3) = _
  after_results
  rw [V3_ne m d (by decide)]
  show StableHlo.after ops1 (V1 m d) (Proc.devRef .tc main_arg3) = _
  after_results
  rw [V1_ne m d (by decide)]

end Cert.Kernel.Launch

end
-- ==== Proof.Bits.Launch3.lean ====
/-
  The SparseCore call's operands, from whole arrays and back. A [16, n] array whole is its sixteen rows; the sixteen
  rows of the three arrays the call works on are, regrouped by `g = 2 i + c`, what its two cores' thirty-two subcores
  are handed (the sixteen that work get a row each, the others nothing). The same regrouping, read backwards with
  the margins' rows at their final contents, gives the three arrays whole again after the call.
-/
import proofs.«205080_g78649441125020_cont_9to1_m_374_30_alg».proof.Proof.Bits.Launch2
import proofs.«205080_g78649441125020_cont_9to1_m_374_30_alg».proof.Proof.LibCoreSubcoreSplit

noncomputable section

namespace Cert.Kernel.Launch

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

variable (m : (ℓ : Loc nD τ sig) → Buf (Elt F) ℓ) (ρ : Dev nD → PrngReg)

/-! ## A whole array is its sixteen rows -/

omit [FloatOps F] in
theorem rowSetA_eq (g : Fin 16) : rowSetA g = (rowA g).set := by
  show ((View.whole (main_v4_scv : Ref sig .scVector)).slice (rowA g)).set = _
  rw [View.set_slice]; exact Finset.map_refl
omit [FloatOps F] in
theorem rowSetB_eq (g : Fin 16) : rowSetB g = (rowB g).set := by
  show ((View.whole (main_v7_scv : Ref sig .scVector)).slice (rowB g)).set = _
  rw [View.set_slice]; exact Finset.map_refl
omit [FloatOps F] in
theorem rowsA_disjoint : ∀ i ∈ (Finset.univ : Finset (Fin 16)), ∀ j ∈ (Finset.univ : Finset (Fin 16)), i ≠ j → Disjoint (rowSetA i) (rowSetA j) :=
  fun i _ j _ h => by rw [rowSetA_eq, rowSetA_eq]; exact Rect.part_disjoint hdivA h
omit [FloatOps F] in
theorem rowsB_disjoint : ∀ i ∈ (Finset.univ : Finset (Fin 16)), ∀ j ∈ (Finset.univ : Finset (Fin 16)), i ≠ j → Disjoint (rowSetB i) (rowSetB j) :=
  fun i _ j _ h => by rw [rowSetB_eq, rowSetB_eq]; exact Rect.part_disjoint hdivB h
omit [FloatOps F] in
theorem rowsA_cover : (Finset.univ : Finset (Fin 16)).biUnion rowSetA = Finset.univ :=
  (Finset.biUnion_congr rfl fun i _ => rowSetA_eq i).trans (Rect.biUnion_part hdivA)
omit [FloatOps F] in
theorem rowsB_cover : (Finset.univ : Finset (Fin 16)).biUnion rowSetB = Finset.univ :=
  (Finset.biUnion_congr rfl fun i _ => rowSetB_eq i).trans (Rect.biUnion_part hdivB)

omit [FloatOps F] in
theorem v4_rows (d : Dev nD) (f : Buf (Elt F) (v4Loc d)) :
    (v4Loc d ↦{fullShare} f : sProp 𝕄) = bigSep Finset.univ fun g : Fin 16 => v4Loc d ↦[rowSetA g]{fullShare} f := by
  rw [← pointsTo_biUnion Finset.univ (ℓ := v4Loc d) rowSetA rowsA_disjoint, rowsA_cover]; try rfl
omit [FloatOps F] in
theorem v6_rows (d : Dev nD) (f : Buf (Elt F) (v6Loc d)) :
    (v6Loc d ↦{fullShare} f : sProp 𝕄) = bigSep Finset.univ fun g : Fin 16 => v6Loc d ↦[rowSetB g]{fullShare} f := by
  rw [← pointsTo_biUnion Finset.univ (ℓ := v6Loc d) rowSetB rowsB_disjoint, rowsB_cover]; try rfl
omit [FloatOps F] in
theorem v7_rows (d : Dev nD) (f : Buf (Elt F) (v7Loc d)) :
    (v7Loc d ↦{fullShare} f : sProp 𝕄) = bigSep Finset.univ fun g : Fin 16 => v7Loc d ↦[rowSetB g]{fullShare} f := by
  rw [← pointsTo_biUnion Finset.univ (ℓ := v7Loc d) rowSetB rowsB_disjoint, rowsB_cover]; try rfl

/-! ## The rows, regrouped by core and subcore -/

/-- Row `n`'s three pieces for `n < 16`, nothing beyond: what `tileRes` is at `n = 2 i + c`. -/
def rowsAt (d : Dev nD) (f : Buf (Elt F) (v7Loc d)) (n : ℕ) : sProp 𝕄 :=
  if h : n < 16 then rows3 m d ⟨n, h⟩ f else iprop(emp)

theorem tileRes_eq (d : Dev nD) (c i : ℕ) (f : Buf (Elt F) (v7Loc d)) : tileRes m d c i f = rowsAt m d f (2 * i + c) := rfl

/-- The three arrays whole, the margins at `f`, are the two cores' subcores' shares. -/
theorem whole_eq_shares (d : Dev nD) (f : Buf (Elt F) (v7Loc d)) :
    (iprop((v4Loc d ↦{fullShare} X4 m d) ∗ (v6Loc d ↦{fullShare} X6 m d) ∗ (v7Loc d ↦{fullShare} f)) : sProp 𝕄)
      = bigSep Finset.univ fun c : Fin ((K (F := F)).nCore 0) => bigSep Finset.univ fun i : Fin ((K (F := F)).nSub 0) => tileRes m d c.val i.val f := by
  show _ = bigSep Finset.univ fun c : Fin 2 => bigSep Finset.univ fun i : Fin 16 => rowsAt m d f (2 * i.val + c.val)
  rw [Cert.LibCoreSubcoreSplit.bigSep_cores_subcores (rowsAt m d f) (fun n hn => dif_neg (by omega)),
    v4_rows, v6_rows, v7_rows, ← bigSep_sep', ← bigSep_sep']
  exact bigSep_congr fun g _ => by unfold rowsAt; rw [dif_pos g.isLt]

end Cert.Kernel.Launch

end
-- ==== Proof.Bits.Launch4.lean ====
/-
  @main on the TensorCore, proved: from what the launch deals the TensorCore (its unscoped arrays at the launch
  contents, the pipeline's ghost state, its handshake state before the one call) through the region, the six
  re-layouts, the call and the ten last operations, to its handshake state after the call, the four arguments at
  their launch contents and the result at `KVal.kernelVal` of them. The region's step is taken as a hypothesis in
  the shape its own module proves it; the host stretches run within the set of all unscoped arrays; the call's
  operands are cut out of that set as rows and put back.
-/
import proofs.«205080_g78649441125020_cont_9to1_m_374_30_alg».proof.Proof.Bits.Launch3
import Idealize.ShloMosaic.Lib.Pipeline.Frame

noncomputable section

namespace Cert.Kernel.Launch

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ
open Idealize.ShloMosaic.StableHlo (held held_sub_split held_congr wp_seq)

variable (m : (ℓ : Loc nD τ sig) → Buf (Elt F) ℓ) (ρ : Dev nD → PrngReg)

/-! ## The unscoped arrays at each stage, with the three a step touches set apart -/

abbrev UC : Finset (DevRef τ sig) := Pipeline.ucRefs τ sig
abbrev T3 : Finset (DevRef τ sig) := {a0', a1', v0'}
abbrev Tc : Finset (DevRef τ sig) := {v4', v6', v7'}
abbrev Tf : Finset (DevRef τ sig) := {a0', a1', a2', a3', v13'}
/-- A TensorCore reference that is not scoped is one of the unscoped device buffers. -/
theorem mem_UC (r : Ref sig .tc) (h : (Proc.devRef (τ := τ) .tc r).isScoped = false) : Proc.devRef (τ := τ) .tc r ∈ UC :=
  Finset.mem_filter.mpr ⟨StableHlo.devRef_mem_tcRefs r, by rw [h]; exact Bool.false_ne_true⟩
theorem hT3 : (T3 : Finset (DevRef τ sig)) ⊆ UC := by
  intro b hb; simp only [Finset.mem_insert, Finset.mem_singleton] at hb
  rcases hb with rfl | rfl | rfl <;> exact mem_UC _ (by decide)
theorem hTc : (Tc : Finset (DevRef τ sig)) ⊆ UC := by
  intro b hb; simp only [Finset.mem_insert, Finset.mem_singleton] at hb
  rcases hb with rfl | rfl | rfl <;> exact mem_UC _ (by decide)
theorem hTf : (Tf : Finset (DevRef τ sig)) ⊆ UC := by
  intro b hb; simp only [Finset.mem_insert, Finset.mem_singleton] at hb
  rcases hb with rfl | rfl | rfl | rfl | rfl <;> exact mem_UC _ (by decide)

omit [FloatOps F] in
theorem unscoped_held (d : Dev nD) :
    (unscopedBufs d (fun b => m ((SparseCore.T d).loc b)) : sProp 𝕄) = held (T d) UC (V0 m d) :=
  Pipeline.unscopedBufs_held (Ix := HIx 1) (Name := ℕ) (U := UU) (Lvl := ℕ) d (V0 m d)

omit [FloatOps F] in
theorem held_T3 (d : Dev nD) (W : Valuation τ sig (Elt F)) :
    (held (T d) T3 W : sProp 𝕄) = iprop((a0Loc d ↦{fullShare} W a0') ∗ (a1Loc d ↦{fullShare} W a1') ∗ (v0Loc d ↦{fullShare} W v0')) := by
  unfold held T3
  rw [SparseCore.bigSep_insert' (by decide), SparseCore.bigSep_insert' (by decide), bigSep_singleton]
omit [FloatOps F] in
theorem held_Tc (d : Dev nD) (W : Valuation τ sig (Elt F)) :
    (held (T d) Tc W : sProp 𝕄) = iprop((v4Loc d ↦{fullShare} W v4') ∗ (v6Loc d ↦{fullShare} W v6') ∗ (v7Loc d ↦{fullShare} W v7')) := by
  unfold held Tc
  rw [SparseCore.bigSep_insert' (by decide), SparseCore.bigSep_insert' (by decide), bigSep_singleton]
omit [FloatOps F] in
theorem held_Tf (d : Dev nD) (W : Valuation τ sig (Elt F)) :
    (held (T d) Tf W : sProp 𝕄) = iprop((a0Loc d ↦{fullShare} W a0') ∗ (a1Loc d ↦{fullShare} W a1') ∗ (a2Loc d ↦{fullShare} W a2')
      ∗ (a3Loc d ↦{fullShare} W a3') ∗ ((SparseCore.T d).loc main_v13 ↦{fullShare} W v13')) := by
  unfold held Tf
  rw [SparseCore.bigSep_insert' (by decide), SparseCore.bigSep_insert' (by decide), SparseCore.bigSep_insert' (by decide),
    SparseCore.bigSep_insert' (by decide), bigSep_singleton]

/-- Before the region: the two inputs and the result buffer, and the rest. -/
theorem held_V0 (d : Dev nD) : (held (T d) UC (V0 m d) : sProp 𝕄)
    = iprop(((a0Loc d ↦{fullShare} m (a0Loc d)) ∗ (a1Loc d ↦{fullShare} m (a1Loc d)) ∗ (v0Loc d ↦{fullShare} m (v0Loc d)))
        ∗ held (T d) (UC \ T3) (V0 m d)) := by
  rw [held_sub_split (T d) hT3 (V0 m d), held_T3]; rfl
/-- After it: the result buffer at the squared-difference sum. -/
theorem held_V1 (d : Dev nD) : (held (T d) UC (V1 m d) : sProp 𝕄)
    = iprop(((a0Loc d ↦{fullShare} m (a0Loc d)) ∗ (a1Loc d ↦{fullShare} m (a1Loc d)) ∗ (v0Loc d ↦{fullShare} X0 m d))
        ∗ held (T d) (UC \ T3) (V0 m d)) := by
  rw [held_sub_split (T d) hT3 (V1 m d), held_T3, V1_v0, V1_ne m d (by decide), V1_ne m d (by decide),
    held_congr (T d) (S := UC \ T3) (V := V1 m d) (V' := V0 m d) fun b hb => V1_ne m d fun e =>
      (Finset.mem_sdiff.mp hb).2 (by rw [e]; exact Finset.mem_insert_of_mem (Finset.mem_insert_of_mem (Finset.mem_singleton_self _)))]
/-- Before the call: its two inputs at the re-laid-out arguments, its output as launched, and the rest. -/
theorem held_V2 (d : Dev nD) : (held (T d) UC (V2 m d) : sProp 𝕄)
    = iprop(((v4Loc d ↦{fullShare} X4 m d) ∗ (v6Loc d ↦{fullShare} X6 m d) ∗ (v7Loc d ↦{fullShare} m (v7Loc d)))
        ∗ held (T d) (UC \ Tc) (V2 m d)) := by
  rw [held_sub_split (T d) hTc (V2 m d), held_Tc, V2_v4, V2_v6, V2_v7]
/-- After it: the output at the margins. -/
theorem held_V3 (d : Dev nD) : (held (T d) UC (V3 m d) : sProp 𝕄)
    = iprop(((v4Loc d ↦{fullShare} X4 m d) ∗ (v6Loc d ↦{fullShare} X6 m d) ∗ (v7Loc d ↦{fullShare} X7 m d))
        ∗ held (T d) (UC \ Tc) (V2 m d)) := by
  rw [held_sub_split (T d) hTc (V3 m d), held_Tc, V3_v7, V3_ne m d (by decide), V3_ne m d (by decide), V2_v4, V2_v6,
    held_congr (T d) (S := UC \ Tc) (V := V3 m d) (V' := V2 m d) fun b hb => V3_ne m d fun e =>
      (Finset.mem_sdiff.mp hb).2 (by rw [e]; exact Finset.mem_insert_of_mem (Finset.mem_insert_of_mem (Finset.mem_singleton_self _)))]

/-- What @main leaves the claim: the arguments as launched, the result at the program's value of them. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d))
    ∗ ((SparseCore.T d).loc main_v13 ↦{fullShare} KVal.kernelVal (F := F) (m (a0Loc d)) (m (a1Loc d)) (m (a2Loc d)) (m (a3Loc d))))

theorem held_V4 (d : Dev nD) : (held (T d) UC (V4 m d) : sProp 𝕄) = iprop(FIN m d ∗ held (T d) (UC \ Tf) (V4 m d)) := by
  rw [held_sub_split (T d) hTf (V4 m d), held_Tf, V4_arg0, V4_arg1, V4_arg2, V4_arg3, V4_v13]

/-! ## The host stretches' side conditions -/

theorem ops1_sub : (ops1 : List (HloOp τ sig (Elt F))).Forall fun op => op.bufs ⊆ StableHlo.tcRefs τ sig :=
  ⟨StableHlo.reshape_bufs_sub .., StableHlo.reshape_bufs_sub .., StableHlo.unary_bufs_sub .., StableHlo.reshape_bufs_sub ..,
    StableHlo.reshape_bufs_sub .., StableHlo.reshape_bufs_sub ..⟩
theorem ops2_sub : (ops2 : List (HloOp τ sig (Elt F))).Forall fun op => op.bufs ⊆ StableHlo.tcRefs τ sig :=
  ⟨StableHlo.nullary_bufs_sub .., StableHlo.binary_bufs_sub .., StableHlo.reshape_bufs_sub .., StableHlo.nullary_bufs_sub ..,
    StableHlo.binary_bufs_sub .., StableHlo.nullary_bufs_sub .., StableHlo.binary_bufs_sub .., StableHlo.nullary_bufs_sub ..,
    StableHlo.binary_bufs_sub .., StableHlo.binary_bufs_sub ..⟩
theorem hops1 : ∀ op ∈ (ops1 : List (HloOp τ sig (Elt F))), op.bufs ⊆ UC :=
  fun op h => Pipeline.sub_ucRefs op ((List.forall_iff_forall_mem.mp ops1_sub) op h)
theorem hops2 : ∀ op ∈ (ops2 : List (HloOp τ sig (Elt F))), op.bufs ⊆ UC :=
  fun op h => Pipeline.sub_ucRefs op ((List.forall_iff_forall_mem.mp ops2_sub) op h)
theorem hfresh1 : ∀ op ∈ (ops1 : List (HloOp τ sig (Elt F))), op.fresh = ∅ := by
  intro op h; simp only [List.mem_cons, List.not_mem_nil, or_false] at h
  rcases h with rfl | rfl | rfl | rfl | rfl | rfl <;> rfl
theorem hfresh2 : ∀ op ∈ (ops2 : List (HloOp τ sig (Elt F))), op.fresh = ∅ := by
  intro op h; simp only [List.mem_cons, List.not_mem_nil, or_false] at h
  rcases h with rfl | rfl | rfl | rfl | rfl | rfl | rfl | rfl | rfl | rfl <;> rfl

/-! ## The TensorCore's handshake state, opened at what it owes -/

omit [FloatOps F] in
/-- The state before call `n` is what the TensorCore owes, under its recorded waits' bound, beside the rest. -/
theorem tcSt_split (d : Dev nD) (n : ℕ) : ∃ R : sProp 𝕄, ((K (F := F)).tcSt EH d n : sProp 𝕄)
    = iprop((∃ W, ⌜(K (F := F)).WBelow (T d) W (8 * n)⌝ ∗ owes (T d) ((K (F := F)).Otc d n) W) ∗ R) := ⟨_, rfl⟩

/-! ## The region's step, as its module proves it -/

/-- From the level facts, the region boundary, the pipeline's ghost state, what the TensorCore owes, the two inputs
    at their launch contents and the result buffer at anything, the region's call runs to the same with the result
    buffer at the squared-difference sum. -/
def RegionStep : Prop :=
  ∀ (d : Dev nD) (W : Waits sig (HIx 1)), (K (F := F)).WBelow (T d) W 0 →
    ∀ {α : Type} (k : PUnit → Prog (TpuEff nD τ sig (Elt F) (SparseCore.Sig (ΛP (F := F)) 1) .tc) α) (Φ : α → sProp 𝕄),
    iprop(levAts (K (F := F)).L (K (F := F)).lev ∗ boundary (T d)
        ∗ Pipeline.cellsGhost (Pipeline.pin (pcfgs (F := F)) aAdm) EP 0 d ∗ Pipeline.toksInit (Pipeline.pin (pcfgs (F := F)) aAdm) EP 0 d
        ∗ owes (T d) ((K (F := F)).Otc d 0) W
        ∗ (a0Loc d ↦{fullShare} m (a0Loc d)) ∗ (a1Loc d ↦{fullShare} m (a1Loc d)) ∗ (∃ f, v0Loc d ↦{fullShare} f)
        ∗ (iprop(boundary (T d) ∗ (∃ W', ⌜(K (F := F)).WBelow (T d) W' 0⌝ ∗ owes (T d) ((K (F := F)).Otc d 0) W')
              ∗ (a0Loc d ↦{fullShare} m (a0Loc d)) ∗ (a1Loc d ↦{fullShare} m (a1Loc d)) ∗ (v0Loc d ↦{fullShare} X0 m d))
            -∗ wp frame (wpE ((K (F := F)).defs (D (F := F))) 𝒱 (T d) none) Set.univ (k ⟨⟩) Φ))
      ⊢ wp frame (wpE ((K (F := F)).defs (D (F := F))) 𝒱 (T d) none) Set.univ
          (.op (.customCall (SparseCore.inner (Pipeline.entry 0)) ()) k) Φ

/-- The same two equations with the valuations spelt as the host stretches leave them. -/
theorem held_after1 (d : Dev nD) : (held (T d) UC (StableHlo.after ops1 (V1 m d)) : sProp 𝕄)
    = iprop(((v4Loc d ↦{fullShare} X4 m d) ∗ (v6Loc d ↦{fullShare} X6 m d) ∗ (v7Loc d ↦{fullShare} m (v7Loc d)))
        ∗ held (T d) (UC \ Tc) (V2 m d)) := held_V2 m d
theorem held_after2 (d : Dev nD) : (held (T d) UC (StableHlo.after ops2 (V3 m d)) : sProp 𝕄)
    = iprop(FIN m d ∗ held (T d) (UC \ Tf) (V4 m d)) := held_V4 m d

/-! ## The call's operands and results, as the three arrays whole -/

theorem st0_eq (d : Dev nD) : (bigSep Finset.univ fun c : Fin ((K (F := F)).nCore 0) => (P m).st 0 d c)
    = (iprop((v4Loc d ↦{fullShare} X4 m d) ∗ (v6Loc d ↦{fullShare} X6 m d) ∗ (v7Loc d ↦{fullShare} m (v7Loc d))) : sProp 𝕄) :=
  (whole_eq_shares m d (m (v7Loc d))).symm
theorem dn0_eq (d : Dev nD) : (bigSep Finset.univ fun c : Fin ((K (F := F)).nCore 0) => (P m).dn 0 d c)
    = (iprop((v4Loc d ↦{fullShare} X4 m d) ∗ (v6Loc d ↦{fullShare} X6 m d) ∗ (v7Loc d ↦{fullShare} X7 m d)) : sProp 𝕄) :=
  (whole_eq_shares m d (X7 m d)).symm

/-! ## @main -/

set_option backward.isDefEq.respectTransparency.types false in
theorem hmain (hreg : RegionStep m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 0
  unfold SparseCore.Cfg.tcRes
  rw [unscoped_held, held_V0, main_eq, hR]
  simp only [Prog.lift, Prog.bind_op, Prog.bind_ret]
  iintro ⟨#Hctx, ⟨⟨%W, %hW, HO⟩, HR⟩, ⟨Hb, ⟨⟨Ha0, Ha1, Hv0⟩, Hrest⟩, -, -⟩, ⟨Hcg, Hti⟩⟩
  ihave Hlev := (SparseCore.Cfg.ctx_levAts (K := K (F := F)) (EH := EH) (P := P m) κ) $$ Hctx
  -- the region
  iapply (hreg d W hW _ _) $$ [Hlev Hb Hcg Hti HO Ha0 Ha1 Hv0 HR Hrest]
  isplitl [Hlev]; · iexact Hlev
  isplitl [Hb]; · iexact Hb
  isplitl [Hcg]; · iexact Hcg
  isplitl [Hti]; · iexact Hti
  isplitl [HO]; · iexact HO
  isplitl [Ha0]; · iexact Ha0
  isplitl [Ha1]; · iexact Ha1
  isplitl [Hv0]; · iexists _; iexact Hv0
  iintro ⟨Hb, ⟨%W', %hW', HO⟩, Ha0, Ha1, Hv0⟩
  -- the six re-layouts, within the unscoped arrays
  ihave Hheld := (Entails.of_eq (held_V1 m d).symm) $$ [Ha0 Ha1 Hv0 Hrest]
  · isplitl [Ha0 Ha1 Hv0]
    · isplitl [Ha0]; · iexact Ha0
      isplitl [Ha1]; · iexact Ha1
      iexact Hv0
    · iexact Hrest
  iapply (wp_seq 𝒱 none Set.univ d UC _ ops1 hops1 hfresh1 (V1 m d)) $$ [Hb Hheld]
  · isplitl [Hb]; · iexact Hb
    iexact Hheld
  iintro ⟨Hb, Hheld⟩
  -- the call: its three arrays cut out, the TensorCore's handshake state folded back
  ihave Hh := (Entails.of_eq (held_after1 m d)) $$ Hheld
  icases Hh with ⟨⟨Hv4, Hv6, Hv7⟩, Hrest⟩
  rw [wp_bind]
  iapply ((K (F := F)).wp_run (D (F := F)) 𝒱 (EH := EH) (P := P m) κ d 0) $$ [HO HR Hv4 Hv6 Hv7 Hb Hrest]
  isplitr; · iexact Hctx
  isplitl [HO HR]
  · iapply (Entails.of_eq (show (iprop((∃ W, ⌜(K (F := F)).WBelow (T d) W (8 * 0)⌝ ∗ owes (T d) ((K (F := F)).Otc d 0) W) ∗ R) : sProp 𝕄)
        = (K (F := F)).tcSt EH d (0 : Fin 1).val from hR.symm))
    isplitl [HO]
    · iexists W'; isplitr
      · ipureintro; exact hW'
      · iexact HO
    · iexact HR
  isplitl [Hv4 Hv6 Hv7]
  · rw [st0_eq]
    isplitl [Hv4]; · iexact Hv4
    isplitl [Hv6]; · iexact Hv6
    iexact Hv7
  iintro ⟨Hst, Hdn⟩
  ihave Hdn' := (Entails.of_eq (dn0_eq m d)) $$ Hdn
  icases Hdn' with ⟨Hv4, Hv6, Hv7⟩
  ihave Hheld := (Entails.of_eq (held_V3 m d).symm) $$ [Hv4 Hv6 Hv7 Hrest]
  · isplitl [Hv4 Hv6 Hv7]
    · isplitl [Hv4]; · iexact Hv4
      isplitl [Hv6]; · iexact Hv6
      iexact Hv7
    · iexact Hrest
  -- the last ten operations
  rw [show (StableHlo.seq (Λ := SparseCore.Sig (ΛP (F := F)) 1) (nD := nD) (ops2 (F := F))) = (StableHlo.seq ops2 >>= fun x => pure x) from (bind_pure _).symm]
  iapply (wp_seq 𝒱 none Set.univ d UC _ ops2 hops2 hfresh2 (V3 m d)) $$ [Hb Hheld]
  · isplitl [Hb]; · iexact Hb
    iexact Hheld
  iintro ⟨Hb, Hheld⟩
  ihave Hh := (Entails.of_eq (held_after2 m d)) $$ Hheld
  icases Hh with ⟨Hfin, -⟩
  rw [wp_pure]
  imodintro
  isplitl [Hst]; · iexact Hst
  iexact Hfin

end Cert.Kernel.Launch

end
-- ==== Proof.Bits.Launch5.lean ====
/-
  The program's run: every weakly fair execution of all its threads terminates, nothing faulting, with the result at
  `KVal.kernelVal` of the four arguments' launch contents and the arguments unchanged — the library's launch theorem
  for a SparseCore program, from the one vector-subcore call's task obligation, the identity split, the launch
  element, @main's proof and the reading of the final memory.
-/
import proofs.«205080_g78649441125020_cont_9to1_m_374_30_alg».proof.Proof.Bits.Launch4

noncomputable section

namespace Cert.Kernel.Launch

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

variable (m : (ℓ : Loc nD τ sig) → Buf (Elt F) ℓ) (ρ : Dev nD → PrngReg)

/-- What the final memory of device `d` reads: the result at the program's value, the four arguments as launched. -/
def fq (d : Dev nD) (s' : Phys nD τ sig (Elt F)) : Prop :=
  s'.mem.mem ((SparseCore.T d).loc main_v13) = KVal.kernelVal (F := F) (m (a0Loc d)) (m (a1Loc d)) (m (a2Loc d)) (m (a3Loc d))
  ∧ s'.mem.mem (a0Loc d) = m (a0Loc d) ∧ s'.mem.mem (a1Loc d) = m (a1Loc d)
  ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨H0, H1, H2, H3, H13⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := (SparseCore.T d).loc main_v13) (I := Finset.univ) (q := fullShare)
    (f := KVal.kernelVal (F := F) (m (a0Loc d)) (m (a1Loc d)) (m (a2Loc d)) (m (a3Loc d)))) $$ [HSI H13]
  · isplitl [HSI] <;> iassumption
  icases H with %h13
  ipureintro
  exact ⟨funext fun i => h13 i (Finset.mem_univ i), funext fun i => h0 i (Finset.mem_univ i), funext fun i => h1 i (Finset.mem_univ i),
    funext fun i => h2 i (Finset.mem_univ i), funext fun i => h3 i (Finset.mem_univ i)⟩

/-- The run's post: on every device the result at the program's value of the launch contents, the arguments unchanged. -/
def QC : PUnit × MemSt nD τ sig (Elt F) → Prop := fun r => ∀ c : Dev nD,
  r.2.mem ((SparseCore.T c).loc main_v13) = KVal.kernelVal (F := F) (m (a0Loc c)) (m (a1Loc c)) (m (a2Loc c)) (m (a3Loc c))
  ∧ r.2.mem (a0Loc c) = m (a0Loc c) ∧ r.2.mem (a1Loc c) = m (a1Loc c)
  ∧ r.2.mem (a2Loc c) = m (a2Loc c) ∧ r.2.mem (a3Loc c) = m (a3Loc c)

/-- The run, from the region's step and the subcores' task obligation. -/
theorem run_main [∀ e, Nonempty (Elt F e)] (hreg : RegionStep m) (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m) (u₀ (F := F)) (sep_elim_left.trans (hu₀ m)) (hmain m ρ hreg) (fq m) (hfin m) (QC m) (fun _ h => h)

end Cert.Kernel.Launch

end
-- ==== Proof.Bits.RegionBlocks.lean ====
/-
  The squared-difference sum runs over sixteen grid points. This module holds what is decided over the grid and what
  is read off the arrays, before any memory reasoning:

  * the body's two conditionals as functions of the point: the accumulator is zeroed exactly at the first point, and
    summed to one number exactly at the last;
  * block t of each input array, as the pipeline's fetch reads it (the array's elements under the window's rectangle
    at t), is the sixteen leading rows 16 t … 16 t + 15 of the array: an element at position j of the block sits at
    leading row 16 t + j₀ and at the same place on the other three axes.
-/
import proofs.«205080_g78649441125020_cont_9to1_m_374_30_alg».proof.Proof.Bits.Setup
import proofs.«205080_g78649441125020_cont_9to1_m_374_30_alg».proof.Proof.Gen.Kernel.Skeleton
import Idealize.ShloMosaic.Lib.Pipeline.FrameBody

noncomputable section

namespace Cert.Kernel.Region

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

variable (m : (ℓ : Loc nD τ sig) → Buf (Elt F) ℓ)

/-! ## The two conditionals, over the grid -/

/-- The condition of the body's first conditional, from the grid coordinates. -/
abbrev condFirst (i : grid0.Coords) : Prop :=
  (Scalar.cmpi .ne (Scalar.extui (Scalar.cmpi .eq (BitVec.ofNat 32 (i 0).val) 0#32)) 0#32) = 1#1

/-- It holds at the first point only. -/
theorem hcondFirst : ∀ t : Fin cfg0.N, condFirst (grid0.coords t) ↔ t.val = 0 :=
  (by decide +kernel : ∀ t : Fin grid0.N, condFirst (grid0.coords t) ↔ t.val = 0)

/-- The second conditional holds at the last point only. -/
theorem hcondLast : ∀ t : Fin cfg0.N, k0_cond2 (grid0.coords t) = 1#1 ↔ t.val = 15 :=
  (by decide +kernel : ∀ t : Fin grid0.N, k0_cond2 (grid0.coords t) = 1#1 ↔ t.val = 15)

/-! ## The input blocks -/

/-- Block `t` of each input array, read off the array through the window's rectangle at `t`. -/
def iblk0 (d : Dev nD) (t : Fin cfg0.N) : S16x3x224x224.Idx → Elt F .f32 :=
  ((cfg0.win 0).blk t).view.read (Elt F) (m (a0Loc d))
def iblk1 (d : Dev nD) (t : Fin cfg0.N) : S16x3x224x224.Idx → Elt F .f32 :=
  ((cfg0.win 1).blk t).view.read (Elt F) (m (a1Loc d))

/-- The block index of either input window at point `t` is `(t, 0, 0, 0)`. -/
theorem index0 : ∀ (t : Fin cfg0.N) (a : Fin 4), (cfg0.win 0).index t a = (![t.val, 0, 0, 0] : Fin 4 → ℕ) a :=
  (by decide +kernel : ∀ (t : Fin grid0.N) (a : Fin 4), win0_0.index t a = (![t.val, 0, 0, 0] : Fin 4 → ℕ) a)
theorem index1 : ∀ (t : Fin cfg0.N) (a : Fin 4), (cfg0.win 1).index t a = (![t.val, 0, 0, 0] : Fin 4 → ℕ) a :=
  (by decide +kernel : ∀ (t : Fin grid0.N) (a : Fin 4), win0_1.index t a = (![t.val, 0, 0, 0] : Fin 4 → ℕ) a)

/-- Where an element of block `t` sits in the array: block index times block size plus its own coordinate, axis by
    axis; on the leading axis `16 t + j₀ < 256`. -/
theorem emb0 (t : Fin cfg0.N) (j : S16x3x224x224.Idx) : ((cfg0.win 0).blk t).view.emb j = KVal.blkIdx t.val j := by
  have hN : t.val < 16 := lt_of_lt_of_eq t.isLt (show cfg0.N = 16 from N_0)
  funext a
  apply Fin.ext
  show (((cfg0.win 0).rect t).emb j a : ℕ) = _
  rw [Rect.emb_apply]
  show (cfg0.win 0).index t a * (cfg0.win 0).size a + 1 * (j a : ℕ) = _
  rw [index0]
  match a with
  | ⟨0, _⟩ =>
    have hj : (j 0).val < 16 := (j 0).isLt
    show t.val * 16 + 1 * (j 0).val = (16 * t.val + (j 0).val) % 256
    rw [Nat.mod_eq_of_lt (by omega)]; omega
  | ⟨1, _⟩ => show 0 * 3 + 1 * (j 1).val = (j 1).val; omega
  | ⟨2, _⟩ => show 0 * 224 + 1 * (j 2).val = (j 2).val; omega
  | ⟨3, _⟩ => show 0 * 224 + 1 * (j 3).val = (j 3).val; omega

theorem emb1 (t : Fin cfg0.N) (j : S16x3x224x224.Idx) : ((cfg0.win 1).blk t).view.emb j = KVal.blkIdx t.val j := by
  have hN : t.val < 16 := lt_of_lt_of_eq t.isLt (show cfg0.N = 16 from N_0)
  funext a
  apply Fin.ext
  show (((cfg0.win 1).rect t).emb j a : ℕ) = _
  rw [Rect.emb_apply]
  show (cfg0.win 1).index t a * (cfg0.win 1).size a + 1 * (j a : ℕ) = _
  rw [index1]
  match a with
  | ⟨0, _⟩ =>
    have hj : (j 0).val < 16 := (j 0).isLt
    show t.val * 16 + 1 * (j 0).val = (16 * t.val + (j 0).val) % 256
    rw [Nat.mod_eq_of_lt (by omega)]; omega
  | ⟨1, _⟩ => show 0 * 3 + 1 * (j 1).val = (j 1).val; omega
  | ⟨2, _⟩ => show 0 * 224 + 1 * (j 2).val = (j 2).val; omega
  | ⟨3, _⟩ => show 0 * 224 + 1 * (j 3).val = (j 3).val; omega

/-- Block `t` of an input array is its sixteen leading rows from `16 t`. -/
theorem iblk0_eq (d : Dev nD) (t : Fin cfg0.N) : iblk0 m d t = KVal.blk (F := F) (m (a0Loc d)) t.val := by
  funext j
  unfold iblk0 KVal.blk
  rw [View.read_apply, emb0]
  rfl
theorem iblk1_eq (d : Dev nD) (t : Fin cfg0.N) : iblk1 m d t = KVal.blk (F := F) (m (a1Loc d)) t.val := by
  funext j
  unfold iblk1 KVal.blk
  rw [View.read_apply, emb1]
  rfl

end Cert.Kernel.Region

end
-- ==== Proof.Bits.RegionData.lean ====
/-
  The proof data of the squared-difference sum's pipeline: what each array holds when the region is entered, what the
  body leaves in each window's staging buffer at each point, and what it carries from point to point.

  The two inputs are only read: their staging buffers hold block t at point t and the body leaves them so. The [1,1]
  result is stored once, at the last point, when the accumulator is summed. Between the points the body carries the
  [224,224] accumulator in its scratch buffer: anything before the first point (which zeroes it), and after n ≥ 1
  points the sum of the first n blocks' contributions.
-/
import proofs.«205080_g78649441125020_cont_9to1_m_374_30_alg».proof.Proof.Bits.RegionBlocks

noncomputable section

namespace Cert.Kernel.Region

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

variable (m : (ℓ : Loc nD τ sig) → Buf (Elt F) ℓ) (fv : (c : Dev nD) → Buf (Elt F) (v0Loc c))

/-- The scratch buffer that carries the accumulator, on device `d`'s TensorCore. -/
abbrev scrLoc (d : Dev nD) : Loc nD τ sig :=
  (Memref.whole cc0_scratch0 : Memref sig .tc .vmem S224x224 .f32).view.loc (SparseCore.T d)

/-- The accumulator between the points: before the first point the scratch holds anything; after `n ≥ 1` points it
    holds the first `n` blocks' contributions summed. -/
def accΦ (d : Dev nD) (n : ℕ) : sProp 𝕄 :=
  if n = 0 then iprop(∃ f, scrLoc d ↦{fullShare} f)
  else iprop(scrLoc d ↦{fullShare} KVal.accAt (F := F) (m (a0Loc d)) (m (a1Loc d)) n)

theorem accΦ_zero (d : Dev nD) : accΦ m d 0 = iprop(∃ f, scrLoc d ↦{fullShare} f) := if_pos rfl
theorem accΦ_pos (d : Dev nD) {n : ℕ} (h : n ≠ 0) :
    accΦ m d n = iprop(scrLoc d ↦{fullShare} KVal.accAt (F := F) (m (a0Loc d)) (m (a1Loc d)) n) := if_neg h

/-- What the last point stores in the result's staging word: the accumulator of all sixteen blocks, summed. -/
def outWord (d : Dev nD) : S1x1.Idx → Elt F .f32 := fun _ => k0_pay3 (KVal.accAt (F := F) (m (a0Loc d)) (m (a1Loc d)) 16)

/-- The proof data on device `d`: the three arrays at entry; the inputs' blocks left in place, the result's word at the
    last point; the accumulator; full shares; the TensorCore owes the launch what it owed on entry throughout (the body
    signals nobody), and records only pairs at level 0. -/
def pdat (d : Dev nD) : Dat τ (Elt F) (HIx 1) ℕ UU ℕ cfg0 d where
  A w := match w with
    | ⟨0, _⟩ => m (a0Loc d)
    | ⟨1, _⟩ => m (a1Loc d)
    | ⟨2, _⟩ => fv d
  after w t := match w with
    | ⟨0, _⟩ => iblk0 m d t
    | ⟨1, _⟩ => iblk1 m d t
    | ⟨2, _⟩ => outWord m d
  Φ t := accΦ m d t.val
  q _ := fullShare
  owed _ := (K (F := F)).Otc d 0
  recorded _ := {p | (K (F := F)).lev (SparseCore.T d, p.1) p.2 ≤ 0}

/-- The one pipeline's proof data, as the region rule takes them. -/
abbrev pdats : (p : Fin 1) → (c : Dev nD) → Dat τ (Elt F) (HIx 1) ℕ UU ℕ (Pipeline.pin (pcfgs (F := F)) aAdm p) c :=
  fun _ c => pdat m fv c

theorem arrAt_zero (d : Dev nD) (w : Fin cfg0.W) : (pdat m fv d).arrAt w 0 = (pdat m fv d).A w := rfl
theorem A_0 (d : Dev nD) : (pdat m fv d).A 0 = m (a0Loc d) := by dsimp only [pdat]
theorem A_1 (d : Dev nD) : (pdat m fv d).A 1 = m (a1Loc d) := by dsimp only [pdat]
theorem A_2 (d : Dev nD) : (pdat m fv d).A 2 = fv d := by dsimp only [pdat]
theorem after_0 (d : Dev nD) (t : Fin cfg0.N) : (pdat m fv d).after 0 t = iblk0 m d t := by dsimp only [pdat]
theorem after_1 (d : Dev nD) (t : Fin cfg0.N) : (pdat m fv d).after 1 t = iblk1 m d t := by dsimp only [pdat]
theorem after_2 (d : Dev nD) (t : Fin cfg0.N) : (pdat m fv d).after 2 t = outWord m d := by dsimp only [pdat]
theorem Φ_eq (d : Dev nD) (t : Fin (cfg0.N + 1)) : (pdat m fv d).Φ t = accΦ m d t.val := by dsimp only [pdat]
theorem owed_eq (d : Dev nD) (t : Fin (cfg0.N + 1)) : (pdat m fv d).owed t = (K (F := F)).Otc d 0 := by dsimp only [pdat]
theorem recorded_eq (d : Dev nD) (t : Fin (cfg0.N + 1)) :
    (pdat m fv d).recorded t = {p | (K (F := F)).lev (SparseCore.T d, p.1) p.2 ≤ 0} := by dsimp only [pdat]

/-- Each input's current staging buffer holds its block at every point: both are fetched at every point, and an uncut
    fetch fills the buffer with the block. -/
theorem before_0 (d : Dev nD) (t : Fin cfg0.N) (x) : (pdat m fv d).before 0 t x = iblk0 m d t := by
  rw [Dat.before_fetched _ 0 t (fetch0_0 t) x]
  unfold Dat.fetched Dat.blockOf iblk0
  rw [A_0]; rfl
theorem before_1 (d : Dev nD) (t : Fin cfg0.N) (x) : (pdat m fv d).before 1 t x = iblk1 m d t := by
  rw [Dat.before_fetched _ 1 t (fetch0_1 t) x]
  unfold Dat.fetched Dat.blockOf iblk1
  rw [A_1]; rfl

end Cert.Kernel.Region

end
-- ==== Proof.Bits.RegionRuns.lean ====
/-
  The body of the squared-difference sum, run once at a symbolic grid point in each of its three cases.

  On whole staging buffers holding a block of each input and the scratch holding the accumulator so far, the body adds
  the block's contribution to the accumulator: at the first point it zeroes the scratch first (whatever it held); at
  the last point it then sums the accumulator into the result's word; in between it does neither. The inputs' buffers
  are left as found.
-/
import proofs.«205080_g78649441125020_cont_9to1_m_374_30_alg».proof.Proof.Bits.RegionBlocks
import Idealize.ShloMosaic.Lib.Tactic

noncomputable section

namespace Cert.Kernel.Region

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

open Idealize.ShloMosaic.Tactic

/-! ## Loads and stores through the whole rectangle -/

section Whole

variable {sig' : RefSig} {κ : Kind} {sp : Space} {S : Shape} {e : EltTy} {Val : EltTy → Type}

/-- A load through the rectangle of the buffer's own sizes at zero offsets reads what the view reads. -/
theorem readAt_zero (v : View sig' κ sp S e) (f : v.ty.Contents Val) {off : Fin S.rank → ℕ} (h : off = fun _ => 0)
    (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

/-- After a last store through that rectangle the view reads the store's payload, whatever came before. -/
theorem read_writes_zero (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext x
  have := View.read_writes_cons_emb v f (Rect.whole S) w L x
  rwa [Rect.emb_whole_apply] at this

end Whole

theorem off2 : (![0, 0] : Fin 2 → ℕ) = fun _ => 0 := by decide
theorem off4 : (![0, 0, 0, 0] : Fin 4 → ℕ) = fun _ => 0 := by decide

/-- The scratch buffer as the body names it. -/
abbrev scrM : Memref sig .tc .vmem S224x224 .f32 := Memref.whole cc0_scratch0

variable [∀ e, Nonempty (Elt F e)]

/-- The scratch is a whole buffer: a store through its whole rectangle replaces its contents, a load through it reads
    them, and a load after such a store reads the store's payload. -/
theorem scr_writes (g : scrM.view.ty.Contents (Elt F)) (w : S224x224.Idx → Elt F .f32) (L : List (View.Piece (Elt F) S224x224 .f32)) :
    scrM.view.writes (Elt F) g (⟨Rect.unit ![0, 0] S224x224.size inb_S224x224_S224x224_0_0, w⟩ :: L) = w :=
  read_writes_zero scrM.view g off2 _ w L
theorem scr_readAt (g : scrM.view.ty.Contents (Elt F)) :
    scrM.view.readAt (Elt F) (Rect.unit ![0, 0] S224x224.size inb_S224x224_S224x224_0_0).toLoadRect g = g :=
  readAt_zero scrM.view g off2 _
theorem scr_readCov (w : S224x224.Idx → Elt F .f32) (L : List (View.Piece (Elt F) S224x224 .f32)) :
    scrM.view.readCov (⟨Rect.unit ![0, 0] S224x224.size inb_S224x224_S224x224_0_0, w⟩ :: L)
      (Rect.unit ![0, 0] S224x224.size inb_S224x224_S224x224_0_0).toLoadRect = w :=
  View.readCov_cons_toLoadRect _ _ _ _

/-- The scratch at contents `a`. -/
abbrev scrAt (c : Dev nD) (a : Vec F S224x224 .f32) : sProp 𝕄 :=
  iprop(∃ g, ⌜g = a⌝ ∗ (scrM.view.loc (SparseCore.T c) ↦{fullShare} g))

/-- THE FIRST POINT: the scratch, whatever it held, is zeroed and then holds the first block's contribution. -/
theorem run_first (c : Dev nD) (i : grid0.Coords) (arg1 : Memref sig .tc .vmem S16x3x224x224 .f32) (harg1 : arg1.IsWhole)
    (arg2 : Memref sig .tc .vmem S16x3x224x224 .f32) (harg2 : arg2.IsWhole) (arg3 : Memref sig .tc .smem S1x1 .f32) (harg3 : arg3.IsWhole)
    (hc1 : condFirst i) (hc2 : ¬k0_cond2 i = 1#1) (x0 x1 : Vec F S16x3x224x224 .f32) (E : Set ℕ) (Kk : PUnit → sProp 𝕄) :
    iprop(owns (SparseCore.T c) arg1 fullShare x0 ∗ owns (SparseCore.T c) arg2 fullShare x1
        ∗ (∃ g, scrM.view.loc (SparseCore.T c) ↦{fullShare} g)
        ∗ (iprop(owns (SparseCore.T c) arg1 fullShare x0 ∗ owns (SparseCore.T c) arg2 fullShare x1
            ∗ scrAt c (k0_pay2 x0 x1 (k0_pay1 (F := F)))) -∗ Kk ⟨⟩))
      ⊢ wp frame (wpE (defs₀ (F := F)) 𝒱₀ (SparseCore.T c) none) E
          (cc0__mse_body i arg1 harg1 arg2 harg2 arg3 harg3 (Memref.whole cc0_scratch0) (Memref.isWhole_whole _)) Kk := by
  unfold owns
  iintro ⟨⟨%f0, %hf0, H0⟩, ⟨%f1, %hf1, H1⟩, ⟨%g, Hs⟩, Hk⟩
  sl_unfold [cc0__mse_body]
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  iexists _; isplitr
  swap; · iexact Hs
  ipureintro
  rw [scr_writes, readAt_zero _ _ off4, readAt_zero _ _ off4, hf0, hf1]
  sl_unfold_run_names
  rw [scr_readCov]

/-- A MIDDLE POINT: the block's contribution is added to the accumulator. -/
theorem run_mid (c : Dev nD) (i : grid0.Coords) (arg1 : Memref sig .tc .vmem S16x3x224x224 .f32) (harg1 : arg1.IsWhole)
    (arg2 : Memref sig .tc .vmem S16x3x224x224 .f32) (harg2 : arg2.IsWhole) (arg3 : Memref sig .tc .smem S1x1 .f32) (harg3 : arg3.IsWhole)
    (hc1 : ¬condFirst i) (hc2 : ¬k0_cond2 i = 1#1) (x0 x1 : Vec F S16x3x224x224 .f32) (acc : Vec F S224x224 .f32)
    (E : Set ℕ) (Kk : PUnit → sProp 𝕄) :
    iprop(owns (SparseCore.T c) arg1 fullShare x0 ∗ owns (SparseCore.T c) arg2 fullShare x1
        ∗ (scrM.view.loc (SparseCore.T c) ↦{fullShare} acc)
        ∗ (iprop(owns (SparseCore.T c) arg1 fullShare x0 ∗ owns (SparseCore.T c) arg2 fullShare x1
            ∗ scrAt c (k0_pay2 x0 x1 acc)) -∗ Kk ⟨⟩))
      ⊢ wp frame (wpE (defs₀ (F := F)) 𝒱₀ (SparseCore.T c) none) E
          (cc0__mse_body i arg1 harg1 arg2 harg2 arg3 harg3 (Memref.whole cc0_scratch0) (Memref.isWhole_whole _)) Kk := by
  unfold owns
  iintro ⟨⟨%f0, %hf0, H0⟩, ⟨%f1, %hf1, H1⟩, Hs, Hk⟩
  sl_unfold [cc0__mse_body]
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  iexists _; isplitr
  swap; · iexact Hs
  ipureintro
  rw [scr_writes, readAt_zero _ _ off4, readAt_zero _ _ off4, hf0, hf1, scr_readAt]

/-- THE LAST POINT: the contribution is added, and the accumulator summed into the result's word. -/
theorem run_last (c : Dev nD) (i : grid0.Coords) (arg1 : Memref sig .tc .vmem S16x3x224x224 .f32) (harg1 : arg1.IsWhole)
    (arg2 : Memref sig .tc .vmem S16x3x224x224 .f32) (harg2 : arg2.IsWhole) (arg3 : Memref sig .tc .smem S1x1 .f32) (harg3 : arg3.IsWhole)
    (hc1 : ¬condFirst i) (hc2 : k0_cond2 i = 1#1) (x0 x1 : Vec F S16x3x224x224 .f32) (acc : Vec F S224x224 .f32) (x3 : Vec F S1x1 .f32)
    (E : Set ℕ) (Kk : PUnit → sProp 𝕄) :
    iprop(owns (SparseCore.T c) arg1 fullShare x0 ∗ owns (SparseCore.T c) arg2 fullShare x1
        ∗ owns (SparseCore.T c) arg3 fullShare x3
        ∗ (scrM.view.loc (SparseCore.T c) ↦{fullShare} acc)
        ∗ (iprop(owns (SparseCore.T c) arg1 fullShare x0 ∗ owns (SparseCore.T c) arg2 fullShare x1
            ∗ owns (SparseCore.T c) arg3 fullShare (fun _ => k0_pay3 (k0_pay2 x0 x1 acc))
            ∗ scrAt c (k0_pay2 x0 x1 acc)) -∗ Kk ⟨⟩))
      ⊢ wp frame (wpE (defs₀ (F := F)) 𝒱₀ (SparseCore.T c) none) E
          (cc0__mse_body i arg1 harg1 arg2 harg2 arg3 harg3 (Memref.whole cc0_scratch0) (Memref.isWhole_whole _)) Kk := by
  unfold owns
  iintro ⟨⟨%f0, %hf0, H0⟩, ⟨%f1, %hf1, H1⟩, ⟨%f3, %hf3, H3⟩, Hs, Hk⟩
  sl_unfold [cc0__mse_body]
  sl_exec (disch := first | exact hc1 | exact hc2)
  sl_step
  iapply Hk
  isplitl [H0]
  · iexists f0; isplitr; · ipureintro; exact hf0
    iexact H0
  isplitl [H1]
  · iexists f1; isplitr; · ipureintro; exact hf1
    iexact H1
  isplitl [H3]
  · iexists _; isplitr
    swap; · iexact H3
    ipureintro
    rw [read_writes_zero _ _ off2]
    sl_unfold_run_names
    rw [scr_readCov, readAt_zero _ _ off4, readAt_zero _ _ off4, hf0, hf1, scr_readAt]
    rfl
  iexists _; isplitr
  swap; · iexact Hs
  ipureintro
  sl_unfold_run_names
  rw [scr_writes, readAt_zero _ _ off4, readAt_zero _ _ off4, hf0, hf1, scr_readAt]

end Cert.Kernel.Region

end
-- ==== Proof.Bits.RegionBody.lean ====
/-
  The body obligation of the squared-difference sum's pipeline: at every grid point, from the accumulator as the points
  before left it and each window's current staging buffer at what it then holds, the body runs to the accumulator one
  block further and each staging buffer at what the proof data say it leaves.

  The point is in one of three cases, decided in closed form over the grid: the first point (the scratch is zeroed
  before the block is added), a middle point, the last point (the accumulator is then summed into the result's word).
  The result's window is idle at every point but the last, where it is also written back: there its staging word is
  handed back as found.
-/
import proofs.«205080_g78649441125020_cont_9to1_m_374_30_alg».proof.Proof.Bits.RegionData
import proofs.«205080_g78649441125020_cont_9to1_m_374_30_alg».proof.Proof.Bits.RegionRuns

noncomputable section

namespace Cert.Kernel.Region

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

open Idealize.ShloMosaic.Tactic
open Idealize.ShloMosaic.Pipeline (BodyObligationLoose)

variable (m : (ℓ : Loc nD τ sig) → Buf (Elt F) ℓ) (fv : (c : Dev nD) → Buf (Elt F) (v0Loc c))
variable [∀ e, Nonempty (Elt F e)]

/-! ## Where the result's window is idle and where it is written back -/

theorem hidle2 : ∀ t : Fin cfg0.N, cfg0.idle 2 (cfg0.grid.coords t) = true ↔ t.val ≠ 15 :=
  (by decide +kernel : ∀ t : Fin grid0.N, idle0 2 (grid0.coords t) = true ↔ t.val ≠ 15)

theorem grid_lt (t : Fin cfg0.N) : t.val < 16 := lt_of_lt_of_eq t.isLt (show cfg0.N = 16 from N_0)

theorem hflush2 (t : Fin cfg0.N) (h : t.val ≠ 15) : (cfg0.win 2).flush t = false := by
  have hN := grid_lt t
  rw [Bool.eq_false_iff]; intro hf
  have := (flush0_2 t).mp hf
  omega

/-- At a point before the last the result's staging word is left as found; -/
theorem leaves2_idle (d : Dev nD) (t : Fin cfg0.N) (h : t.val ≠ 15) :
    (pdat m fv d).leaves 2 t = iprop(∃ x, owns (SparseCore.T d) (st0_2 t) fullShare ((pdat m fv d).before 2 t x)) :=
  Dat.leaves_idle _ 2 t ((hidle2 t).mpr h) (hflush2 t h)

/-- at the last it holds the summed accumulator. -/
theorem leaves2_live (d : Dev nD) (t : Fin cfg0.N) (h : t.val = 15) :
    (pdat m fv d).leaves 2 t = owns (SparseCore.T d) (st0_2 t) fullShare (outWord m d) := by
  have hi : cfg0.idle 2 (cfg0.grid.coords t) = false := by
    rw [Bool.eq_false_iff]; intro hi; exact (hidle2 t).mp hi h
  unfold Dat.leaves; rw [hi, after_2]

/-! ## The accumulator, one block further -/

theorem acc_step (d : Dev nD) (t : Fin cfg0.N) :
    k0_pay2 (iblk0 m d t) (iblk1 m d t) (KVal.accAt (F := F) (m (a0Loc d)) (m (a1Loc d)) t.val)
      = KVal.accAt (F := F) (m (a0Loc d)) (m (a1Loc d)) (t.val + 1) := by
  rw [iblk0_eq, iblk1_eq]; rfl

/-- What the TensorCore owes, and the bound on what its waits have recorded, do not change from point to point. -/
theorem owesAt_eq (d : Dev nD) (t t' : Fin (cfg0.N + 1)) : (pdat m fv d).owesAt none t = (pdat m fv d).owesAt none t' := by
  unfold Dat.owesAt Dat.bound; rw [owed_eq, owed_eq, recorded_eq, recorded_eq]

/-! ## The obligation at a point -/

/-- What the body is called with at point `t`, the windows one by one, -/
def bodyPre (d : Dev nD) (t : Fin cfg0.N) : sProp 𝕄 :=
  iprop((pdat m fv d).Φ t.castSucc ∗ (pdat m fv d).owesAt none t.castSucc
    ∗ (∃ x, owns (SparseCore.T d) (st0_0 t) fullShare ((pdat m fv d).before 0 t x))
    ∗ (∃ x, owns (SparseCore.T d) (st0_1 t) fullShare ((pdat m fv d).before 1 t x))
    ∗ (∃ x, owns (SparseCore.T d) (st0_2 t) fullShare ((pdat m fv d).before 2 t x)))

/-- and what it returns. -/
def bodyPost (d : Dev nD) (t : Fin cfg0.N) : sProp 𝕄 :=
  iprop((pdat m fv d).Φ t.succ ∗ (pdat m fv d).owesAt none t.succ
    ∗ owns (SparseCore.T d) (st0_0 t) fullShare ((pdat m fv d).after 0 t)
    ∗ owns (SparseCore.T d) (st0_1 t) fullShare ((pdat m fv d).after 1 t)
    ∗ (pdat m fv d).leaves 2 t)

set_option maxHeartbeats 800000 in
theorem sound_body (d : Dev nD) (t : Fin cfg0.N) :
    bodyPre m fv d t ⊢ wp frame (wpE (defs₀ (F := F)) 𝒱₀ (SparseCore.T d) none) Set.univ (bodyAt0 t) (fun _ => bodyPost m fv d t) := by
  have hN := grid_lt t
  unfold bodyPre bodyPost bodyAt0
  simp only [before_0, before_1]
  rw [owesAt_eq m fv d t.succ t.castSucc, after_0, after_1, Φ_eq, Φ_eq, Fin.coe_castSucc, Fin.val_succ,
    accΦ_pos m d (Nat.succ_ne_zero t.val), ← acc_step m d t]
  by_cases h0 : t.val = 0
  · -- the first point
    have h15 : t.val ≠ 15 := by omega
    have e0 : accΦ m d t.val = iprop(∃ f, scrLoc d ↦{fullShare} f) := by rw [h0]; exact accΦ_zero m d
    have ea : KVal.accAt (F := F) (m (a0Loc d)) (m (a1Loc d)) t.val = k0_pay1 (F := F) := by rw [h0]; rfl
    rw [leaves2_idle m fv d t h15, e0, ea]
    iintro ⟨⟨%g, Hs⟩, Ho, ⟨%x0, H0⟩, ⟨%x1, H1⟩, H2⟩
    iapply (run_first d (grid0.coords t) _ _ _ _ _ _ ((hcondFirst t).mpr h0) (fun h => h15 ((hcondLast t).mp h))
      (iblk0 m d t) (iblk1 m d t) Set.univ _)
    isplitl [H0]; · iexact H0
    isplitl [H1]; · iexact H1
    isplitl [Hs]; · iexists g; iexact Hs
    iintro ⟨H0, H1, ⟨%g', %hg', Hs⟩⟩
    subst hg'
    isplitl [Hs]; · iexact Hs
    isplitl [Ho]; · iexact Ho
    isplitl [H0]; · iexact H0
    isplitl [H1]; · iexact H1
    iexact H2
  · rw [accΦ_pos m d h0]
    by_cases h15 : t.val = 15
    · -- the last point
      have e16 : KVal.accAt (F := F) (m (a0Loc d)) (m (a1Loc d)) 16 = KVal.accAt (F := F) (m (a0Loc d)) (m (a1Loc d)) (t.val + 1) := by rw [h15]
      rw [leaves2_live m fv d t h15]
      unfold outWord
      rw [e16, ← acc_step m d t]
      iintro ⟨Hs, Ho, ⟨%x0, H0⟩, ⟨%x1, H1⟩, ⟨%x2, H2⟩⟩
      iapply (run_last d (grid0.coords t) _ _ _ _ _ _ (fun h => h0 ((hcondFirst t).mp h)) ((hcondLast t).mpr h15)
        (iblk0 m d t) (iblk1 m d t) (KVal.accAt (F := F) (m (a0Loc d)) (m (a1Loc d)) t.val) _ Set.univ _)
      isplitl [H0]; · iexact H0
      isplitl [H1]; · iexact H1
      isplitl [H2]; · iexact H2
      isplitl [Hs]; · iexact Hs
      iintro ⟨H0, H1, H2, ⟨%g', %hg', Hs⟩⟩
      subst hg'
      isplitl [Hs]; · iexact Hs
      isplitl [Ho]; · iexact Ho
      isplitl [H0]; · iexact H0
      isplitl [H1]; · iexact H1
      iexact H2
    · -- a middle point
      rw [leaves2_idle m fv d t h15]
      iintro ⟨Hs, Ho, ⟨%x0, H0⟩, ⟨%x1, H1⟩, H2⟩
      iapply (run_mid d (grid0.coords t) _ _ _ _ _ _ (fun h => h0 ((hcondFirst t).mp h)) (fun h => h15 ((hcondLast t).mp h))
        (iblk0 m d t) (iblk1 m d t) (KVal.accAt (F := F) (m (a0Loc d)) (m (a1Loc d)) t.val) Set.univ _)
      isplitl [H0]; · iexact H0
      isplitl [H1]; · iexact H1
      isplitl [Hs]; · iexact Hs
      iintro ⟨H0, H1, ⟨%g', %hg', Hs⟩⟩
      subst hg'
      isplitl [Hs]; · iexact Hs
      isplitl [Ho]; · iexact Ho
      isplitl [H0]; · iexact H0
      isplitl [H1]; · iexact H1
      iexact H2

/-- The library's body obligation, at every point. -/
theorem body_obligation (d : Dev nD) : BodyObligationLoose (pdat (F := F) m fv d) defs₀ 𝒱₀ none Set.univ := fun t => by
  rw [bigSep_W0, bigSep_W0]
  exact sound_body m fv d t

end Cert.Kernel.Region

end
-- ==== Proof.Bits.RegionSeg.lean ====
/-
  The squared-difference sum as one kernel region of the program: what the region is entered with and what it leaves.

  It is entered holding the two input arrays at their launch contents and the [1,1] result array at anything, the
  TensorCore owing the launch what it owes before the first SparseCore call, its recorded waits all at level 0. It
  leaves the inputs unchanged, the result at the sum of the sixteen blocks' accumulator, and the TensorCore owing the
  same, its recorded waits still at level 0 (the pipeline's own waits are at the kernels' index, level 0).

  The result array after the run is what the last point flushed: it is one block, written back once. The waits of
  the pipeline sit below everything the TensorCore owes, which is all at a call's index.
-/
import proofs.«205080_g78649441125020_cont_9to1_m_374_30_alg».proof.Proof.Bits.RegionBody
import Idealize.ShloMosaic.Lib.Pipeline.Value

noncomputable section

namespace Cert.Kernel.Region

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

open Idealize.ShloMosaic.Pipeline (BodyObligationLoose)

variable (m : (ℓ : Loc nD τ sig) → Buf (Elt F) ℓ) (fv : (c : Dev nD) → Buf (Elt F) (v0Loc c))
variable [∀ e, Nonempty (Elt F e)]

/-! ## What the TensorCore owes is all at a call's index -/

theorem Otc_none (d : Dev nD) (g : GSem nD τ sig) : (K (F := F)).Otc d 0 g none = 0 := by
  by_contra h
  have := (K (F := F)).lev_of_Otc_pos (d := d) (n := 0) (g := g) (ι := none) (Nat.pos_of_ne_zero h)
  rw [SparseCore.Cfg.lev_none] at this
  omega

/-! ## The pieces of the region's entailments -/

theorem bigSep_Fin0 {M : Type} [URA M] (Φ : Fin 0 → sProp M) : bigSep Finset.univ Φ = (BI.emp : sProp M) :=
  bigSep_univ_eq_bigSepL [] (by decide) (by decide) Φ

theorem prefHeld_none (c : Dev nD) (q) (pf) :
    (Pipeline.prefHeld (Ix := HIx 1) (Name := ℕ) (U := UU) (Lvl := ℕ) (Val := Elt F) (pcfgs (F := F) 0).pre c q pf : sProp 𝕄) = BI.emp :=
  bigSep_Fin0 _

theorem scopedRest_eq (c : Dev nD) :
    (Pipeline.scopedRest (Ix := HIx 1) (Name := ℕ) (U := UU) (Lvl := ℕ) (Val := Elt F) (Pipeline.pin (pcfgs (F := F)) aAdm 0).spec c : sProp 𝕄)
      = iprop(∃ f, scrLoc c ↦{fullShare} f) :=
  scopedRest0_eq c

theorem share_full (c : Dev nD) (w : Fin cfg0.W) : (pdat m fv c).share w = fullShare :=
  (pdat m fv c).share_full (fun _ => rfl) w

theorem arrays_eq3 (c : Dev nD) (Fa : (w : Fin cfg0.W) → Buf (Elt F) ((cfg0.win w).arr.view.loc (c.tc : Thread nD τ))) :
    ((pdat m fv c).arrays Fa : sProp 𝕄)
      = iprop((a0Loc c ↦{fullShare} Fa 0) ∗ (a1Loc c ↦{fullShare} Fa 1) ∗ (v0Loc c ↦{fullShare} Fa 2)) := by
  rw [Pipeline.arrays_eq (Pipeline.pin (pcfgs (F := F)) aAdm) (pdats m fv) 0 c arr_whole0 (share_full m fv c) Fa, bigSep_W0]

/-- The result array after the run: its one block, written back once at the last point, holds the summed accumulator. -/
theorem arrAt_2 (c : Dev nD) : (pdat m fv c).arrAt 2 cfg0.N = X0 m c := by
  refine Dat.arrAt_eq_of_cover (pdat m fv c) 2 (X0 m c) (fun t hf => ?_) (fun i => ?_)
  · funext y
    show (cfg0.win 2).cut _ ((pdat m fv c).after 2 t) y = _
    rw [after_2, View.read_apply]
    rfl
  · refine ⟨t0_15, (flush0_2 t0_15).mpr rfl, ?_⟩
    let y : ((cfg0.win 2).xblock (cfg0.grid.coords t0_15)).Idx := fun a =>
      match a with
      | ⟨0, _⟩ => ⟨0, (show (0 : ℕ) < 1 from Nat.zero_lt_one)⟩
      | ⟨1, _⟩ => ⟨0, (show (0 : ℕ) < 1 from Nat.zero_lt_one)⟩
    have hi : i = ((cfg0.win 2).blk t0_15).view.emb y := by
      funext a; apply Fin.ext
      have h1 := (i a).isLt
      have h2 := (((cfg0.win 2).blk t0_15).view.emb y a).isLt
      match a with
      | ⟨0, _⟩ => exact (Nat.lt_one_iff.mp h1).trans (Nat.lt_one_iff.mp h2).symm
      | ⟨1, _⟩ => exact (Nat.lt_one_iff.mp h1).trans (Nat.lt_one_iff.mp h2).symm
    rw [hi]; exact View.emb_mem_set _ y

/-! ## What the TensorCore owes, as the pipeline holds it -/

/-- The TensorCore owing what it owes before the first SparseCore call, its recorded waits at level 0. -/
abbrev owesTc (c : Dev nD) : sProp 𝕄 :=
  iprop(∃ W, ⌜(Setup.K (F := F)).WBelow (SparseCore.T c) W 0⌝ ∗ owes (SparseCore.T c) ((Setup.K (F := F)).Otc c 0) W)

theorem owesAt_intro (c : Dev nD) (t : Fin (cfg0.N + 1)) : owesTc (F := F) c ⊢ ((pdat m fv c).owesAt none t : sProp 𝕄) := by
  unfold Dat.owesAt Pipeline.owesWithin Dat.bound
  rw [owed_eq, recorded_eq]
  iintro ⟨%W, %hW, HO⟩; iexists W; isplitr
  · ipureintro; exact fun p hp => Or.inl (hW p (Finset.mem_coe.mp hp))
  iexact HO

theorem owesAt_elim (c : Dev nD) (t : Fin (cfg0.N + 1)) : ((pdat m fv c).owesAt none t : sProp 𝕄) ⊢ owesTc (F := F) c := by
  unfold Dat.owesAt Pipeline.owesWithin Dat.bound
  rw [owed_eq, recorded_eq]
  iintro ⟨%W, %hW, HO⟩; iexists W; isplitr
  · ipureintro; intro p hp
    rcases hW (Finset.mem_coe.mpr hp) with h | ⟨w, s, rfl⟩
    · exact h
    · exact le_of_eq ((Setup.K (F := F)).lev_none _)
  iexact HO

/-! ## The region -/

/-- The thread state the region is entered from, -/
def pre (c : Dev nD) : sProp 𝕄 :=
  iprop(owesTc (F := F) c
    ∗ (a0Loc c ↦{fullShare} m (a0Loc c)) ∗ (a1Loc c ↦{fullShare} m (a1Loc c)) ∗ (v0Loc c ↦{fullShare} fv c))

/-- and the one it leaves. -/
def post (c : Dev nD) : sProp 𝕄 :=
  iprop(owesTc (F := F) c
    ∗ (a0Loc c ↦{fullShare} m (a0Loc c)) ∗ (a1Loc c ↦{fullShare} m (a1Loc c)) ∗ (v0Loc c ↦{fullShare} X0 m c))

theorem last_val : (Fin.last cfg0.N).val = 16 := N_0

/-- The squared-difference sum as a kernel region. -/
def region : Pipeline.RegionSeg (pcfgs (F := F)) aAdm (pdats m fv) none defs₀ 𝒱₀ (Setup.K (F := F)).L (Setup.K (F := F)).lev 0 where
  win := winFacts0.to₀
  block_pos := block_pos0
  stage_whole := stage_whole0
  K := PEmpty
  osem k := k.elim
  ho := Pipeline.OwnSemFacts.none _
  hbody c := body_obligation m fv c
  hwaits c := Pipeline.cellsWaits_of_cut (Pipeline.pin (pcfgs (F := F)) aAdm) (pdats m fv) none 0 c 0 ((Setup.K (F := F)).Otc c 0)
    (fun t => owed_eq m fv c t) (fun _ _ => Finset.mem_univ _) (fun _ _ => le_of_eq ((Setup.K (F := F)).lev_none _))
    (fun g i h => ⟨Finset.mem_univ _, by
      cases i with
      | none => rw [Otc_none] at h; exact absurd h (lt_irrefl 0)
      | some q => exact (Setup.K (F := F)).lev_some_pos g q⟩)
  pre := pre m fv
  post := post m
  X _ := iprop(emp)
  Y _ := iprop(emp)
  Z _ := iprop(emp)
  hentry c := by
    unfold pre
    rw [Pipeline.ownSems0_none, arrays_eq3, prefHeld_none, arrAt_zero, arrAt_zero, arrAt_zero, A_0, A_1, A_2]
    iintro ⟨⟨HO, Ha0, Ha1, Hv0⟩, -, -⟩
    imodintro
    isplitl [Ha0 Ha1 Hv0]
    · isplitl [Ha0]; · iexact Ha0
      isplitl [Ha1]; · iexact Ha1
      iexact Hv0
    isplitr; · iempintro
    isplitl [HO]; · iapply (owesAt_intro m fv c 0); iexact HO
    isplitr <;> iempintro
  hin c := by
    rw [scopedRest_eq, Φ_eq, show ((0 : Fin (cfg0.N + 1)).val) = 0 from rfl, accΦ_zero]
    iintro ⟨-, -, H⟩; iexact H
  hout c := by
    rw [Pipeline.ownSems0_none, scopedRest_eq, Φ_eq, last_val, accΦ_pos m c (by decide)]
    iintro H
    isplitr; · iempintro
    isplitr; · iempintro
    iexists _; iexact H
  hexit c := by
    unfold post
    rw [arrays_eq3, arrAt_2, Dat.arrAt_in _ 0 rfl, Dat.arrAt_in _ 1 rfl, A_0, A_1]
    iintro ⟨⟨Ha0, Ha1, Hv0⟩, HO, -, -⟩
    imodintro
    isplitl [HO]; · iapply (owesAt_elim m fv c _); iexact HO
    isplitl [Ha0]; · iexact Ha0
    isplitl [Ha1]; · iexact Ha1
    iexact Hv0

end Cert.Kernel.Region

end
-- ==== Proof.Bits.RegionStep.lean ====
/-
  The squared-difference sum as one step of the program's main thread: from the two input arrays at their launch
  contents and the result array at anything, the TensorCore's call of the kernel runs to the inputs unchanged and the
  result at the sum of the sixteen blocks' accumulator, the TensorCore owing the launch throughout what it owed on
  entry.

  The kernel region is proved under the program's own body table; the call in the main thread is the same call seen
  through the table extended with the SparseCore dispatch labels, and whatever follows it is bound after it.
-/
import proofs.«205080_g78649441125020_cont_9to1_m_374_30_alg».proof.Proof.Bits.Setup
import proofs.«205080_g78649441125020_cont_9to1_m_374_30_alg».proof.Proof.Bits.RegionSeg
import proofs.«205080_g78649441125020_cont_9to1_m_374_30_alg».proof.Proof.Gen.Kernel.Skeleton

noncomputable section

namespace Cert.Kernel
namespace Region

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
local notation "𝕄" => MT nD τ sig (HIx 1) (Elt F) ℕ UU ℕ

/-- The region's entry state from what the main thread holds. -/
theorem pre_intro [∀ e, Nonempty (Elt F e)] (m : (ℓ : Loc nD τ sig) → Buf (Elt F) ℓ) (fv : (c : Dev nD) → Buf (Elt F) (v0Loc c))
    (d : Dev nD) (W : Waits sig (HIx 1)) (hW : (K (F := F)).WBelow (SparseCore.T d) W 0) :
    iprop(owes (SparseCore.T d) ((K (F := F)).Otc d 0) W
        ∗ (a0Loc d ↦{fullShare} m (a0Loc d)) ∗ (a1Loc d ↦{fullShare} m (a1Loc d)) ∗ (v0Loc d ↦{fullShare} fv d))
      ⊢ (pre m fv d : sProp 𝕄) := by
  unfold pre
  iintro ⟨HO, Ha0, Ha1, Hv0⟩
  isplitl [HO]
  · iexists W; isplitr; · ipureintro; exact hW
    iexact HO
  isplitl [Ha0]; · iexact Ha0
  isplitl [Ha1]; · iexact Ha1
  iexact Hv0

theorem mse_region [∀ e, Nonempty (Elt F e)] (m : (ℓ : Loc nD τ sig) → Buf (Elt F) ℓ) (d : Dev nD)
    (W : Waits sig (HIx 1)) (hW : (K (F := F)).WBelow (T d) W 0)
    {α : Type} (k : PUnit → Prog (TpuEff nD τ sig (Elt F) (SparseCore.Sig (ΛP (F := F)) 1) .tc) α) (Φ : α → sProp 𝕄) :
    iprop(levAts (K (F := F)).L (K (F := F)).lev ∗ boundary (T d)
        ∗ Pipeline.cellsGhost (Pipeline.pin (pcfgs (F := F)) aAdm) EP 0 d ∗ Pipeline.toksInit (Pipeline.pin (pcfgs (F := F)) aAdm) EP 0 d
        ∗ owes (T d) ((K (F := F)).Otc d 0) W
        ∗ (a0Loc d ↦{fullShare} m (a0Loc d)) ∗ (a1Loc d ↦{fullShare} m (a1Loc d)) ∗ (∃ f, v0Loc d ↦{fullShare} f)
        ∗ (iprop(boundary (T d) ∗ (∃ W', ⌜(K (F := F)).WBelow (T d) W' 0⌝ ∗ owes (T d) ((K (F := F)).Otc d 0) W')
              ∗ (a0Loc d ↦{fullShare} m (a0Loc d)) ∗ (a1Loc d ↦{fullShare} m (a1Loc d)) ∗ (v0Loc d ↦{fullShare} X0 m d))
            -∗ wp frame (wpE ((K (F := F)).defs (D (F := F))) 𝒱 (T d) none) Set.univ (k ⟨⟩) Φ))
      ⊢ wp frame (wpE ((K (F := F)).defs (D (F := F))) 𝒱 (T d) none) Set.univ
          (.op (.customCall (SparseCore.inner (Pipeline.entry 0)) ()) k) Φ := by
  have hprog : (Prog.op (TpuEff.customCall (SparseCore.inner (Pipeline.entry 0)) ()) k
        : Prog (TpuEff nD τ sig (Elt F) (SparseCore.Sig (ΛP (F := F)) 1) .tc) α)
      = ((SparseCore.liftProg (Prog.op (TpuEff.customCall (Pipeline.entry 0) ()) fun x => Prog.ret x)
          : Prog (TpuEff nD τ sig (Elt F) (SparseCore.Sig (ΛP (F := F)) 1) .tc) PUnit) >>= k) := rfl
  rw [hprog, wp_bind]
  iintro ⟨Hlev, Hb, Hcg, Htk, HO, Ha0, Ha1, ⟨%f, Hv0⟩, Hk⟩
  -- the result array's entry contents, on every device
  obtain ⟨fv, rfl⟩ : ∃ fv : (c : Dev nD) → Buf (Elt F) (v0Loc c), fv d = f :=
    ⟨Function.update (β := fun c => Buf (Elt F) (v0Loc c)) (fun c => m (v0Loc c)) d f,
      Function.update_self (β := fun c => Buf (Elt F) (v0Loc c)) d f (fun c => m (v0Loc c))⟩
  iapply (wp_wand_r frame _ Set.univ (Q := fun _ => iprop(boundary (SparseCore.T d) ∗ post m d)))
  isplitl [Hlev Hb Hcg Htk HO Ha0 Ha1 Hv0]
  · iapply ((Setup.K (F := F)).wp_liftProg (D (F := F)) 𝒱 (SparseCore.T d) Set.univ none _ _)
    have hR := Pipeline.RegionSeg.wp (pcfgs (F := F)) aAdm (pdats m fv) none cellOf_inj EP defs₀ 𝒱₀ _ _ (region m fv) d none
      (fun u hu => absurd hu (Option.not_mem_none u)) (fun x => Prog.ret x) (fun _ => iprop(boundary (SparseCore.T d) ∗ post m d))
    rw [show (region m fv).pre d = pre m fv d from rfl, show (region m fv).post d = post m d from rfl] at hR
    iapply hR
    isplitr
    · iintro H; iapply (le_wp_ret _ _); iexact H
    isplitl [Hb]; · iexact Hb
    isplitl [HO Ha0 Ha1 Hv0]
    · iapply (pre_intro m fv d W hW)
      isplitl [HO]; · iexact HO
      isplitl [Ha0]; · iexact Ha0
      isplitl [Ha1]; · iexact Ha1
      iexact Hv0
    isplitl [Hlev]; · iexact Hlev
    isplitl [Hcg]; · iexact Hcg
    iexact Htk
  · iintro %v ⟨Hb, Hp⟩
    cases v
    iapply Hk
    isplitl [Hb]; · iexact Hb
    unfold post
    iexact Hp

end Region
end Cert.Kernel

end
-- ==== Proof.Bits.TileRows.lean ====
/-
  One vector subcore's three rows, as its kernel addresses them.

  Subcore `L 1` of core `L 0` works on row `2 (L 1) + (L 0)` when that is below 16. The kernel reaches the row of
  each of the three arrays by slicing the array at a rectangle one row high whose offsets it computes, and dropping
  the unit axis. Here: that rectangle is the row's part of the array, so the elements the sliced row addresses are
  the row's, and a points-to over the sliced row's own elements is one over the row; and the subcore's scratch
  buffers and the semaphores of its three copies taken out of what the subcore owns.
-/
import proofs.«205080_g78649441125020_cont_9to1_m_374_30_alg».proof.Proof.Bits.Setup
import proofs.«205080_g78649441125020_cont_9to1_m_374_30_alg».proof.Proof.Gen.Kernel.Skeleton

noncomputable section

namespace Cert.Kernel.Tile

open Cert.Kernel Cert.Kernel.Gen Cert.Kernel.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-! ## The subcore and its row -/

abbrev cV (L : grid1.Coords) : Fin τ.nSC := (L 0).castLE hcore1
abbrev jV (L : grid1.Coords) : Fin τ.nSub := (L 1).castLE hsub1
/-- The row subcore `L 1` of core `L 0` works on. -/
abbrev wid (L : grid1.Coords) : ℕ := 2 * (L 1).val + (L 0).val

/-- The kernel's test, as arithmetic on the coordinates. -/
theorem cond_iff : ∀ L : grid1.Coords, k1_cond1 L = 1#1 ↔ 2 * (L 1).val + (L 0).val < 16 := by decide +kernel

/-! ## The arrays, the scratch buffers, and the row of each array as the kernel slices it -/

abbrev lgV : Memref sig .scVector .hbm S16x16000 .f32 := Memref.whole main_v4_scv
abbrev tgV : Memref sig .scVector .hbm S16x16 .i32 := Memref.whole main_v6_scv
abbrev mgV : Memref sig .scVector .hbm S16x16 .f32 := Memref.whole main_v7_scv
abbrev sLg : Memref sig .scVector .vmem S16000 .f32 := Memref.whole cc1_scratch0
abbrev sTg : Memref sig .scVector .vmem S16 .i32 := Memref.whole cc1_scratch1
abbrev sMg : Memref sig .scVector .vmem S16 .f32 := Memref.whole cc1_scratch2

abbrev rectA (L : grid1.Coords) (h : k1_cond1 L = 1#1) : Rect S16x16000 :=
  Rect.unit (s := S16x16000) (k1_off1 L) S1x16000.size (k1_off1_inb L h)
abbrev rectB (L : grid1.Coords) (h : k1_cond1 L = 1#1) : Rect S16x16 :=
  Rect.unit (s := S16x16) (k1_off2 L) S1x16.size (k1_off2_inb L h)
abbrev lgRowM (L : grid1.Coords) (h : k1_cond1 L = 1#1) : Memref sig .scVector .hbm S16000 .f32 :=
  ((lgV : Memref sig .scVector .hbm S16x16000 .f32).slice (rectA L h) (fun _ => rfl)).squeeze S16000 squeezes_S1x16000_S16000
abbrev tgRowM (L : grid1.Coords) (h : k1_cond1 L = 1#1) : Memref sig .scVector .hbm S16 .i32 :=
  ((tgV : Memref sig .scVector .hbm S16x16 .i32).slice (rectB L h) (fun _ => rfl)).squeeze S16 squeezes_S1x16_S16
abbrev mgRowM (L : grid1.Coords) (h : k1_cond1 L = 1#1) : Memref sig .scVector .hbm S16 .f32 :=
  ((mgV : Memref sig .scVector .hbm S16x16 .f32).slice (rectB L h) (fun _ => rfl)).squeeze S16 squeezes_S1x16_S16

/-- The rectangle the kernel slices the logits at is row `wid L`'s part. -/
theorem rectA_eq (L : grid1.Coords) (h : k1_cond1 L = 1#1) (hw : wid L < 16) : rectA L h = rowA ⟨wid L, hw⟩ := by
  unfold rectA rowA Rect.part Rect.block
  congr 1 <;> funext a
  · rw [k1_off1_eq]
    match a with
    | 0 => simp [Shape.partIx, Shape.partSize]
    | 1 => simp [Shape.partIx, Shape.partSize]
  · match a with
    | 0 => simp [Shape.partSize]
    | 1 => simp [Shape.partSize]
/-- The rectangle the kernel slices the target words and the margins at is row `wid L`'s part. -/
theorem rectB_eq (L : grid1.Coords) (h : k1_cond1 L = 1#1) (hw : wid L < 16) : rectB L h = rowB ⟨wid L, hw⟩ := by
  unfold rectB rowB Rect.part Rect.block
  congr 1 <;> funext a
  · rw [k1_off2_eq]
    match a with
    | 0 => simp [Shape.partIx, Shape.partSize]
    | 1 => simp [Shape.partIx, Shape.partSize]
  · match a with
    | 0 => simp [Shape.partSize]
    | 1 => simp [Shape.partSize]

theorem set_lgRowM (L : grid1.Coords) (h : k1_cond1 L = 1#1) (hw : wid L < 16) : (lgRowM L h).view.set = rowSetA ⟨wid L, hw⟩ := by
  show (((lgV : Memref sig .scVector .hbm S16x16000 .f32).view.slice (rectA L h)).reshape S16000 squeezes_S1x16000_S16000.numel_eq).set
    = ((Memref.whole main_v4_scv : Memref sig .scVector .hbm S16x16000 .f32).view.slice (rowA ⟨wid L, hw⟩)).set
  rw [View.set_reshape]
  exact rectA_eq L h hw ▸ rfl
theorem set_tgRowM (L : grid1.Coords) (h : k1_cond1 L = 1#1) (hw : wid L < 16) : (tgRowM L h).view.set = rowSetB ⟨wid L, hw⟩ := by
  show (((tgV : Memref sig .scVector .hbm S16x16 .i32).view.slice (rectB L h)).reshape S16 squeezes_S1x16_S16.numel_eq).set
    = ((Memref.whole main_v7_scv : Memref sig .scVector .hbm S16x16 .f32).view.slice (rowB ⟨wid L, hw⟩)).set
  rw [View.set_reshape]
  exact rectB_eq L h hw ▸ rfl
theorem set_mgRowM (L : grid1.Coords) (h : k1_cond1 L = 1#1) (hw : wid L < 16) : (mgRowM L h).view.set = rowSetB ⟨wid L, hw⟩ := by
  show (((mgV : Memref sig .scVector .hbm S16x16 .f32).view.slice (rectB L h)).reshape S16 squeezes_S1x16_S16.numel_eq).set
    = ((Memref.whole main_v7_scv : Memref sig .scVector .hbm S16x16 .f32).view.slice (rowB ⟨wid L, hw⟩)).set
  rw [View.set_reshape]
  exact rectB_eq L h hw ▸ rfl

/-! ## Points-to over a sliced row and over the row -/

section Pts
variable (d : Dev nD) (L : grid1.Coords) (h : k1_cond1 L = 1#1) (hw : wid L < 16)

theorem pts_lgRowM (q : PosShare TreeShare) (f : Buf (Elt F) (v4Loc d)) :
    ((lgRowM L h).view.loc (V d (cV L) (jV L)) ↦[(lgRowM L h).view.set]{q} f : sProp 𝕄) = v4Loc d ↦[rowSetA ⟨wid L, hw⟩]{q} f := by
  rw [set_lgRowM L h hw]
theorem pts_tgRowM (q : PosShare TreeShare) (f : Buf (Elt F) (v6Loc d)) :
    ((tgRowM L h).view.loc (V d (cV L) (jV L)) ↦[(tgRowM L h).view.set]{q} f : sProp 𝕄) = v6Loc d ↦[rowSetB ⟨wid L, hw⟩]{q} f := by
  rw [set_tgRowM L h hw]
theorem pts_mgRowM (q : PosShare TreeShare) (f : Buf (Elt F) (v7Loc d)) :
    ((mgRowM L h).view.loc (V d (cV L) (jV L)) ↦[(mgRowM L h).view.set]{q} f : sProp 𝕄) = v7Loc d ↦[rowSetB ⟨wid L, hw⟩]{q} f := by
  rw [set_mgRowM L h hw]

theorem pts_sLg (f : Buf (Elt F) ((V d (cV L) (jV L)).loc cc1_scratch0)) :
    ((sLg : Memref sig .scVector .vmem S16000 .f32).view.loc (V d (cV L) (jV L)) ↦{fullShare} f : sProp 𝕄) = (V d (cV L) (jV L)).loc cc1_scratch0 ↦{fullShare} f := rfl
theorem pts_sTg (f : Buf (Elt F) ((V d (cV L) (jV L)).loc cc1_scratch1)) :
    ((sTg : Memref sig .scVector .vmem S16 .i32).view.loc (V d (cV L) (jV L)) ↦{fullShare} f : sProp 𝕄) = (V d (cV L) (jV L)).loc cc1_scratch1 ↦{fullShare} f := rfl
theorem pts_sMg (f : Buf (Elt F) ((V d (cV L) (jV L)).loc cc1_scratch2)) :
    ((sMg : Memref sig .scVector .vmem S16 .f32).view.loc (V d (cV L) (jV L)) ↦{fullShare} f : sProp 𝕄) = (V d (cV L) (jV L)).loc cc1_scratch2 ↦{fullShare} f := rfl

end Pts

/-! ## The subcore's own semaphores and buffers: the three copies' counters and the three scratch buffers, and the rest -/

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)

theorem ownSems0_V (d : Dev nD) (c : Fin τ.nSC) (i : Fin τ.nSub) :
    (ownSems0 (V d c i) : sProp 𝕄)
      = iprop(semVal (cell0 d c i) 0 ∗ semVal (cell1 d c i) 0 ∗ semVal (cell2 d c i) 0
          ∗ bigSep ((((ownCells (V d c i)).erase (cell0 d c i)).erase (cell1 d c i)).erase (cell2 d c i)) fun g => semVal g 0) := by
  unfold SparseCore.Cfg.ownSems0
  rw [SparseCore.bigSep_erase' ((mem_ownCells (g := cell0 d c i)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d c i)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d c i)).mpr ⟨rfl, by show (SemLoc.dma cc1_scoped2.sem : SemLoc sig).isScoped .scVector = true; decide⟩⟩⟩)]

theorem ownBufs_V (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector c i) (b := (Proc.scVector c i).devRef cc1_scratch2) rfl⟩⟩)]

end Cert.Kernel.Tile

end
-- ==== Proof.Bits.TileValue.lean ====
/-
  The values one subcore's task moves, as the pure terms of the arrays.

  Row `g` of the class-major logits, read through the row the kernel slices (one row high at offsets `(g, 0)`, the
  unit axis dropped), is `lgRow`: the sliced row's index `j` sits at `(g, j)`. The same for the target words. A
  load of sixteen lanes at offset `16 k` of a row is the row's `chunk k` (`16 k + j < 16000`, so the remainder in
  `chunk` is the identity); a load of sixteen lanes at offset 0 of a sixteen-lane buffer is the buffer. One more class
  of the walk is one step of `loopAt`. And the margins array at an index of row `g` is `marginRow` of that row's two
  inputs at the index's lane.
-/
import proofs.«205080_g78649441125020_cont_9to1_m_374_30_alg».proof.Proof.Bits.TileRows

noncomputable section

namespace Cert.Kernel.Tile

open Cert.Kernel Cert.Kernel.Gen Cert.Kernel.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

/-! ## A sliced row's placement -/

theorem emb_lgRowM (L : grid1.Coords) (h : k1_cond1 L = 1#1) (j : S16000.Idx) :
    (lgRowM L h).view.emb j = (rectA L h).emb (Fin.cons ⟨0, Nat.one_pos⟩ j) := by
  show (rectA L h).emb (Shape.reshapeEquiv _ j) = _
  rw [Shape.reshapeEquiv_cons_one (n := 1) (d := ![16000])]
theorem emb_tgRowM (L : grid1.Coords) (h : k1_cond1 L = 1#1) (j : S16.Idx) :
    (tgRowM L h).view.emb j = (rectB L h).emb (Fin.cons ⟨0, Nat.one_pos⟩ j) := by
  show (rectB L h).emb (Shape.reshapeEquiv _ j) = _
  rw [Shape.reshapeEquiv_cons_one (n := 1) (d := ![16])]
theorem emb_mgRowM (L : grid1.Coords) (h : k1_cond1 L = 1#1) (j : S16.Idx) :
    (mgRowM L h).view.emb j = (rectB L h).emb (Fin.cons ⟨0, Nat.one_pos⟩ j) := by
  show (rectB L h).emb (Shape.reshapeEquiv _ j) = _
  rw [Shape.reshapeEquiv_cons_one (n := 1) (d := ![16])]

/-- Index `j` of the sliced row of the logits is `(wid L, j)`. -/
theorem embA_eq (L : grid1.Coords) (h : k1_cond1 L = 1#1) (hw : wid L < 16) (j : S16000.Idx) :
    (rectA L h).emb (Fin.cons ⟨0, Nat.one_pos⟩ j)
      = (fun a => match a with | ⟨0, _⟩ => ⟨wid L % 16, Nat.mod_lt _ (by decide)⟩ | ⟨1, _⟩ => j 0 : S16x16000.Idx) := by
  funext a; apply Fin.ext
  rw [Rect.emb_apply]
  show k1_off1 L a + 1 * _ = _
  rw [k1_off1_eq]
  match a with
  | ⟨0, _⟩ => show wid L + 1 * 0 = wid L % 16; rw [Nat.mod_eq_of_lt hw]; omega
  | ⟨1, _⟩ => show 0 + 1 * (j 0).val = (j 0).val; omega
/-- Index `j` of the sliced row of a [16, 16] array is `(wid L, j)`. -/
theorem embB_eq (L : grid1.Coords) (h : k1_cond1 L = 1#1) (hw : wid L < 16) (j : S16.Idx) :
    (rectB L h).emb (Fin.cons ⟨0, Nat.one_pos⟩ j)
      = (fun a => match a with | ⟨0, _⟩ => ⟨wid L % 16, Nat.mod_lt _ (by decide)⟩ | ⟨1, _⟩ => j 0 : S16x16.Idx) := by
  funext a; apply Fin.ext
  rw [Rect.emb_apply]
  show k1_off2 L a + 1 * _ = _
  rw [k1_off2_eq]
  match a with
  | ⟨0, _⟩ => show wid L + 1 * 0 = wid L % 16; rw [Nat.mod_eq_of_lt hw]; omega
  | ⟨1, _⟩ => show 0 + 1 * (j 0).val = (j 0).val; omega

/-! ## What the two fetches read -/

theorem read_lgRowM (L : grid1.Coords) (h : k1_cond1 L = 1#1) (hw : wid L < 16) (x : Vec F S16x16000 .f32) :
    (lgRowM L h).view.read (Elt F) x = KVal.lgRow x (wid L) := by
  funext j
  rw [View.read_apply, emb_lgRowM, embA_eq L h hw]
  exact cast_eq _ _
theorem read_tgRowM (L : grid1.Coords) (h : k1_cond1 L = 1#1) (hw : wid L < 16) (x : Vec F S16x16 .i32) :
    (tgRowM L h).view.read (Elt F) x = KVal.tgRow x (wid L) := by
  funext j
  rw [View.read_apply, emb_tgRowM, embB_eq L h hw]
  exact cast_eq _ _

/-! ## Loads of sixteen lanes -/

/-- Sixteen lanes at offset 0 of a sixteen-lane buffer are the buffer. -/
theorem load16_idx (j : S16.Idx) : (Rect.unit (s := S16) ![0] S16.size inb_S16_S16_0).toLoadRect.idx j = j := by
  funext a; apply Fin.ext
  rw [LoadRect.idx_apply, Subsingleton.elim a 0]
  show 0 + 1 * (j 0).val = (j 0).val
  omega
theorem load16_tg (w : Vec F S16 .i32) :
    (sTg : Memref sig .scVector .vmem S16 .i32).view.readAt (Elt F) (Rect.unit (s := S16) ![0] S16.size inb_S16_S16_0).toLoadRect w = w := by
  funext j
  rw [View.readAt_apply, load16_idx]
  rfl

/-- Sixteen lanes at offset `16 k` of a class-major row are class `k`'s. -/
theorem load_chunk (L : grid1.Coords) (h : k1_cond1 L = 1#1) (k : Fin k1_t1_loop.trips) (row : Vec F S16000 .f32) :
    (sLg : Memref sig .scVector .vmem S16000 .f32).view.readAt (Elt F)
        (Rect.unit (s := S16000) (k1_off3 k) S16.size (k1_off3_inb L k h)).toLoadRect row = KVal.chunk row k.val := by
  funext j
  rw [View.readAt_apply]
  show row ((Rect.unit (s := S16000) (k1_off3 k) S16.size (k1_off3_inb L k h)).toLoadRect.idx j) = row _
  refine congrArg row (funext fun a => ?_)
  have hk : k.val < 1000 := Nat.lt_of_lt_of_le k.isLt k1_t1_abs.2.1
  have hj : (j 0).val < 16 := (j 0).isLt
  match a with
  | ⟨0, _⟩ =>
    apply Fin.ext
    show k1_off3 k 0 + 1 * (j 0).val = (16 * k.val + (j 0).val) % 16000
    have e : k1_off3 k 0 = 16 * k.val := congrFun (k1_off3_eq k) 0
    rw [Nat.mod_eq_of_lt (by omega)]
    omega

/-- A sixteen-lane buffer stored whole at offset 0 reads back the stored vector. -/
theorem store16_emb (x : S16.Idx) : (Rect.unit (s := S16) ![0] S16.size inb_S16_S16_0).emb x = x := load16_idx x
theorem read_store16 (f2 : Vec F S16 .f32) (w : FVec F S16 .f32) (x : S16.Idx) :
    (sMg : Memref sig .scVector .vmem S16 .f32).view.read (Elt F)
      ((sMg : Memref sig .scVector .vmem S16 .f32).view.writes (Elt F) f2 [⟨Rect.unit (s := S16) ![0] S16.size inb_S16_S16_0, w⟩]) x = w x := by
  have h := View.read_writes_cons_emb (sMg : Memref sig .scVector .vmem S16 .f32).view f2 (Rect.unit (s := S16) ![0] S16.size inb_S16_S16_0) w [] x
  rwa [store16_emb] at h

/-! ## The walk over the classes -/

theorem loopAt_succ (v5 : Vec F S16 .i32) (row : Vec F S16000 .f32) (k : Fin k1_t1_loop.trips) :
    KVal.loopAt v5 row (k.val + 1)
      = (k1_pay5 v5 k (KVal.loopAt v5 row k.val).1 (KVal.chunk row k.val), k1_pay6 v5 k (KVal.loopAt v5 row k.val).2 (KVal.chunk row k.val)) := by
  rw [KVal.loopAt, dif_pos k.isLt]

/-! ## The margins' row -/

/-- The margins array at an index whose row is `g` and whose lane is `j`'s. -/
theorem marginOut_at (lg : Vec F S16x16000 .f32) (tg : Vec F S16x16 .i32) (i : S16x16.Idx) (g : ℕ) (j : S16.Idx)
    (h0 : (i 0).val = g) (h1 : i 1 = j 0) :
    KVal.marginOut lg tg i = KVal.marginRow (KVal.tgRow tg g) (KVal.lgRow lg g) j := by
  subst h0
  unfold KVal.marginOut
  congr 1
  funext a
  match a with
  | ⟨0, _⟩ => exact h1

/-- The margins array at index `j` of row `wid L`, as the sliced row places it. -/
theorem marginOut_row (L : grid1.Coords) (h : k1_cond1 L = 1#1) (hw : wid L < 16) (lg : Vec F S16x16000 .f32) (tg : Vec F S16x16 .i32) (j : S16.Idx) :
    KVal.marginOut lg tg ((mgRowM L h).view.emb j) = KVal.marginRow (KVal.tgRow tg (wid L)) (KVal.lgRow lg (wid L)) j := by
  rw [emb_mgRowM, embB_eq L h hw]
  exact marginOut_at lg tg _ (wid L) j (Nat.mod_eq_of_lt hw) rfl

/-- The margins of a row from the walk's last pair. -/
theorem marginRow_of_loop (v5 : Vec F S16 .i32) (row : Vec F S16000 .f32) (mx ts : FVec F S16 .f32)
    (h : KVal.loopAt v5 row k1_t1_loop.trips = (mx, ts)) : KVal.marginRow v5 row = k1_pay7 mx ts := by
  unfold KVal.marginRow
  rw [h]

end Cert.Kernel.Tile

end
-- ==== Proof.Bits.TileBody.lean ====
/-
  One vector subcore's task.

  A working subcore (row `g = 2 (L 1) + (L 0)` below 16) fetches row `g` of the class-major logits into its first
  scratch and row `g` of the target words into its second, each copy started and waited for alone on a semaphore of
  its own; loads the sixteen target words; walks the thousand classes, class `k`'s sixteen lanes loaded from offset
  `16 k` of the first scratch and folded into the carried pair; stores the sixteen margins into its third scratch and
  copies that out to row `g` of the margins, waiting for the copy. The subcore signals no other: every wait is on a
  semaphore of its own, which it holds at zero between copies. The values ride along: after the fetches the scratches
  hold `lgRow` and `tgRow` of the two inputs, before class `k` the carried pair is `loopAt … k`, and what lands in
  the margins' row is `marginOut` there. A subcore whose row would be past the last returns at once.
-/
import proofs.«205080_g78649441125020_cont_9to1_m_374_30_alg».proof.Proof.Bits.TileValue
import Idealize.ShloMosaic.Lib.Tactic

noncomputable section

namespace Cert.Kernel.Tile

open Cert.Kernel Cert.Kernel.Gen Cert.Kernel.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

open Idealize.ShloMosaic.Tactic

variable (m : (ℓ : Loc nD τ sig) → Buf (Elt F) ℓ) [FloatOps F]

section Body
variable (d : Dev nD) (L : grid1.Coords)

/-- Before class `k` of the walk: the carried pair is the walk's after `k` classes, and the row's scratch is held. -/
def inv (v5 : Vec F S16 .i32) (row : Vec F S16000 .f32) (k : Nat) (acc : FVec F S16 .f32 × FVec F S16 .f32) : sProp 𝕄 :=
  iprop(⌜acc = KVal.loopAt v5 row k⌝ ∗ ((sLg : Memref sig .scVector .vmem S16000 .f32).view.loc (V d (cV L) (jV L)) ↦{fullShare} row))

/-- One class of the walk. -/
theorem trip (h1 : k1_cond1 L = 1#1) (v5 : Vec F S16 .i32) (row : Vec F S16000 .f32) (k : Fin k1_t1_loop.trips) (acc : FVec F S16 .f32 × FVec F S16 .f32) :
    inv d L v5 row k.val acc ⊢ wp frame (wpE (defs₀ (F := F)) 𝒱₀ (V d (cV L) (jV L)) none) Set.univ
      (k1_t1_body L lgV (Memref.isWhole_whole _) tgV (Memref.isWhole_whole _) mgV (Memref.isWhole_whole _)
        sLg (Memref.isWhole_whole _) sTg (Memref.isWhole_whole _) sMg (Memref.isWhole_whole _) cc1_scratch3 cc1_scoped0 cc1_scoped1 cc1_scoped2 h1 v5 k acc)
      (inv d L v5 row (k.val + 1)) := by
  obtain ⟨mx, ts⟩ := acc
  unfold inv k1_t1_body
  iintro ⟨%hacc, Hs⟩
  sl_exec
  sl_step
  isplitr
  · ipureintro
    rw [loopAt_succ, load_chunk L h1 k row, ← hacc]
  · iexact Hs

theorem tile_work (h1 : k1_cond1 L = 1#1) (O : CellTallies nD τ sig (HIx 1)) (W : Waits sig (HIx 1)) (hO : ∀ g, O g none = 0) :
    iprop(levAts (K (F := F)).L (K (F := F)).lev ∗ emp ∗ tileRes m d (L 0).val (L 1).val (m (v7Loc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__margin_kernel L lgV (Memref.isWhole_whole _) tgV (Memref.isWhole_whole _) mgV (Memref.isWhole_whole _)
            sLg (Memref.isWhole_whole _) sTg (Memref.isWhole_whole _) sMg (Memref.isWhole_whole _) cc1_scratch3 cc1_scoped0 cc1_scoped1 cc1_scoped2)
          fun _ => iprop(tileRes m d (L 0).val (L 1).val (X7 m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hw : wid L < 16 := (cond_iff L).mp h1
  simp only [cc1__margin_kernel_eq_skeleton]; unfold cc1__margin_kernel_skel
  rw [tileRes_pos m d hw, tileRes_pos m d hw, (K (F := F)).scopedBufs_V facts d (cV L) (jV L), SparseCore.Cfg.scopedSems0_V (Val := Elt F) d (cV L) (jV L), ownSems0_V, ownBufs_V]
  iintro ⟨#Hlv, -, ⟨Hlg, Htg, Hmg⟩, ⟨⟨%f0, Hs0⟩, ⟨%f1, Hs1⟩, ⟨%f2, Hs2⟩, Hbufs⟩, ⟨Hc0, Hc1, Hc2, Hsems⟩, HO⟩
  ihave Hmw := ((K (F := F)).mayWaits_none (thr := V d (cV L) (jV L)) hO) $$ Hlv
  ihave Hlg' := (Entails.of_eq (pts_lgRowM (F := F) d L h1 hw _ _).symm) $$ Hlg
  ihave Htg' := (Entails.of_eq (pts_tgRowM (F := F) d L h1 hw _ _).symm) $$ Htg
  ihave Hmg' := (Entails.of_eq (pts_mgRowM (F := F) d L h1 hw _ _).symm) $$ Hmg
  ihave Hs0' := (Entails.of_eq (pts_sLg (F := F) d L _).symm) $$ Hs0
  ihave Hs1' := (Entails.of_eq (pts_sTg (F := F) d L _).symm) $$ Hs1
  ihave Hs2' := (Entails.of_eq (pts_sMg (F := F) d L _).symm) $$ Hs2
  -- the two fetches and their waits, the load of the target words
  sl_exec
  -- what the fetches left: the logits' row in its scratch, the target words' row loaded
  have hrow : View.write (Elt F) (sLg : Memref sig .scVector .vmem S16000 .f32).view f0 (tile_work.sl.dma0 m d L h1) Finset.univ
      = KVal.lgRow (X4 m d) (wid L) := by
    unfold tile_work.sl.dma0
    exact (View.write_whole_univ cc1_scratch0 f0 _).trans (read_lgRowM L h1 hw _)
  have hv5 : View.readAt (Elt F) (sTg : Memref sig .scVector .vmem S16 .i32).view (Rect.unit (s := S16) ![0] S16.size inb_S16_S16_0).toLoadRect
        (View.write (Elt F) (sTg : Memref sig .scVector .vmem S16 .i32).view f1 (tile_work.sl.dma0_1 m d L h1) Finset.univ)
      = KVal.tgRow (X6 m d) (wid L) := by
    unfold tile_work.sl.dma0_1
    exact (load16_tg _).trans ((View.write_whole_univ cc1_scratch1 f1 _).trans (read_tgRowM L h1 hw _))
  ihave Hs0 := (Entails.of_eq (congrArg (fun f => ((sLg : Memref sig .scVector .vmem S16000 .f32).view.loc (V d (cV L) (jV L)) ↦{fullShare} f : sProp 𝕄)) hrow)) $$ Hs0'
  -- the walk over the classes
  sl_for (inv d L (View.readAt (Elt F) (sTg : Memref sig .scVector .vmem S16 .i32).view (Rect.unit (s := S16) ![0] S16.size inb_S16_S16_0).toLoadRect
        (View.write (Elt F) (sTg : Memref sig .scVector .vmem S16 .i32).view f1 (tile_work.sl.dma0_1 m d L h1) Finset.univ))
      (KVal.lgRow (X4 m d) (wid L))) $$ [Hs0]
  case region => intro k acc; exact trip d L h1 _ _ k acc
  · unfold inv
    isplitr
    · ipureintro; rfl
    · iexact Hs0
  iintro %acc HI
  obtain ⟨mx, ts⟩ := acc
  unfold inv
  icases HI with ⟨%hacc, Hs0⟩
  -- the margins stored, written out to their row, the write-out waited for
  sl_exec
  sl_step
  -- what landed in the margins' row is the margins array there
  have hmg : ∀ x : S16.Idx,
      (mgRowM L h1).view.writes (Elt F) (m (v7Loc d)) [⟨Rect.whole S16, tile_work.sl.dma2 d L f2 mx ts⟩] ((mgRowM L h1).view.emb x)
        = X7 m d ((mgRowM L h1).view.emb x) := by
    intro x
    have hl := View.read_writes_cons_emb (mgRowM L h1).view (m (v7Loc d)) (Rect.whole S16) (tile_work.sl.dma2 d L f2 mx ts) [] x
    rw [Rect.emb_whole_apply, View.read_apply] at hl
    refine ((cast_eq _ _).symm.trans hl).trans ?_
    unfold tile_work.sl.dma2 tile_work.sl.Hs2'_1
    refine (read_store16 f2 (k1_pay7 mx ts) x).trans ?_
    refine Eq.trans ?_ (marginOut_row L h1 hw (X4 m d) (X6 m d) x).symm
    rw [marginRow_of_loop _ _ mx ts (by rw [← hv5]; exact hacc.symm)]
  have hE : ((mgRowM L h1).view.loc (V d (cV L) (jV L)) ↦[(mgRowM L h1).view.set]{fullShare}
        (mgRowM L h1).view.writes (Elt F) (m (v7Loc d)) [⟨Rect.whole S16, tile_work.sl.dma2 d L f2 mx ts⟩] : sProp 𝕄)
      = v7Loc d ↦[rowSetB ⟨wid L, hw⟩]{fullShare} X7 m d :=
    (pointsTo_congr fun i hi => by obtain ⟨x, -, rfl⟩ := Finset.mem_map.mp hi; exact hmg x).trans (pts_mgRowM (F := F) d L h1 hw _ _)
  -- the three rows back
  isplitl [Hlg' Htg' Hmg']
  · isplitl [Hlg']; · iapply (Entails.of_eq (pts_lgRowM (F := F) d L h1 hw _ _)); iexact Hlg'
    isplitl [Htg']; · iapply (Entails.of_eq (pts_tgRowM (F := F) d L h1 hw _ _)); iexact Htg'
    iapply (Entails.of_eq hE); iexact Hmg'
  -- the scratch buffers and the counters back
  isplitl [Hs0 Hs1' Hs2' Hbufs]
  · isplitl [Hs0]; · iexists _; iapply (Entails.of_eq (pts_sLg (F := F) d L _)); iexact Hs0
    isplitl [Hs1']; · iexists _; iapply (Entails.of_eq (pts_sTg (F := F) d L _)); iexact Hs1'
    isplitl [Hs2']; · iexists _; iapply (Entails.of_eq (pts_sMg (F := F) d L _)); iexact Hs2'
    iexact Hbufs
  isplitl [Hc0 Hc1 Hc2 Hsems]
  · isplitl [Hc0]; · iexact Hc0
    isplitl [Hc1]; · iexact Hc1
    isplitl [Hc2]; · iexact Hc2
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

/-- A subcore whose row would be past the last: the kernel's test fails, the task is two returns. -/
theorem tile_idle (h1 : ¬ k1_cond1 L = 1#1) (O : CellTallies nD τ sig (HIx 1)) (W : Waits sig (HIx 1)) :
    iprop(levAts (K (F := F)).L (K (F := F)).lev ∗ emp ∗ tileRes m d (L 0).val (L 1).val (m (v7Loc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__margin_kernel L lgV (Memref.isWhole_whole _) tgV (Memref.isWhole_whole _) mgV (Memref.isWhole_whole _)
            sLg (Memref.isWhole_whole _) sTg (Memref.isWhole_whole _) sMg (Memref.isWhole_whole _) cc1_scratch3 cc1_scoped0 cc1_scoped1 cc1_scoped2)
          fun _ => iprop(tileRes m d (L 0).val (L 1).val (X7 m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hw : ¬ wid L < 16 := fun h => h1 ((cond_iff L).mpr h)
  simp only [cc1__margin_kernel_eq_skeleton]; unfold cc1__margin_kernel_skel
  rw [tileRes_neg m d hw, tileRes_neg m d hw]
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

end Body

end Cert.Kernel.Tile

end
-- ==== Proof.Bits.TileObl.lean ====
/-
  The body obligation of the SparseCore call at a symbolic vector subcore.

  The subcore's thread runs the kernel's function at the subcore's coordinates; the function's test on the
  coordinates decides which of the two cases of the task applies, and either way the subcore's share of the three
  arrays comes back with the margins' row holding the margins array.
-/
import proofs.«205080_g78649441125020_cont_9to1_m_374_30_alg».proof.Proof.Bits.TileBody

noncomputable section

namespace Cert.Kernel.Tile

open Cert.Kernel Cert.Kernel.Gen Cert.Kernel.Setup
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__margin_kernel (coordsV c s)
          lgV (Memref.isWhole_whole _) tgV (Memref.isWhole_whole _) mgV (Memref.isWhole_whole _)
          sLg (Memref.isWhole_whole _) sTg (Memref.isWhole_whole _) sMg (Memref.isWhole_whole _) cc1_scratch3 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (m : (ℓ : Loc nD τ sig) → Buf (Elt F) ℓ) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ tileRes m d c.val i.val (m (v7Loc d)) ∗ _) ⊢ wp _ _ _ _ (fun _ => iprop(tileRes m d c.val i.val (X7 m d) ∗ _))
  by_cases h1 : k1_cond1 (coordsV ⟨_, hc.1⟩ ⟨_, hc.2⟩) = 1#1
  · exact (tile_work m d (coordsV ⟨_, hc.1⟩ ⟨_, hc.2⟩) h1 O W hO).trans (wp_mono frame _ _ fun _ => obl_post)
  · exact (tile_idle m d (coordsV ⟨_, hc.1⟩ ⟨_, hc.2⟩) h1 O W).trans (wp_mono frame _ _ fun _ => obl_post)

end Cert.Kernel.Tile

end
-- ==== Proof.AssembleBits.lean ====
/-
  The claim about the program as printed, at the bit-exact instance: it runs to the end on every weakly fair execution
  of all its threads, faulting nowhere, and leaves its four arguments unchanged. The run is the same as at the ideal
  instance — the proof of the run never looks inside a float — with the value dropped.
-/
import proofs.«205080_g78649441125020_cont_9to1_m_374_30_alg».proof.Proof.Bits.Launch5
import proofs.«205080_g78649441125020_cont_9to1_m_374_30_alg».proof.Proof.Bits.RegionStep
import proofs.«205080_g78649441125020_cont_9to1_m_374_30_alg».proof.Proof.Bits.TileObl
import proofs.«205080_g78649441125020_cont_9to1_m_374_30_alg».proof.Proof.Gen.Pre_input_domain

noncomputable section

namespace Cert.Proof.BitsSide

open Idealize.ShloMosaic Idealize.SL.Sem
open Cert.Kernel Cert.Kernel.Setup

theorem hreg (m : (ℓ : Loc nD τ sig) → Buf (Elt Bits) ℓ) : Cert.Kernel.Launch.RegionStep (F := Bits) m :=
  fun d W hW _ k Φ => Cert.Kernel.Region.mse_region m d W hW k Φ

theorem run (m : (ℓ : Loc nD τ sig) → Buf (Elt Bits) ℓ) (ρ : Dev nD → PrngReg) :
    θ_run (Cert.Kernel.defs (F := Bits)) (Cert.Kernel.threads (F := Bits)) ⟨m, fun _ => 0, ρ⟩ (Cert.Kernel.Launch.QC m) :=
  Cert.Kernel.Launch.run_main (F := Bits) m ρ (hreg m) (Cert.Kernel.Tile.tileObl m)

theorem frame_K : Cert.frame_Kernel := fun m ρ _ =>
  (θ_run (Cert.Kernel.defs (F := Bits)) _ _).mono (fun _ h c => (h c).2) (run m ρ)

end Cert.Proof.BitsSide

end
-- ==== Proof.lean ====
/-
  A pallas program computes a loss from four arrays: the mean squared difference between 127.5 · (tanh w + 1) and x,
  by a TensorCore kernel that accumulates over sixteen blocks, plus half the mean of 256 clamped margins
  max(logits[r, t_r] − max_{j ≠ t_r} logits[r, j], −10), by a SparseCore kernel in which sixteen vector subcores each
  walk the thousand classes for sixteen rows at a time. The reference computes the same loss with a gather for the
  true-class logit and a scatter of −∞ followed by a row maximum for the other classes.

  The claim has five parts. Each of the three programs runs to the end on every weakly fair execution, faulting
  nowhere and leaving its arguments unchanged (for the two kernel programs that is a statement about all 35 threads of
  the device: the TensorCore, the two sequencers and the 32 vector subcores). The idealized kernel is the printed one
  read over the extended reals, no operation rewritten. And over the extended reals, for finite inputs and target
  words in [0, 999], the idealized kernel and the reference end with equal results: the squared-difference sums agree
  by reordering a finite sum in a commutative monoid, the margins because −∞ is the identity of the maximum and the
  walk's running maximum over the classes other than the target is the row maximum of the masked logits.
-/
import proofs.«205080_g78649441125020_cont_9to1_m_374_30_alg».proof.Defs
import proofs.«205080_g78649441125020_cont_9to1_m_374_30_alg».proof.Proof.Gen.Kernel
import proofs.«205080_g78649441125020_cont_9to1_m_374_30_alg».proof.Proof.Gen.KernelIdeal
import proofs.«205080_g78649441125020_cont_9to1_m_374_30_alg».proof.Proof.Gen.ReferenceIdeal
import proofs.«205080_g78649441125020_cont_9to1_m_374_30_alg».proof.Proof.Gen.Pre_input_domain
import proofs.«205080_g78649441125020_cont_9to1_m_374_30_alg».proof.Proof.AssembleIdeal
import proofs.«205080_g78649441125020_cont_9to1_m_374_30_alg».proof.Proof.AssembleBits

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.BitsSide.frame_K, Cert.Proof.IdealSide.frame_KI, Cert.Proof.IdealSide.frame_RI, trivial, Cert.Proof.IdealSide.algebraic⟩

end Cert.Proof

end
